-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S4000x512 : Shape := ⟨2, ![4000, 512]⟩
abbrev S4000x16 : Shape := ⟨2, ![4000, 16]⟩
abbrev S100000x1 : Shape := ⟨2, ![100000, 1]⟩
abbrev S3200000x16 : Shape := ⟨2, ![3200000, 16]⟩
abbrev S1x16 : Shape := ⟨2, ![1, 16]⟩
abbrev S100000x40 : Shape := ⟨2, ![100000, 40]⟩
abbrev S5000x16 : Shape := ⟨2, ![5000, 16]⟩
abbrev S5000x40 : Shape := ⟨2, ![5000, 40]⟩
abbrev S3200000x40 : Shape := ⟨2, ![3200000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 72
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x16, .f32⟩
  | .hbm, ⟨22, _⟩ => ⟨S100000x1, .f32⟩
  | .hbm, ⟨23, _⟩ => ⟨S100000x16, .f32⟩
  | .hbm, ⟨24, _⟩ => ⟨S100000x16, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x16, .f32⟩
  | .hbm, ⟨34, _⟩ => ⟨S_, .f32⟩
  | .hbm, ⟨35, _⟩ => ⟨S100000x16, .f32⟩
  | .hbm, ⟨36, _⟩ => ⟨S3200000x1, .i32⟩
  | .hbm, ⟨37, _⟩ => ⟨S100000x16, .f32⟩
  | .hbm, ⟨38, _⟩ => ⟨S100000x1, .f32⟩
  | .hbm, ⟨39, _⟩ => ⟨S100000x16, .f32⟩
  | .hbm, ⟨40, _⟩ => ⟨S100000x16, .f32⟩
  | .hbm, ⟨41, _⟩ => ⟨S100000x1, .f32⟩
  | .hbm, ⟨42, _⟩ => ⟨S100000x16, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x40, .f32⟩
  | .hbm, ⟨47, _⟩ => ⟨S100000x1, .f32⟩
  | .hbm, ⟨48, _⟩ => ⟨S100000x40, .f32⟩
  | .hbm, ⟨49, _⟩ => ⟨S100000x40, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x40, .f32⟩
  | .hbm, ⟨59, _⟩ => ⟨S_, .f32⟩
  | .hbm, ⟨60, _⟩ => ⟨S100000x40, .f32⟩
  | .hbm, ⟨61, _⟩ => ⟨S3200000x1, .i32⟩
  | .hbm, ⟨62, _⟩ => ⟨S100000x40, .f32⟩
  | .hbm, ⟨63, _⟩ => ⟨S100000x1, .f32⟩
  | .hbm, ⟨64, _⟩ => ⟨S100000x40, .f32⟩
  | .hbm, ⟨65, _⟩ => ⟨S100000x40, .f32⟩
  | .hbm, ⟨66, _⟩ => ⟨S100000x1, .f32⟩
  | .hbm, ⟨67, _⟩ => ⟨S100000x40, .f32⟩
  | .hbm, ⟨68, _⟩ => ⟨S100000x40, .f32⟩
  | .hbm, ⟨69, _⟩ => ⟨S100000x40, .f32⟩
  | .hbm, ⟨70, _⟩ => ⟨S1x40, .f32⟩
  | .hbm, ⟨71, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S4000x512_S4000x512_0_0 : ∀ a, (![0, 0] : Fin 2 → Nat) a + S4000x512.size a ≤ S4000x512.size a
  h_S4000x512 : 0 < S4000x512.numel
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S100000x1_S100000x40_0_1 : S100000x1.BroadcastsInDim S100000x40 (![0, 1] : Fin 2 → Fin S100000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3200000x1_S3200000_n_0_0_1_wf : ScatterDims.WF S100000 S3200000x1 S3200000 [] [0] [0] 1
  dot_S4000x512_S512x16_S4000x16_1_0_0_1_n_n_wf : DotDims.WF S4000x512 S512x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x40_S5000x40_1_0_0_1_n_n_wf : DotDims.WF S5000x16 S16x40 S5000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S3300000, .i32⟩
  | 28 => ⟨S3300000, .i1⟩
  | 29 => ⟨S_, .i32⟩
  | 30 => ⟨S3300000, .i32⟩
  | 31 => ⟨S3300000, .i32⟩
  | 32 => ⟨S3300000, .i32⟩
  | 33 => ⟨S3300000x1, .i32⟩
  | 34 => ⟨S3300000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S3300000, .f32⟩
  | 45 => ⟨S100000x16, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x16, .f32⟩
  | 55 => ⟨S3300000x1, .f32⟩
  | 56 => ⟨S3300000x16, .f32⟩
  | 57 => ⟨S3300000x16, .f32⟩
  | 58 => ⟨S_, .f32⟩
  | 59 => ⟨S100000x16, .f32⟩
  | 60 => ⟨S3300000x1, .i32⟩
  | 61 => ⟨S100000x16, .f32⟩
  | 62 => ⟨S1x16, .f32⟩
  | 63 => ⟨S100000x16, .f32⟩
  | 64 => ⟨S100000x16, .f32⟩
  | 65 => ⟨S_, .f32⟩
  | 66 => ⟨S100000x16, .f32⟩
  | 67 => ⟨S100000x16, .f32⟩
  | 68 => ⟨S100000, .i32⟩
  | 69 => ⟨S3300000, .i32⟩
  | 70 => ⟨S3300000, .i32⟩
  | 71 => ⟨S_, .f32⟩
  | 72 => ⟨S3300000, .f32⟩
  | 73 => ⟨S_, .f32⟩
  | 74 => ⟨S100000, .f32⟩
  | 75 => ⟨S3300000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S100000x40, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x40, .f32⟩
  | 113 => ⟨S3300000x1, .f32⟩
  | 114 => ⟨S3300000x40, .f32⟩
  | 115 => ⟨S3300000x40, .f32⟩
  | 116 => ⟨S_, .f32⟩
  | 117 => ⟨S100000x40, .f32⟩
  | 118 => ⟨S3300000x1, .i32⟩
  | 119 => ⟨S100000x40, .f32⟩
  | 120 => ⟨S1x40, .f32⟩
  | 121 => ⟨S100000x40, .f32⟩
  | 122 => ⟨S100000x40, .f32⟩
  | 123 => ⟨S_, .f32⟩
  | 124 => ⟨S100000, .f32⟩
  | 125 => ⟨S_, .f32⟩
  | 126 => ⟨S100000, .f32⟩
  | 127 => ⟨S100000, .f32⟩
  | _ => ⟨S100000x512, .f32⟩

abbrev hbmTy0_1 (i : Nat) : BufTy := match i % 128 with
  | 0 => ⟨S100000x1, .f32⟩
  | 1 => ⟨S100000x40, .f32⟩
  | 2 => ⟨S100000x40, .f32⟩
  | 3 => ⟨S100000x40, .f32⟩
  | 4 => ⟨S_, .f32⟩
  | 5 => ⟨S100000, .f32⟩
  | 6 => ⟨S100000x1, .f32⟩
  | 7 => ⟨S100000x1, .f32⟩
  | 8 => ⟨S100000x40, .f32⟩
  | 9 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call3_cst : Ref sig .tc := ⟨.hbm, 123, rfl⟩
abbrev main_call3_v0 : Ref sig .tc := ⟨.hbm, 124, rfl⟩
abbrev main_call3_cst_0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_cst_1 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_v93 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  The three dense stages of a two-layer graph convolution, as whole-array functions over the extended reals.

  Every stage works row by row on a matrix with one row per node:
  • `proj x w` is the matrix product: entry `(r, c)` is `∑ k, x (r, k) · w (k, c)`;
  • `reluProj p b w` adds the bias row `b` to `p`, cuts the sum off below at zero and multiplies by `w`:
    entry `(r, c)` is `∑ k, max (p (r, k) + b (0, k)) 0 · w (k, c)`;
  • `logsm z b` adds the bias row `b` to `z` and takes the logarithm of the softmax of each row, in the shifted
    form: with `y j = z (r, j) + b (0, j)` and `M` the maximum of the `y j` (a fold of `max` from the value `lo` the
    fold starts at), entry `(r, c)` is `(y c − M) − log (∑ j, exp (y j − M))`.
  Between them a layer mixes the rows along the edges of the graph; that part is not here.
-/
import Idealize.ShloMosaic.PureOps.Ideal
import Idealize.ShloMosaic.Lib.ValueIdx

noncomputable section

namespace Cert.Spec

open Idealize.ShloMosaic Idealize.ShloMosaic.ValueIdx

/-- The row of a rank-2 index as a number below the literal extent. -/
abbrev row {n C : Nat} (i : (⟨2, ![n, C]⟩ : Shape).Idx) : Fin n := ⟨(i 0).val, idx2_lt0 i⟩
/-- Its column. -/
abbrev col {n C : Nat} (i : (⟨2, ![n, C]⟩ : Shape).Idx) : Fin C := ⟨(i 1).val, idx2_lt1 i⟩

/-- The matrix product `x · w`. -/
def proj {n K C : Nat} (x : (⟨2, ![n, K]⟩ : Shape).Idx → EReal) (w : (⟨2, ![K, C]⟩ : Shape).Idx → EReal) :
    (⟨2, ![n, C]⟩ : Shape).Idx → EReal :=
  fun i => ∑ k : Fin K, x (ix2 (row i) k) * w (ix2 k (col i))

theorem proj_apply {n K C : Nat} (x : (⟨2, ![n, K]⟩ : Shape).Idx → EReal) (w : (⟨2, ![K, C]⟩ : Shape).Idx → EReal)
    (r : Fin n) (c : Fin C) : proj x w (ix2 r c) = ∑ k : Fin K, x (ix2 r k) * w (ix2 k c) := rfl

/-- `max (p + b) 0 · w`: the bias row added, the negative part cut off, then the matrix product. -/
def reluProj {n K C : Nat} (p : (⟨2, ![n, K]⟩ : Shape).Idx → EReal) (b : (⟨2, ![1, K]⟩ : Shape).Idx → EReal)
    (w : (⟨2, ![K, C]⟩ : Shape).Idx → EReal) : (⟨2, ![n, C]⟩ : Shape).Idx → EReal :=
  fun i => ∑ k : Fin K, max (p (ix2 (row i) k) + b (ix2 (0 : Fin 1) k)) 0 * w (ix2 k (col i))

theorem reluProj_apply {n K C : Nat} (p : (⟨2, ![n, K]⟩ : Shape).Idx → EReal) (b : (⟨2, ![1, K]⟩ : Shape).Idx → EReal)
    (w : (⟨2, ![K, C]⟩ : Shape).Idx → EReal) (r : Fin n) (c : Fin C) :
    reluProj p b w (ix2 r c) = ∑ k : Fin K, max (p (ix2 r k) + b (ix2 (0 : Fin 1) k)) 0 * w (ix2 k c) := rfl

/-- The logarithm of the softmax of each row of `z + b`, shifted by the row's maximum (the fold of `max` starts at `lo`). -/
def logsm {n C : Nat} (lo : EReal) (z : (⟨2, ![n, C]⟩ : Shape).Idx → EReal) (b : (⟨2, ![1, C]⟩ : Shape).Idx → EReal) :
    (⟨2, ![n, C]⟩ : Shape).Idx → EReal :=
  fun i =>
    (z (ix2 (row i) (col i)) + b (ix2 (0 : Fin 1) (col i))
        - (Finset.univ : Finset (Fin C)).fold max lo (fun j => z (ix2 (row i) j) + b (ix2 (0 : Fin 1) j)))
      - Ideal.log (∑ j : Fin C, Ideal.exp (z (ix2 (row i) j) + b (ix2 (0 : Fin 1) j)
          - (Finset.univ : Finset (Fin C)).fold max lo (fun j' => z (ix2 (row i) j') + b (ix2 (0 : Fin 1) j'))))

theorem logsm_apply {n C : Nat} (lo : EReal) (z : (⟨2, ![n, C]⟩ : Shape).Idx → EReal) (b : (⟨2, ![1, C]⟩ : Shape).Idx → EReal)
    (r : Fin n) (c : Fin C) :
    logsm lo z b (ix2 r c)
      = (z (ix2 r c) + b (ix2 (0 : Fin 1) c)
          - (Finset.univ : Finset (Fin C)).fold max lo (fun j => z (ix2 r j) + b (ix2 (0 : Fin 1) j)))
        - Ideal.log (∑ j : Fin C, Ideal.exp (z (ix2 r j) + b (ix2 (0 : Fin 1) j)
            - (Finset.univ : Finset (Fin C)).fold max lo (fun j' => z (ix2 r j') + b (ix2 (0 : Fin 1) j')))) := rfl

end Cert.Spec

end
-- ==== Proof.Region0.lean ====
/-
  Region 0 of the kernel program: the first dense stage. Each of the 25 grid points multiplies a block of 4000
  rows of the node features by the whole weight matrix and writes the 4000 rows of the product back, so the
  output array ends as the matrix product of the two input arrays as the region finds them.

  The steps: the body's arithmetic read at an entry (a sum of 512 products), the blocks the windows cut out of their
  arrays at a grid point (rows 4000·t … 4000·t + 3999 of the features and of the product, the whole weight matrix),
  what a point writes back as a block of the product, and the cover of the 100000 rows by the 25 blocks.
-/
import proofs.«116229_j74002286510429_2_alg».proof.Proof.Gen.KernelIdeal.Frame
import proofs.«116229_j74002286510429_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KVal

open Cert.KernelIdeal Cert.KernelIdeal.Gen

/-- The zero offset of a whole-buffer access. -/
private theorem hz : (![0, 0] : Fin 2 → Nat) = fun _ => 0 := funext fun a => by fin_cases a <;> rfl

/-! ## The body's arithmetic at an entry -/

/-- The matrix product's index bookkeeping: at output entry `i` and shared coordinate `q` the left factor is read
    at row `i 0`, column `q`, and the right factor at row `q`, column `i 1`. -/
theorem lhs0_0 (i : S4000x16.Idx) (q : dot_S4000x512_S512x16_S4000x16_1_0_0_1_n_n.contr.Idx) :
    (dot_S4000x512_S512x16_S4000x16_1_0_0_1_n_n.lhsIdx i q 0).val = (i 0).val := by
  unfold DotDims.lhsIdx
  rw [dif_neg (show ¬(0 : Fin S4000x512.rank) ∈ dot_S4000x512_S512x16_S4000x16_1_0_0_1_n_n.lhsBatch by decide), dif_pos (show (0 : Fin S4000x512.rank) ∈ dot_S4000x512_S512x16_S4000x16_1_0_0_1_n_n.lhsNonContracting by decide)]
  rfl
theorem lhs0_1 (i : S4000x16.Idx) (q : dot_S4000x512_S512x16_S4000x16_1_0_0_1_n_n.contr.Idx) :
    (dot_S4000x512_S512x16_S4000x16_1_0_0_1_n_n.lhsIdx i q 1).val = (q ⟨0, by decide⟩).val :=
  dot_S4000x512_S512x16_S4000x16_1_0_0_1_n_n.lhsIdx_val_of_single rfl i q
theorem rhs0_0 (i : S4000x16.Idx) (q : dot_S4000x512_S512x16_S4000x16_1_0_0_1_n_n.contr.Idx) :
    (dot_S4000x512_S512x16_S4000x16_1_0_0_1_n_n.rhsIdx i q 0).val = (q ⟨0, by decide⟩).val :=
  dot_S4000x512_S512x16_S4000x16_1_0_0_1_n_n.rhsIdx_val_of_single rfl i q
theorem rhs0_1 (i : S4000x16.Idx) (q : dot_S4000x512_S512x16_S4000x16_1_0_0_1_n_n.contr.Idx) :
    (dot_S4000x512_S512x16_S4000x16_1_0_0_1_n_n.rhsIdx i q 1).val = (i 1).val := by
  unfold DotDims.rhsIdx
  rw [dif_neg (show ¬(1 : Fin S512x16.rank) ∈ dot_S4000x512_S512x16_S4000x16_1_0_0_1_n_n.rhsBatch by decide), dif_pos (show (1 : Fin S512x16.rank) ∈ dot_S4000x512_S512x16_S4000x16_1_0_0_1_n_n.rhsNonContracting by decide)]
  rfl

/-- The product of a 4000 × 512 block and the 512 × 16 weights, at entry `(p, q)`: the sum over the 512 shared
    coordinates of the products of the entries. -/
theorem pay0_apply (x0 : Vec Ideal S4000x512 .f32) (x1 : Vec Ideal S512x16 .f32) (p : Fin 4000) (q : Fin 16) :
    Gen.k0_pay1 (F := Ideal) x0 x1 (ix2 p q) = ∑ k : Fin 512, x0 (ix2 p k) * x1 (ix2 k q) := by
  unfold Gen.k0_pay1
  refine (Ideal.matmul_constant_zero_apply dot_S4000x512_S512x16_S4000x16_1_0_0_1_n_n none x0 x1 (ix2 p q)).trans ?_
  rw [← Equiv.sum_comp (contrEquiv1 dot_S4000x512_S512x16_S4000x16_1_0_0_1_n_n 512 rfl rfl).symm]
  refine Finset.sum_congr rfl fun k _ => ?_
  have hk := contrEquiv1_symm_val dot_S4000x512_S512x16_S4000x16_1_0_0_1_n_n 512 rfl rfl k
  have el : dot_S4000x512_S512x16_S4000x16_1_0_0_1_n_n.lhsIdx (ix2 p q) ((contrEquiv1 dot_S4000x512_S512x16_S4000x16_1_0_0_1_n_n 512 rfl rfl).symm k) = ix2 p k :=
    funext fun a => Fin.ext (by
      match a with
      | ⟨0, _⟩ => exact lhs0_0 _ _
      | ⟨1, _⟩ => exact (lhs0_1 _ _).trans hk)
  have er : dot_S4000x512_S512x16_S4000x16_1_0_0_1_n_n.rhsIdx (ix2 p q) ((contrEquiv1 dot_S4000x512_S512x16_S4000x16_1_0_0_1_n_n 512 rfl rfl).symm k) = ix2 k q :=
    funext fun a => Fin.ext (by
      match a with
      | ⟨0, _⟩ => exact (rhs0_0 _ _).trans hk
      | ⟨1, _⟩ => exact rhs0_1 _ _)
  rw [el, er]

/-! ## The blocks at a grid point -/

variable (V : (c : Dev nD) → (b : Ref sig .tc) → Buf (Elt Ideal) ((c : Thread nD τ).loc b))

/-- The grid has 25 points. -/
theorem lt_grid0 (t : Fin cfg0.N) : t.val < 25 := lt_of_lt_of_eq t.isLt N_0

/-- The block index maps over the grid: at point `t` the features' window and the product's window are at block row
    `t`, block column 0; the weights' window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block of 4000 rows at point `t` is row `4000 t + p` of the array. -/
abbrev row0 (t : Fin cfg0.N) (p : Fin 4000) : Fin 100000 := ⟨4000 * t.val + p.val, by have := lt_grid0 t; have := p.isLt; omega⟩

/-- The features' block at point `t`, at `(p, k)`: the features at row `4000 t + p`. -/
theorem iblk0_0_apply (c : Dev nD) (t : Fin cfg0.N) (p : Fin 4000) (k : Fin 512) :
    Gen.iblk0 (F := Ideal) V c 0 t (ix2 p k) = V c main_arg0 (ix2 (row0 t p) k) := by
  obtain ⟨e0, e1, -, -, -, -⟩ := idx_facts0 t
  unfold Gen.iblk0
  rw [View.read_apply]
  show V c main_arg0 _ = V c main_arg0 _
  refine congrArg (V c main_arg0) (funext fun a => Fin.ext ?_)
  match a with
  | ⟨0, _⟩ => show win0_0.index t (0 : Fin 2) * 4000 + 1 * p.val = 4000 * t.val + p.val; omega
  | ⟨1, _⟩ => show win0_0.index t (1 : Fin 2) * 512 + 1 * k.val = k.val; omega

/-- The weights' block at every point is the whole weight matrix. -/
theorem iblk0_1_apply (c : Dev nD) (t : Fin cfg0.N) (k : Fin 512) (q : Fin 16) :
    Gen.iblk0 (F := Ideal) V c 1 t (ix2 k q) = V c main_arg2 (ix2 k q) := by
  obtain ⟨-, -, e2, e3, -, -⟩ := idx_facts0 t
  unfold Gen.iblk0
  rw [View.read_apply]
  show V c main_arg2 _ = V c main_arg2 _
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 16 + 1 * q.val = q.val; omega

/-- Entry `(p, q)` of the product's block at point `t` is entry `(4000 t + p, q)` of the array. -/
theorem emb0_2 (t : Fin cfg0.N) (p : Fin 4000) (q : Fin 16) :
    ((cfg0.win 2).blk t).view.emb (ix2 p q) = (ix2 (row0 t p) q : S100000x16.Idx) := by
  obtain ⟨-, -, -, -, e4, e5⟩ := idx_facts0 t
  refine funext fun a => Fin.ext ?_
  match a with
  | ⟨0, _⟩ => show win0_2.index t (0 : Fin 2) * 4000 + 1 * p.val = 4000 * t.val + p.val; omega
  | ⟨1, _⟩ => show win0_2.index t (1 : Fin 2) * 16 + 1 * q.val = q.val; omega

/-! ## What a point writes back -/

/-- Point `t` writes back block `t` of the matrix product of the two input arrays. -/
theorem flushed0_eq (c : Dev nD) (t : Fin cfg0.N) :
    (Gen.dat0 (F := Ideal) V c).flushed 2 t
      = ((cfg0.win 2).blk t).view.read (Elt Ideal) (Spec.proj (V c main_arg0) (V c main_arg2)) := by
  show (cfg0.win 2).cut (grid0.coords t) ((Gen.dat0 (F := Ideal) V c).after 2 t) = _
  rw [Gen.after0_2]
  unfold Gen.out0_2
  rw [View.canon_unit_zero hz]
  simp only [View.ld_unit_zero (S := S4000x512) hz, View.ld_unit_zero (S := S512x16) hz]
  refine funext fun (j : S4000x16.Idx) => ?_
  obtain ⟨p, q, rfl⟩ : ∃ (p : Fin 4000) (q : Fin 16), j = ix2 p q := ⟨j 0, j 1, eq_ix2 j⟩
  show Gen.k0_pay1 (F := Ideal) (Gen.iblk0 V c 0 t) (Gen.iblk0 V c 1 t) (ix2 p q)
    = Spec.proj (V c main_arg0) (V c main_arg2) (((cfg0.win 2).blk t).view.emb (ix2 p q))
  refine (pay0_apply _ _ p q).trans ?_
  refine Eq.trans ?_ (congrArg (Spec.proj (V c main_arg0) (V c main_arg2)) (emb0_2 t p q)).symm
  refine Eq.trans ?_ (Spec.proj_apply (V c main_arg0) (V c main_arg2) (row0 t p) q).symm
  exact Finset.sum_congr rfl fun k _ => by rw [iblk0_0_apply, iblk0_1_apply]

/-! ## The cover and the array -/

/-- An entry of the product is in point `t`'s block iff its coordinates are in the block's ranges. -/
theorem mem_blk0 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v12).slice (win0_2.rect t)).set ↔ _
  rw [View.set_slice_whole, Rect.mem_set_unit]
  exact Iff.rfl

/-- Row `r` of the product is in the block of point `r / 4000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 4000, lt_of_lt_of_eq (by omega : (i 0).val / 4000 < 25) N_0.symm⟩
  obtain ⟨-, -, -, -, e4, e5⟩ := idx_facts0 t
  have ht : t.val = (i 0).val / 4000 := rfl
  refine ⟨t, Gen.flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- After region 0 the product's array is the matrix product of the features and the weights as the region found them. -/
theorem region0_out (c : Dev nD) :
    (Gen.dat0 (F := Ideal) V c).arrAt 2 cfg0.N = Spec.proj (V c main_arg0) (V c main_arg2) :=
  (Gen.dat0 (F := Ideal) V c).arrAt_eq_of_cover 2 (Spec.proj (V c main_arg0) (V c main_arg2))
    (fun t _ => flushed0_eq V c t) cover0

end Cert.KernelIdeal.KVal

end
-- ==== Proof.Region1.lean ====
/-
  Region 1 of the kernel program: the second dense stage. Each of the 20 grid points takes a block of 5000 rows of
  the mixed first-layer values, adds the bias row to every row, cuts the sums off below at zero, multiplies by the
  whole second weight matrix and writes the 5000 rows of the result back, so the output array ends as
  `max (p + b) 0 · w` of the three input arrays as the region finds them.

  The steps: the body's arithmetic read at an entry (a sum of 16 products), the blocks the windows cut out of their
  arrays at a grid point (rows 5000·t … 5000·t + 4999 of the values and of the result, the whole bias row and the
  whole weight matrix), what a point writes back as a block of the result, and the cover of the 100000 rows by the
  20 blocks.
-/
import proofs.«116229_j74002286510429_2_alg».proof.Proof.Gen.KernelIdeal.Frame
import proofs.«116229_j74002286510429_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KVal

open Cert.KernelIdeal Cert.KernelIdeal.Gen

/-- The zero offset of a whole-buffer access. -/
private theorem hz : (![0, 0] : Fin 2 → Nat) = fun _ => 0 := funext fun a => by fin_cases a <;> rfl

/-! ## The body's arithmetic at an entry -/

/-- The matrix product's index bookkeeping: at output entry `i` and shared coordinate `q` the left factor is read
    at row `i 0`, column `q`, and the right factor at row `q`, column `i 1`. -/
theorem lhs1_0 (i : S5000x40.Idx) (q : dot_S5000x16_S16x40_S5000x40_1_0_0_1_n_n.contr.Idx) :
    (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem lhs1_1 (i : S5000x40.Idx) (q : dot_S5000x16_S16x40_S5000x40_1_0_0_1_n_n.contr.Idx) :
    (dot_S5000x16_S16x40_S5000x40_1_0_0_1_n_n.lhsIdx i q 1).val = (q ⟨0, by decide⟩).val :=
  dot_S5000x16_S16x40_S5000x40_1_0_0_1_n_n.lhsIdx_val_of_single rfl i q
theorem rhs1_0 (i : S5000x40.Idx) (q : dot_S5000x16_S16x40_S5000x40_1_0_0_1_n_n.contr.Idx) :
    (dot_S5000x16_S16x40_S5000x40_1_0_0_1_n_n.rhsIdx i q 0).val = (q ⟨0, by decide⟩).val :=
  dot_S5000x16_S16x40_S5000x40_1_0_0_1_n_n.rhsIdx_val_of_single rfl i q
theorem rhs1_1 (i : S5000x40.Idx) (q : dot_S5000x16_S16x40_S5000x40_1_0_0_1_n_n.contr.Idx) :
    (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- The left factor at `(p, k)`: the bias row's entry `k` added to the value, the sum cut off below at zero. The
    two casts keep the shape, so they change nothing; the bias row is repeated down the 5000 rows. -/
theorem relu1_apply (v0 : Vec Ideal S5000x16 .f32) (v2 : Vec Ideal S1x16 .f32)
    (h1 : S5000x16.ShapeCasts S5000x16) (h2 : S1x16.ShapeCasts S1x16) (hb : S1x16.Broadcasts S5000x16)
    (p : Fin 5000) (k : Fin 16) :
    maximumf (addf (shapeCast S5000x16 v0 h1) (broadcastTo S5000x16 (shapeCast S1x16 v2 h2) hb))
        (broadcast S5000x16 (Scalar.ofBits (F := Ideal) .f32 0x00000000#32)) (ix2 p k)
      = max (v0 (ix2 p k) + v2 (ix2 (0 : Fin 1) k)) 0 := by
  rw [shapeCast_self, shapeCast_self]
  show max (v0 (ix2 p k) + broadcastTo S5000x16 v2 hb (ix2 p k)) (Ideal.ofBits .f32 0x00000000#32) = _
  rw [broadcastTo_1b_ab_apply, Ideal.ofBits_zero_f32]

/-- The body's result at entry `(p, q)`: the sum over the 16 shared coordinates of the cut-off sums times the weights. -/
theorem pay1_apply (v0 : Vec Ideal S5000x16 .f32) (v2 : Vec Ideal S1x16 .f32) (v8 : Vec Ideal S16x40 .f32)
    (p : Fin 5000) (q : Fin 40) :
    Gen.k1_pay1 (F := Ideal) v0 v2 v8 (ix2 p q)
      = ∑ k : Fin 16, max (v0 (ix2 p k) + v2 (ix2 (0 : Fin 1) k)) 0 * v8 (ix2 k q) := by
  unfold Gen.k1_pay1
  refine (Ideal.matmul_constant_zero_apply dot_S5000x16_S16x40_S5000x40_1_0_0_1_n_n none _ v8 (ix2 p q)).trans ?_
  rw [← Equiv.sum_comp (contrEquiv1 dot_S5000x16_S16x40_S5000x40_1_0_0_1_n_n 16 rfl rfl).symm]
  refine Finset.sum_congr rfl fun k _ => ?_
  have hk := contrEquiv1_symm_val dot_S5000x16_S16x40_S5000x40_1_0_0_1_n_n 16 rfl rfl k
  have el : dot_S5000x16_S16x40_S5000x40_1_0_0_1_n_n.lhsIdx (ix2 p q) ((contrEquiv1 dot_S5000x16_S16x40_S5000x40_1_0_0_1_n_n 16 rfl rfl).symm k) = ix2 p k :=
    funext fun a => Fin.ext (by
      match a with
      | ⟨0, _⟩ => exact lhs1_0 _ _
      | ⟨1, _⟩ => exact (lhs1_1 _ _).trans hk)
  have er : dot_S5000x16_S16x40_S5000x40_1_0_0_1_n_n.rhsIdx (ix2 p q) ((contrEquiv1 dot_S5000x16_S16x40_S5000x40_1_0_0_1_n_n 16 rfl rfl).symm k) = ix2 k q :=
    funext fun a => Fin.ext (by
      match a with
      | ⟨0, _⟩ => exact (rhs1_0 _ _).trans hk
      | ⟨1, _⟩ => exact rhs1_1 _ _)
  rw [el, er]
  exact congrArg (· * v8 (ix2 k q)) (relu1_apply v0 v2 _ _ _ p k)

/-! ## The blocks at a grid point -/

variable (V : (c : Dev nD) → (b : Ref sig .tc) → Buf (Elt Ideal) ((c : Thread nD τ).loc b))

/-- The grid has 20 points. -/
theorem lt_grid1 (t : Fin cfg1.N) : t.val < 20 := lt_of_lt_of_eq t.isLt N_1

/-- The block index maps over the grid: at point `t` the values' window and the result's window are at block row
    `t`, block column 0; the bias row's and the weights' windows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the block of 5000 rows at point `t` is row `5000 t + p` of the array. -/
abbrev row1 (t : Fin cfg1.N) (p : Fin 5000) : Fin 100000 := ⟨5000 * t.val + p.val, by have := lt_grid1 t; have := p.isLt; omega⟩

/-- The values' block at point `t`, at `(p, k)`: the values at row `5000 t + p`. -/
theorem iblk1_0_apply (c : Dev nD) (t : Fin cfg1.N) (p : Fin 5000) (k : Fin 16) :
    Gen.iblk1 (F := Ideal) V c 0 t (ix2 p k) = V c main_v32 (ix2 (row1 t p) k) := by
  obtain ⟨e0, e1, -, -, -, -, -, -⟩ := idx_facts1 t
  unfold Gen.iblk1
  rw [View.read_apply]
  show V c main_v32 _ = V c main_v32 _
  refine congrArg (V c main_v32) (funext fun a => Fin.ext ?_)
  match a with
  | ⟨0, _⟩ => show win1_0.index t (0 : Fin 2) * 5000 + 1 * p.val = 5000 * t.val + p.val; omega
  | ⟨1, _⟩ => show win1_0.index t (1 : Fin 2) * 16 + 1 * k.val = k.val; omega

/-- The bias row's block at every point is the whole bias row. -/
theorem iblk1_1_apply (c : Dev nD) (t : Fin cfg1.N) (u : Fin 1) (k : Fin 16) :
    Gen.iblk1 (F := Ideal) V c 1 t (ix2 u k) = V c main_v33 (ix2 u k) := by
  obtain ⟨-, -, e2, e3, -, -, -, -⟩ := idx_facts1 t
  unfold Gen.iblk1
  rw [View.read_apply]
  show V c main_v33 _ = V c main_v33 _
  refine congrArg (V c main_v33) (funext fun a => Fin.ext ?_)
  match a with
  | ⟨0, _⟩ => show win1_1.index t (0 : Fin 2) * 1 + 1 * u.val = u.val; omega
  | ⟨1, _⟩ => show win1_1.index t (1 : Fin 2) * 16 + 1 * k.val = k.val; omega

/-- The weights' block at every point is the whole weight matrix. -/
theorem iblk1_2_apply (c : Dev nD) (t : Fin cfg1.N) (k : Fin 16) (q : Fin 40) :
    Gen.iblk1 (F := Ideal) V c 2 t (ix2 k q) = V c main_arg4 (ix2 k q) := by
  obtain ⟨-, -, -, -, e4, e5, -, -⟩ := idx_facts1 t
  unfold Gen.iblk1
  rw [View.read_apply]
  show V c main_arg4 _ = V c main_arg4 _
  refine congrArg (V c main_arg4) (funext fun a => Fin.ext ?_)
  match a with
  | ⟨0, _⟩ => show win1_2.index t (0 : Fin 2) * 16 + 1 * k.val = k.val; omega
  | ⟨1, _⟩ => show win1_2.index t (1 : Fin 2) * 40 + 1 * q.val = q.val; omega

/-- Entry `(p, q)` of the result's block at point `t` is entry `(5000 t + p, q)` of the array. -/
theorem emb1_3 (t : Fin cfg1.N) (p : Fin 5000) (q : Fin 40) :
    ((cfg1.win 3).blk t).view.emb (ix2 p q) = (ix2 (row1 t p) q : S100000x40.Idx) := by
  obtain ⟨-, -, -, -, -, -, e6, e7⟩ := idx_facts1 t
  refine funext fun a => Fin.ext ?_
  match a with
  | ⟨0, _⟩ => show win1_3.index t (0 : Fin 2) * 5000 + 1 * p.val = 5000 * t.val + p.val; omega
  | ⟨1, _⟩ => show win1_3.index t (1 : Fin 2) * 40 + 1 * q.val = q.val; omega

/-! ## What a point writes back -/

/-- Point `t` writes back block `t` of `max (p + b) 0 · w` of the three input arrays. -/
theorem flushed1_eq (c : Dev nD) (t : Fin cfg1.N) :
    (Gen.dat1 (F := Ideal) V c).flushed 3 t
      = ((cfg1.win 3).blk t).view.read (Elt Ideal) (Spec.reluProj (V c main_v32) (V c main_v33) (V c main_arg4)) := by
  show (cfg1.win 3).cut (grid1.coords t) ((Gen.dat1 (F := Ideal) V c).after 3 t) = _
  rw [Gen.after1_3]
  unfold Gen.out1_3
  rw [View.canon_unit_zero hz]
  simp only [View.ld_unit_zero (S := S5000x16) hz, View.ld_unit_zero (S := S1x16) hz, View.ld_unit_zero (S := S16x40) hz]
  refine funext fun (j : S5000x40.Idx) => ?_
  obtain ⟨p, q, rfl⟩ : ∃ (p : Fin 5000) (q : Fin 40), j = ix2 p q := ⟨j 0, j 1, eq_ix2 j⟩
  show Gen.k1_pay1 (F := Ideal) (Gen.iblk1 V c 0 t) (Gen.iblk1 V c 1 t) (Gen.iblk1 V c 2 t) (ix2 p q)
    = Spec.reluProj (V c main_v32) (V c main_v33) (V c main_arg4) (((cfg1.win 3).blk t).view.emb (ix2 p q))
  refine (pay1_apply _ _ _ p q).trans ?_
  refine Eq.trans ?_ (congrArg (Spec.reluProj (V c main_v32) (V c main_v33) (V c main_arg4)) (emb1_3 t p q)).symm
  refine Eq.trans ?_ (Spec.reluProj_apply (V c main_v32) (V c main_v33) (V c main_arg4) (row1 t p) q).symm
  exact Finset.sum_congr rfl fun k _ => by rw [iblk1_0_apply, iblk1_1_apply, iblk1_2_apply]

/-! ## The cover and the array -/

/-- An entry of the result is in point `t`'s block iff its coordinates are in the block's ranges. -/
theorem mem_blk1 (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v34).slice (win1_3.rect t)).set ↔ _
  rw [View.set_slice_whole, Rect.mem_set_unit]
  exact Iff.rfl

/-- Row `r` of the result is in the block of point `r / 5000`. -/
theorem cover1 (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  let t : Fin cfg1.N := ⟨(i 0).val / 5000, lt_of_lt_of_eq (by omega : (i 0).val / 5000 < 20) N_1.symm⟩
  obtain ⟨-, -, -, -, -, -, e6, e7⟩ := idx_facts1 t
  have ht : t.val = (i 0).val / 5000 := rfl
  refine ⟨t, Gen.flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- After region 1 the result's array is `max (p + b) 0 · w` of the values, the bias row and the weights as the region
    found them. -/
theorem region1_out (c : Dev nD) :
    (Gen.dat1 (F := Ideal) V c).arrAt 3 cfg1.N = Spec.reluProj (V c main_v32) (V c main_v33) (V c main_arg4) :=
  (Gen.dat1 (F := Ideal) V c).arrAt_eq_of_cover 3 (Spec.reluProj (V c main_v32) (V c main_v33) (V c main_arg4))
    (fun t _ => flushed1_eq V c t) cover1

end Cert.KernelIdeal.KVal

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«116229_j74002286510429_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.Region2.lean ====
/-
  Region 2 of the kernel program: the last stage. Each of the 20 grid points takes a block of 5000 rows of the mixed
  second-layer values, adds the bias row to every row and takes the logarithm of the softmax of each row in the
  shifted form: with `y j` the biased entries of a row and `M` their maximum, entry `c` of the row becomes
  `(y c − M) − log (∑ j, exp (y j − M))`. It writes the 5000 rows back, so the output array ends as that function of
  the two input arrays as the region finds them.

  The steps: the body's arithmetic read at an entry — the biased entry, the row maximum kept in a column and repeated
  along the row, the shifted entry, the row sum of the exponentials kept in a column, its logarithm repeated along the
  row —, the blocks the windows cut out of their arrays at a grid point (rows 5000·t … 5000·t + 4999 of the values
  and of the result, the whole bias row), what a point writes back as a block of the result, and the cover of the
  100000 rows by the 20 blocks.
-/
import proofs.«116229_j74002286510429_2_alg».proof.Proof.Gen.KernelIdeal.Frame
import proofs.«116229_j74002286510429_2_alg».proof.Proof.Spec
import proofs.«116229_j74002286510429_2_alg».proof.Proof.LibColumns
import proofs.«116229_j74002286510429_2_alg».proof.Proof.LibRowSum
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.KVal

open Cert.KernelIdeal Cert.KernelIdeal.Gen

/-- The zero offset of a whole-buffer access. -/
private theorem hz : (![0, 0] : Fin 2 → Nat) = fun _ => 0 := funext fun a => by fin_cases a <;> rfl

/-! ## The body's arithmetic at an entry -/

/-- The biased entry at `(p, j)`: the bias row's entry `j` added to the value. The two casts keep the shape, so they
    change nothing; the bias row is repeated down the 5000 rows. -/
theorem bias2_apply (v0 : Vec Ideal S5000x40 .f32) (v2 : Vec Ideal S1x40 .f32)
    (h1 : S5000x40.ShapeCasts S5000x40) (h2 : S1x40.ShapeCasts S1x40) (hb : S1x40.Broadcasts S5000x40)
    (p : Fin 5000) (j : Fin 40) :
    addf (F := Ideal) (φ := .f32) (shapeCast S5000x40 v0 h1) (broadcastTo S5000x40 (shapeCast S1x40 v2 h2) hb) (ix2 p j)
      = v0 (ix2 p j) + v2 (ix2 (0 : Fin 1) j) := by
  rw [shapeCast_self, shapeCast_self]
  show v0 (ix2 p j) + broadcastTo S5000x40 v2 hb (ix2 p j) = _
  rw [broadcastTo_1b_ab_apply]

/-- One value per row, kept as a column and repeated along the row, reads at `(p, q)` the value of row `p`. -/
theorem col2_apply (x : FVec Ideal S5000 .f32) (hc : S5000.ShapeCasts S5000x1) (hb : S5000x1.Broadcasts S5000x40)
    (p : Fin 5000) (q : Fin 40) :
    broadcastTo S5000x40 (shapeCast S5000x1 x hc) hb (ix2 p q) = x (ix1 p) :=
  (Cert.Columns.broadcastTo_a1_ab_apply _ hb p q).trans (Cert.Columns.shapeCast_a_a1_apply x hc p 0)

/-- The same with the logarithm taken in the column. -/
theorem logcol2_apply (x : FVec Ideal S5000 .f32) (hc : S5000.ShapeCasts S5000x1) (hb : S5000x1.Broadcasts S5000x40)
    (p : Fin 5000) (q : Fin 40) :
    broadcastTo S5000x40 (Idealize.ShloMosaic.log (shapeCast S5000x1 x hc)) hb (ix2 p q) = Ideal.log (x (ix1 p)) := by
  refine (Cert.Columns.broadcastTo_a1_ab_apply _ hb p q).trans ?_
  show Ideal.log (shapeCast S5000x1 x hc (ix2 p (0 : Fin 1))) = _
  rw [Cert.Columns.shapeCast_a_a1_apply]

/-- An array with each row's maximum taken away, at `(p, q)`: the entry minus the fold of `max` over row `p`. -/
theorem shift2_apply (y : FVec Ideal S5000x40 .f32) (hr : S5000x40.Reduces [1] S5000) (hc : S5000.ShapeCasts S5000x1)
    (hb : S5000x1.Broadcasts S5000x40) (hφ : FKind.Formats .f32) (hmax : (0xFF800000#32 : BitVec 32) = FKind.maximumf.neutral .f32 hφ)
    (p : Fin 5000) (q : Fin 40) :
    subf y (broadcastTo S5000x40 (shapeCast S5000x1 (multiReduction .maximumf [1] S5000 y 0xFF800000#32 hr hφ hmax) hc) hb) (ix2 p q)
      = y (ix2 p q) - (Finset.univ : Finset (Fin 40)).fold max (Ideal.ofBits .f32 0xFF800000#32) (fun j => y (ix2 p j)) := by
  show y (ix2 p q) - broadcastTo S5000x40 (shapeCast S5000x1 (multiReduction .maximumf [1] S5000 y 0xFF800000#32 hr hφ hmax) hc) hb (ix2 p q) = _
  rw [col2_apply]
  exact congrArg (y (ix2 p q) - ·) (Cert.Columns.multiReduction_maximumf_row y 0xFF800000#32 hr hφ hmax p)

/-- An array with the logarithm of each row's sum of exponentials taken away, at `(p, q)`. -/
theorem lse2_apply (s : FVec Ideal S5000x40 .f32) (hr : S5000x40.Reduces [1] S5000) (hc : S5000.ShapeCasts S5000x1)
    (hb : S5000x1.Broadcasts S5000x40) (hφ : FKind.Formats .f32) (hadd : (0x00000000#32 : BitVec 32) = FKind.add.neutral .f32 hφ)
    (p : Fin 5000) (q : Fin 40) :
    subf s (broadcastTo S5000x40 (Idealize.ShloMosaic.log (shapeCast S5000x1
        (multiReduction .add [1] S5000 (Idealize.ShloMosaic.exp s) 0x00000000#32 hr hφ hadd) hc)) hb) (ix2 p q)
      = s (ix2 p q) - Ideal.log (∑ j : Fin 40, Ideal.exp (s (ix2 p j))) := by
  show s (ix2 p q) - broadcastTo S5000x40 (Idealize.ShloMosaic.log (shapeCast S5000x1
        (multiReduction .add [1] S5000 (Idealize.ShloMosaic.exp s) 0x00000000#32 hr hφ hadd) hc)) hb (ix2 p q) = _
  rw [logcol2_apply]
  exact congrArg (fun x => s (ix2 p q) - Ideal.log x)
    (Cert.RowSum.multiReduction_add_row (Idealize.ShloMosaic.exp s) 0x00000000#32 hr hφ hadd p)

/-- The shifted logarithm of the softmax of a row, for any array `Y` whose row `p` has the entries `A j`: at `(p, q)`
    the result is `(A q − M) − log (∑ j, exp (A j − M))` with `M` the fold of `max` over the `A j`. -/
theorem logsm2_core (Y : FVec Ideal S5000x40 .f32) (hr : S5000x40.Reduces [1] S5000) (hc : S5000.ShapeCasts S5000x1)
    (hb : S5000x1.Broadcasts S5000x40) (hφ : FKind.Formats .f32)
    (hmax : (0xFF800000#32 : BitVec 32) = FKind.maximumf.neutral .f32 hφ)
    (hadd : (0x00000000#32 : BitVec 32) = FKind.add.neutral .f32 hφ)
    (p : Fin 5000) (q : Fin 40) (A : Fin 40 → EReal) (hY : ∀ j : Fin 40, Y (ix2 p j) = A j) :
    subf (subf Y (broadcastTo S5000x40 (shapeCast S5000x1 (multiReduction .maximumf [1] S5000 Y 0xFF800000#32 hr hφ hmax) hc) hb))
        (broadcastTo S5000x40 (Idealize.ShloMosaic.log (shapeCast S5000x1
          (multiReduction .add [1] S5000 (Idealize.ShloMosaic.exp (subf Y (broadcastTo S5000x40 (shapeCast S5000x1 (multiReduction .maximumf [1] S5000 Y 0xFF800000#32 hr hφ hmax) hc) hb))) 0x00000000#32 hr hφ hadd) hc)) hb) (ix2 p q)
      = (A q - (Finset.univ : Finset (Fin 40)).fold max (Ideal.ofBits .f32 0xFF800000#32) A)
        - Ideal.log (∑ j : Fin 40, Ideal.exp (A j - (Finset.univ : Finset (Fin 40)).fold max (Ideal.ofBits .f32 0xFF800000#32) A)) := by
  refine (lse2_apply _ hr hc hb hφ hadd p q).trans ?_
  have hs : ∀ j : Fin 40, subf Y (broadcastTo S5000x40 (shapeCast S5000x1 (multiReduction .maximumf [1] S5000 Y 0xFF800000#32 hr hφ hmax) hc) hb) (ix2 p j)
      = A j - (Finset.univ : Finset (Fin 40)).fold max (Ideal.ofBits .f32 0xFF800000#32) A := fun j => by
    refine (shift2_apply Y hr hc hb hφ hmax p j).trans ?_
    rw [hY j, show (fun j => Y (ix2 p j)) = A from funext hY]
  rw [hs q]
  exact congrArg (fun x => (A q - (Finset.univ : Finset (Fin 40)).fold max (Ideal.ofBits .f32 0xFF800000#32) A) - Ideal.log x)
    (Finset.sum_congr rfl fun j _ => by rw [hs j])

/-- The body's result at entry `(p, q)`: the biased entry minus the row's maximum, minus the logarithm of the row's
    sum of the exponentials of the biased entries minus the maximum. -/
theorem pay2_apply (v0 : Vec Ideal S5000x40 .f32) (v2 : Vec Ideal S1x40 .f32) (p : Fin 5000) (q : Fin 40) :
    Gen.k2_pay1 (F := Ideal) v0 v2 (ix2 p q)
      = (v0 (ix2 p q) + v2 (ix2 (0 : Fin 1) q)
          - (Finset.univ : Finset (Fin 40)).fold max (Ideal.ofBits .f32 0xFF800000#32) (fun j => v0 (ix2 p j) + v2 (ix2 (0 : Fin 1) j)))
        - Ideal.log (∑ j : Fin 40, Ideal.exp (v0 (ix2 p j) + v2 (ix2 (0 : Fin 1) j)
            - (Finset.univ : Finset (Fin 40)).fold max (Ideal.ofBits .f32 0xFF800000#32) (fun j' => v0 (ix2 p j') + v2 (ix2 (0 : Fin 1) j')))) := by
  unfold Gen.k2_pay1
  exact logsm2_core _ _ _ _ _ _ _ p q (fun j => v0 (ix2 p j) + v2 (ix2 (0 : Fin 1) j))
    (fun j => bias2_apply v0 v2 _ _ _ p j)

/-! ## The blocks at a grid point -/

variable (V : (c : Dev nD) → (b : Ref sig .tc) → Buf (Elt Ideal) ((c : Thread nD τ).loc b))

/-- The grid has 20 points. -/
theorem lt_grid2 (t : Fin cfg2.N) : t.val < 20 := lt_of_lt_of_eq t.isLt N_2

/-- The block index maps over the grid: at point `t` the values' window and the result's window are at block row
    `t`, block column 0; the bias row's window stays at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the block of 5000 rows at point `t` is row `5000 t + p` of the array. -/
abbrev row2 (t : Fin cfg2.N) (p : Fin 5000) : Fin 100000 := ⟨5000 * t.val + p.val, by have := lt_grid2 t; have := p.isLt; omega⟩

/-- The values' block at point `t`, at `(p, j)`: the values at row `5000 t + p`. -/
theorem iblk2_0_apply (c : Dev nD) (t : Fin cfg2.N) (p : Fin 5000) (j : Fin 40) :
    Gen.iblk2 (F := Ideal) V c 0 t (ix2 p j) = V c main_v54 (ix2 (row2 t p) j) := by
  obtain ⟨e0, e1, -, -, -, -⟩ := idx_facts2 t
  unfold Gen.iblk2
  rw [View.read_apply]
  show V c main_v54 _ = V c main_v54 _
  refine congrArg (V c main_v54) (funext fun a => Fin.ext ?_)
  match a with
  | ⟨0, _⟩ => show win2_0.index t (0 : Fin 2) * 5000 + 1 * p.val = 5000 * t.val + p.val; omega
  | ⟨1, _⟩ => show win2_0.index t (1 : Fin 2) * 40 + 1 * j.val = j.val; omega

/-- The bias row's block at every point is the whole bias row. -/
theorem iblk2_1_apply (c : Dev nD) (t : Fin cfg2.N) (u : Fin 1) (j : Fin 40) :
    Gen.iblk2 (F := Ideal) V c 1 t (ix2 u j) = V c main_v55 (ix2 u j) := by
  obtain ⟨-, -, e2, e3, -, -⟩ := idx_facts2 t
  unfold Gen.iblk2
  rw [View.read_apply]
  show V c main_v55 _ = V c main_v55 _
  refine congrArg (V c main_v55) (funext fun a => Fin.ext ?_)
  match a with
  | ⟨0, _⟩ => show win2_1.index t (0 : Fin 2) * 1 + 1 * u.val = u.val; omega
  | ⟨1, _⟩ => show win2_1.index t (1 : Fin 2) * 40 + 1 * j.val = j.val; omega

/-- Entry `(p, q)` of the result's block at point `t` is entry `(5000 t + p, q)` of the array. -/
theorem emb2_2 (t : Fin cfg2.N) (p : Fin 5000) (q : Fin 40) :
    ((cfg2.win 2).blk t).view.emb (ix2 p q) = (ix2 (row2 t p) q : S100000x40.Idx) := by
  obtain ⟨-, -, -, -, e4, e5⟩ := idx_facts2 t
  refine funext fun a => Fin.ext ?_
  match a with
  | ⟨0, _⟩ => show win2_2.index t (0 : Fin 2) * 5000 + 1 * p.val = 5000 * t.val + p.val; omega
  | ⟨1, _⟩ => show win2_2.index t (1 : Fin 2) * 40 + 1 * q.val = q.val; omega

/-! ## What a point writes back -/

/-- Point `t` writes back block `t` of the logarithm of the row softmax of the biased values. -/
theorem flushed2_eq (c : Dev nD) (t : Fin cfg2.N) :
    (Gen.dat2 (F := Ideal) V c).flushed 2 t
      = ((cfg2.win 2).blk t).view.read (Elt Ideal) (Spec.logsm (Ideal.ofBits .f32 0xFF800000#32) (V c main_v54) (V c main_v55)) := by
  show (cfg2.win 2).cut (grid2.coords t) ((Gen.dat2 (F := Ideal) V c).after 2 t) = _
  rw [Gen.after2_2]
  unfold Gen.out2_2
  rw [View.canon_unit_zero hz]
  simp only [View.ld_unit_zero (S := S5000x40) hz, View.ld_unit_zero (S := S1x40) hz]
  refine funext fun (j : S5000x40.Idx) => ?_
  obtain ⟨p, q, rfl⟩ : ∃ (p : Fin 5000) (q : Fin 40), j = ix2 p q := ⟨j 0, j 1, eq_ix2 j⟩
  show Gen.k2_pay1 (F := Ideal) (Gen.iblk2 V c 0 t) (Gen.iblk2 V c 1 t) (ix2 p q)
    = Spec.logsm (Ideal.ofBits .f32 0xFF800000#32) (V c main_v54) (V c main_v55) (((cfg2.win 2).blk t).view.emb (ix2 p q))
  refine (pay2_apply _ _ p q).trans ?_
  refine Eq.trans ?_ (congrArg (Spec.logsm (Ideal.ofBits .f32 0xFF800000#32) (V c main_v54) (V c main_v55)) (emb2_2 t p q)).symm
  refine Eq.trans ?_ (Spec.logsm_apply (Ideal.ofBits .f32 0xFF800000#32) (V c main_v54) (V c main_v55) (row2 t p) q).symm
  simp only [iblk2_0_apply, iblk2_1_apply]

/-! ## The cover and the array -/

/-- An entry of the result is in point `t`'s block iff its coordinates are in the block's ranges. -/
theorem mem_blk2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v56).slice (win2_2.rect t)).set ↔ _
  rw [View.set_slice_whole, Rect.mem_set_unit]
  exact Iff.rfl

/-- Row `r` of the result is in the block of point `r / 5000`. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  let t : Fin cfg2.N := ⟨(i 0).val / 5000, lt_of_lt_of_eq (by omega : (i 0).val / 5000 < 20) N_2.symm⟩
  obtain ⟨-, -, -, -, e4, e5⟩ := idx_facts2 t
  have ht : t.val = (i 0).val / 5000 := rfl
  refine ⟨t, Gen.flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- After region 2 the result's array is the logarithm of the row softmax of the biased values, of the values and the
    bias row as the region found them. -/
theorem region2_out (c : Dev nD) :
    (Gen.dat2 (F := Ideal) V c).arrAt 2 cfg2.N
      = Spec.logsm (Ideal.ofBits .f32 0xFF800000#32) (V c main_v54) (V c main_v55) :=
  (Gen.dat2 (F := Ideal) V c).arrAt_eq_of_cover 2 (Spec.logsm (Ideal.ofBits .f32 0xFF800000#32) (V c main_v54) (V c main_v55))
    (fun t _ => flushed2_eq V c t) cover2

end Cert.KernelIdeal.KVal

end
-- ==== Proof.KernelFold.lean ====
import proofs.«116229_j74002286510429_2_alg».proof.Proof.Gen.KernelIdeal.Frame
import Idealize.ShloMosaic.Lib.StableHlo.Run
import Idealize.ShloMosaic.PureOps.Ideal

/-! # The kernel's host stretches as functions of the launch memory

The kernel program is three pipelined regions among three stretches of host operations. This module names what each
stretch computes, as a function of the arrays it reads, and states what every region finds in its input arrays and
what the last region leaves in the result array, all in terms of the launch memory `m`:

* from the edge list `ei` (argument 1): the sources `kSrc ei` and targets `kDst ei` of the edges, and the nodes'
  normalisers `kDinv (kDst ei)` — `1 / √(1 + in-degree)`;
* one propagation step `kLayer16` / `kLayer40`: `h ↦ d ⊙ scatter-add_{dst} ((d ⊙ h)[src]) + (d ⊙ d) ⊙ h`, applied to
  the first region's product and to the second region's product;
* the biases read as one-row matrices, `kBias16` / `kBias40`.

Floats are extended reals throughout (`F := Ideal`). Each definition's body is the composition of the stretch's
operations in program order; each theorem reads one buffer at one boundary of the run. -/

set_option maxRecDepth 16384

noncomputable section

namespace Cert.KernelIdeal.KVal

open Idealize.ShloMosaic Idealize.ShloMosaic.TcCoe Idealize.ShloMosaic.Tactic
open Idealize.ShloMosaic.StableHlo
open Cert.KernelIdeal.Gen

variable (m : (ℓ : Loc nD τ sig) → Buf (Elt Ideal) ℓ) (ρ : Dev nD → PrngReg) (c : Dev nD)

/-! ## The values -/

/-- Row 0 of the edge list, as a vector: the slice `[0:1, 0:3200000]` read flat. -/
def kSrc (ei : IVec S2x3200000 32) : IVec S3200000 32 :=
  shapeCast S3200000 (extractStridedSlice S1x3200000 ![0, 0] ei slices_S2x3200000_S1x3200000_0_0) shapeCasts_S1x3200000_S3200000

/-- Row 1 of the edge list, as a vector: the slice `[1:2, 0:3200000]` read flat. -/
def kDst (ei : IVec S2x3200000 32) : IVec S3200000 32 :=
  shapeCast S3200000 (extractStridedSlice S1x3200000 ![1, 0] ei slices_S2x3200000_S1x3200000_1_0) shapeCasts_S1x3200000_S3200000

/-- The inverse square root of one plus each node's in-degree: ones scatter-added into zeros at the
    edges' targets, plus one, then `rsqrt`. -/
def kDinv (dst : IVec S3200000 32) : S100000.Idx → EReal :=
  Host.rsqrt (F := Ideal) (φ := .f32)
    (addf (F := Ideal) (φ := .f32)
      (Host.scatterAdd (F := Ideal) scatter_S100000_S3200000x1_S3200000_n_0_0_1
        (broadcastInDim S100000 ![] bcast_S_S100000 (constant (F := Ideal) S_ .f32 0x00000000#32))
        (broadcastInDim S3200000x1 ![0] bcast_S3200000_S3200000x1_0 dst)
        (broadcastInDim S3200000 ![] bcast_S_S3200000 (constant (F := Ideal) S_ .f32 0x3F800000#32)))
      (broadcastInDim S100000 ![] bcast_S_S100000 (constant (F := Ideal) S_ .f32 0x3F800000#32)))

/-- One propagation step at width 16: with `d` the nodes' normalisers, `h` the node features,
    `(d ⊙ Σ_{e : dst e = i} (d ⊙ h)[src e]) + (d ⊙ d) ⊙ h` — the features scaled by `d`, gathered at the
    edges' sources (a negative source wrapped by the node count), scatter-added into zeros at the edges' targets,
    scaled by `d` again, plus the self term. -/
def kLayer16 (src dst : IVec S3200000 32) (dinv : S100000.Idx → EReal) (h : S100000x16.Idx → EReal) : S100000x16.Idx → EReal :=
  addf (F := Ideal) (φ := .f32)
    (mulf (F := Ideal) (φ := .f32)
      (broadcastInDim S100000x16 ![0, 1] bcast_S100000x1_S100000x16_0_1
        (broadcastInDim S100000x1 ![0] bcast_S100000_S100000x1_0 dinv))
      (Host.scatterAdd (F := Ideal) scatter_S100000x16_S3200000x1_S3200000x16_1_0_0_1
        (broadcastInDim S100000x16 ![] bcast_S_S100000x16 (constant (F := Ideal) S_ .f32 0x00000000#32))
        (broadcastInDim S3200000x1 ![0] bcast_S3200000_S3200000x1_0 dst)
        (Host.gather gather_S100000x16_S3200000x1_S3200000x16_1_0_n_n_0_1_116
          (mulf (F := Ideal) (φ := .f32) h
            (broadcastInDim S100000x16 ![0, 1] bcast_S100000x1_S100000x16_0_1
              (broadcastInDim S100000x1 ![0] bcast_S100000_S100000x1_0 dinv)))
          (broadcastInDim S3200000x1 ![0] bcast_S3200000_S3200000x1_0
            (select
              (cmpi .slt src (broadcastInDim S3200000 ![] bcast_S_S3200000 (constantI S_ 32 0#32)))
              (addi src (broadcastInDim S3200000 ![] bcast_S_S3200000 (constantI S_ 32 100000#32)))
              src)))))
    (mulf (F := Ideal) (φ := .f32)
      (broadcastInDim S100000x16 ![0, 1] bcast_S100000x1_S100000x16_0_1
        (broadcastInDim S100000x1 ![0] bcast_S100000_S100000x1_0 (mulf (F := Ideal) (φ := .f32) dinv dinv)))
      h)

/-- One propagation step at width 40: with `d` the nodes' normalisers, `h` the node features,
    `(d ⊙ Σ_{e : dst e = i} (d ⊙ h)[src e]) + (d ⊙ d) ⊙ h` — the features scaled by `d`, gathered at the
    edges' sources (a negative source wrapped by the node count), scatter-added into zeros at the edges' targets,
    scaled by `d` again, plus the self term. -/
def kLayer40 (src dst : IVec S3200000 32) (dinv : S100000.Idx → EReal) (h : S100000x40.Idx → EReal) : S100000x40.Idx → EReal :=
  addf (F := Ideal) (φ := .f32)
    (mulf (F := Ideal) (φ := .f32)
      (broadcastInDim S100000x40 ![0, 1] bcast_S100000x1_S100000x40_0_1
        (broadcastInDim S100000x1 ![0] bcast_S100000_S100000x1_0 dinv))
      (Host.scatterAdd (F := Ideal) scatter_S100000x40_S3200000x1_S3200000x40_1_0_0_1
        (broadcastInDim S100000x40 ![] bcast_S_S100000x40 (constant (F := Ideal) S_ .f32 0x00000000#32))
        (broadcastInDim S3200000x1 ![0] bcast_S3200000_S3200000x1_0 dst)
        (Host.gather gather_S100000x40_S3200000x1_S3200000x40_1_0_n_n_0_1_140
          (mulf (F := Ideal) (φ := .f32) h
            (broadcastInDim S100000x40 ![0, 1] bcast_S100000x1_S100000x40_0_1
              (broadcastInDim S100000x1 ![0] bcast_S100000_S100000x1_0 dinv)))
          (broadcastInDim S3200000x1 ![0] bcast_S3200000_S3200000x1_0
            (select
              (cmpi .slt src (broadcastInDim S3200000 ![] bcast_S_S3200000 (constantI S_ 32 0#32)))
              (addi src (broadcastInDim S3200000 ![] bcast_S_S3200000 (constantI S_ 32 100000#32)))
              src)))))
    (mulf (F := Ideal) (φ := .f32)
      (broadcastInDim S100000x40 ![0, 1] bcast_S100000x1_S100000x40_0_1
        (broadcastInDim S100000x1 ![0] bcast_S100000_S100000x1_0 (mulf (F := Ideal) (φ := .f32) dinv dinv)))
      h)

/-- The width-16 bias as a one-row matrix. -/
def kBias16 (b : S16.Idx → EReal) : S1x16.Idx → EReal := shapeCast S1x16 b shapeCasts_S16_S1x16

/-- The width-40 bias as a one-row matrix. -/
def kBias40 (b : S40.Idx → EReal) : S1x40.Idx → EReal := shapeCast S1x40 b shapeCasts_S40_S1x40

/-! ## What each region leaves in its output array: the pipeline's write-backs folded over all its grid points -/

/-- The first region's product, as region 0 leaves it. -/
theorem V2_v12 : Gen.V2 m ρ c main_v12 = (Gen.dat0 (Gen.V1 m ρ) c).arrAt 2 cfg0.N := Gen.W2_arr m ρ c 2
/-- The second region's product, as region 1 leaves it. -/
theorem V4_v34 : Gen.V4 m ρ c main_v34 = (Gen.dat1 (Gen.V3 m ρ) c).arrAt 3 cfg1.N := Gen.W4_arr m ρ c 3
/-- The result array, as region 2 leaves it. -/
theorem V6_v56 : Gen.W6 m ρ c (Proc.devRef .tc main_v56) = (Gen.dat2 (Gen.V5 m ρ) c).arrAt 2 cfg2.N := Gen.W6_arr m ρ c 2

/-! ## The first stretch: what region 0 is entered with

No operation of the stretch writes an argument array; the edge list's rows and the normalisers are the stretch's
own results. -/

/-- Region 0 finds the node features (argument 0) as launched. -/
theorem V1_arg0 : Gen.V1 m ρ c main_arg0 = m ((c : Thread nD τ).loc main_arg0) := by
  show StableHlo.after hostOps0 (fun b => m (c, b)) (Proc.devRef .tc main_arg0) = _
  after_results
/-- Region 0 finds the first weight matrix (argument 2) as launched. -/
theorem V1_arg2 : Gen.V1 m ρ c main_arg2 = m ((c : Thread nD τ).loc main_arg2) := by
  show StableHlo.after hostOps0 (fun b => m (c, b)) (Proc.devRef .tc main_arg2) = _
  after_results
/-- After the first stretch the edges' sources are row 0 of the launched edge list. -/
theorem V1_v1 : (Gen.V1 m ρ c main_v1 : IVec S3200000 32) = kSrc (m ((c : Thread nD τ).loc main_arg1)) := by
  show StableHlo.after hostOps0 (fun b => m (c, b)) (Proc.devRef .tc main_v1) = _
  after_results
  rfl
/-- After the first stretch the edges' targets are row 1 of the launched edge list. -/
theorem V1_v3 : (Gen.V1 m ρ c main_v3 : IVec S3200000 32) = kDst (m ((c : Thread nD τ).loc main_arg1)) := by
  show StableHlo.after hostOps0 (fun b => m (c, b)) (Proc.devRef .tc main_v3) = _
  after_results
  rfl
/-- After the first stretch the normalisers are those of the launched edge list's targets. -/
theorem V1_v10 : (Gen.V1 m ρ c main_v10 : S100000.Idx → EReal) = kDinv (kDst (m ((c : Thread nD τ).loc main_arg1))) := by
  show StableHlo.after hostOps0 (fun b => m (c, b)) (Proc.devRef .tc main_v10) = _
  after_results
  rfl
/-- After the first stretch the squared normalisers are the normalisers' pointwise square. -/
theorem V1_v11 : (Gen.V1 m ρ c main_v11 : S100000.Idx → EReal)
    = mulf (F := Ideal) (φ := .f32) (kDinv (kDst (m ((c : Thread nD τ).loc main_arg1)))) (kDinv (kDst (m ((c : Thread nD τ).loc main_arg1)))) := by
  show StableHlo.after hostOps0 (fun b => m (c, b)) (Proc.devRef .tc main_v11) = _
  after_results
  rfl

/-! ## The arguments the later stretches and regions read, at each boundary -/

theorem W1_arg3 : Gen.W1 m ρ c (Proc.devRef .tc main_arg3) = m ((c : Thread nD τ).loc main_arg3) := by
  show StableHlo.after hostOps0 (fun b => m (c, b)) (Proc.devRef .tc main_arg3) = _
  after_results
theorem W1_arg4 : Gen.W1 m ρ c (Proc.devRef .tc main_arg4) = m ((c : Thread nD τ).loc main_arg4) := by
  show StableHlo.after hostOps0 (fun b => m (c, b)) (Proc.devRef .tc main_arg4) = _
  after_results
theorem W1_arg5 : Gen.W1 m ρ c (Proc.devRef .tc main_arg5) = m ((c : Thread nD τ).loc main_arg5) := by
  show StableHlo.after hostOps0 (fun b => m (c, b)) (Proc.devRef .tc main_arg5) = _
  after_results
theorem W2_arg3 : Gen.W2 m ρ c (Proc.devRef .tc main_arg3) = m ((c : Thread nD τ).loc main_arg3) :=
  (Gen.W2_of_ne m ρ c main_arg3 (by decide)).trans (W1_arg3 m ρ c)
theorem W2_arg4 : Gen.W2 m ρ c (Proc.devRef .tc main_arg4) = m ((c : Thread nD τ).loc main_arg4) :=
  (Gen.W2_of_ne m ρ c main_arg4 (by decide)).trans (W1_arg4 m ρ c)
theorem W2_arg5 : Gen.W2 m ρ c (Proc.devRef .tc main_arg5) = m ((c : Thread nD τ).loc main_arg5) :=
  (Gen.W2_of_ne m ρ c main_arg5 (by decide)).trans (W1_arg5 m ρ c)

/-! ## Region 0's exit and the second stretch -/

theorem W2_v1 : (Gen.W2 m ρ c (Proc.devRef .tc main_v1) : IVec S3200000 32) = kSrc (m ((c : Thread nD τ).loc main_arg1)) :=
  (Gen.W2_of_ne m ρ c main_v1 (by decide)).trans (V1_v1 m ρ c)
theorem W2_v3 : (Gen.W2 m ρ c (Proc.devRef .tc main_v3) : IVec S3200000 32) = kDst (m ((c : Thread nD τ).loc main_arg1)) :=
  (Gen.W2_of_ne m ρ c main_v3 (by decide)).trans (V1_v3 m ρ c)
theorem W2_v10 : (Gen.W2 m ρ c (Proc.devRef .tc main_v10) : S100000.Idx → EReal) = kDinv (kDst (m ((c : Thread nD τ).loc main_arg1))) :=
  (Gen.W2_of_ne m ρ c main_v10 (by decide)).trans (V1_v10 m ρ c)
theorem W2_v11 : (Gen.W2 m ρ c (Proc.devRef .tc main_v11) : S100000.Idx → EReal)
    = mulf (F := Ideal) (φ := .f32) (kDinv (kDst (m ((c : Thread nD τ).loc main_arg1)))) (kDinv (kDst (m ((c : Thread nD τ).loc main_arg1)))) :=
  (Gen.W2_of_ne m ρ c main_v11 (by decide)).trans (V1_v11 m ρ c)

set_option maxHeartbeats 2000000 in
/-- Region 1 finds, as its first input, one width-16 propagation step of region 0's product, over the launched edge list. -/
theorem V3_v32 : (Gen.V3 m ρ c main_v32 : S100000x16.Idx → EReal)
    = kLayer16 (kSrc (m ((c : Thread nD τ).loc main_arg1))) (kDst (m ((c : Thread nD τ).loc main_arg1)))
        (kDinv (kDst (m ((c : Thread nD τ).loc main_arg1)))) (Gen.V2 m ρ c main_v12) := by
  show StableHlo.after hostOps1 (Gen.W2 m ρ c) (Proc.devRef .tc main_v32) = _
  after_results_simp
  rw [W2_v1 m ρ c, W2_v3 m ρ c, W2_v10 m ρ c, W2_v11 m ρ c]
  rfl

/-- Region 1 finds the launched width-16 bias as a one-row matrix. -/
theorem V3_v33 : (Gen.V3 m ρ c main_v33 : S1x16.Idx → EReal) = kBias16 (m ((c : Thread nD τ).loc main_arg3)) := by
  show StableHlo.after hostOps1 (Gen.W2 m ρ c) (Proc.devRef .tc main_v33) = _
  after_results_simp
  rw [W2_arg3 m ρ c]
  rfl
/-- Region 1 finds the second weight matrix (argument 4) as launched. -/
theorem V3_arg4 : Gen.V3 m ρ c main_arg4 = m ((c : Thread nD τ).loc main_arg4) := by
  show StableHlo.after hostOps1 (Gen.W2 m ρ c) (Proc.devRef .tc main_arg4) = _
  after_results_simp
  exact W2_arg4 m ρ c

/-! ## Region 1's exit and the third stretch -/

theorem W3_v1 : (Gen.W3 m ρ c (Proc.devRef .tc main_v1) : IVec S3200000 32) = kSrc (m ((c : Thread nD τ).loc main_arg1)) := by
  show StableHlo.after hostOps1 (Gen.W2 m ρ c) (Proc.devRef .tc main_v1) = _
  after_results_simp
  exact W2_v1 m ρ c
theorem W3_v3 : (Gen.W3 m ρ c (Proc.devRef .tc main_v3) : IVec S3200000 32) = kDst (m ((c : Thread nD τ).loc main_arg1)) := by
  show StableHlo.after hostOps1 (Gen.W2 m ρ c) (Proc.devRef .tc main_v3) = _
  after_results_simp
  exact W2_v3 m ρ c
theorem W3_v10 : (Gen.W3 m ρ c (Proc.devRef .tc main_v10) : S100000.Idx → EReal) = kDinv (kDst (m ((c : Thread nD τ).loc main_arg1))) := by
  show StableHlo.after hostOps1 (Gen.W2 m ρ c) (Proc.devRef .tc main_v10) = _
  after_results_simp
  exact W2_v10 m ρ c
theorem W3_v11 : (Gen.W3 m ρ c (Proc.devRef .tc main_v11) : S100000.Idx → EReal)
    = mulf (F := Ideal) (φ := .f32) (kDinv (kDst (m ((c : Thread nD τ).loc main_arg1)))) (kDinv (kDst (m ((c : Thread nD τ).loc main_arg1)))) := by
  show StableHlo.after hostOps1 (Gen.W2 m ρ c) (Proc.devRef .tc main_v11) = _
  after_results_simp
  exact W2_v11 m ρ c
theorem W3_arg5 : Gen.W3 m ρ c (Proc.devRef .tc main_arg5) = m ((c : Thread nD τ).loc main_arg5) := by
  show StableHlo.after hostOps1 (Gen.W2 m ρ c) (Proc.devRef .tc main_arg5) = _
  after_results_simp
  exact W2_arg5 m ρ c

theorem W4_v1 : (Gen.W4 m ρ c (Proc.devRef .tc main_v1) : IVec S3200000 32) = kSrc (m ((c : Thread nD τ).loc main_arg1)) :=
  (Gen.W4_of_ne m ρ c main_v1 (by decide)).trans (W3_v1 m ρ c)
theorem W4_v3 : (Gen.W4 m ρ c (Proc.devRef .tc main_v3) : IVec S3200000 32) = kDst (m ((c : Thread nD τ).loc main_arg1)) :=
  (Gen.W4_of_ne m ρ c main_v3 (by decide)).trans (W3_v3 m ρ c)
theorem W4_v10 : (Gen.W4 m ρ c (Proc.devRef .tc main_v10) : S100000.Idx → EReal) = kDinv (kDst (m ((c : Thread nD τ).loc main_arg1))) :=
  (Gen.W4_of_ne m ρ c main_v10 (by decide)).trans (W3_v10 m ρ c)
theorem W4_v11 : (Gen.W4 m ρ c (Proc.devRef .tc main_v11) : S100000.Idx → EReal)
    = mulf (F := Ideal) (φ := .f32) (kDinv (kDst (m ((c : Thread nD τ).loc main_arg1)))) (kDinv (kDst (m ((c : Thread nD τ).loc main_arg1)))) :=
  (Gen.W4_of_ne m ρ c main_v11 (by decide)).trans (W3_v11 m ρ c)
theorem W4_arg5 : Gen.W4 m ρ c (Proc.devRef .tc main_arg5) = m ((c : Thread nD τ).loc main_arg5) :=
  (Gen.W4_of_ne m ρ c main_arg5 (by decide)).trans (W3_arg5 m ρ c)

set_option maxHeartbeats 2000000 in
/-- Region 2 finds, as its first input, one width-40 propagation step of region 1's product, over the launched edge list. -/
theorem V5_v54 : (Gen.V5 m ρ c main_v54 : S100000x40.Idx → EReal)
    = kLayer40 (kSrc (m ((c : Thread nD τ).loc main_arg1))) (kDst (m ((c : Thread nD τ).loc main_arg1))) (kDinv (kDst (m ((c : Thread nD τ).loc main_arg1)))) (Gen.V4 m ρ c main_v34) := by
  show StableHlo.after hostOps2 (Gen.W4 m ρ c) (Proc.devRef .tc main_v54) = _
  after_results_simp
  rw [W4_v1 m ρ c, W4_v3 m ρ c, W4_v10 m ρ c, W4_v11 m ρ c]
  rfl
/-- Region 2 finds the launched width-40 bias as a one-row matrix. -/
theorem V5_v55 : (Gen.V5 m ρ c main_v55 : S1x40.Idx → EReal) = kBias40 (m ((c : Thread nD τ).loc main_arg5)) := by
  show StableHlo.after hostOps2 (Gen.W4 m ρ c) (Proc.devRef .tc main_v55) = _
  after_results_simp
  rw [W4_arg5 m ρ c]
  rfl

end Cert.KernelIdeal.KVal

end
-- ==== Proof.KernelRun.lean ====
import proofs.«116229_j74002286510429_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of @main on the TensorCores
    terminates, nothing faulting, and in every final state the result buffer `main_v56` holds the last boundary's
    contents `Gen.W6` at that buffer, and each of the six argument arrays holds what it held at launch. -/
theorem run_value : θ_run defs (onTc (τ := τ) (main (F := F))) ⟨m, fun _ => 0, ρ⟩ (fun r => ∀ c : Dev nD,
      r.2.mem ((c.tc : Thread nD τ).loc main_v56) = Gen.W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v56 (by decide))),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KVal

end
-- ==== Proof.KernelValue.lean ====
/-
  The kernel program's result as one function of its six argument arrays.

  The program is a two-layer graph convolution followed by the logarithm of the row softmax. With `x` the node
  features, `ei` the edge list, `w1, b1` and `w2, b2` the two layers' weights and biases, and `P` one propagation
  step along the edges (the rows scaled by the nodes' normalisers, summed over each node's incoming edges, scaled
  again, plus the self term), the result is

      logsm (P (reluProj (P (x · w1)) b1 w2)) b2 :

  the first region forms the product `x · w1`; the host propagates it; the second region adds the bias `b1`, cuts off
  below at zero and multiplies by `w2`; the host propagates again; the third region adds the bias `b2` and takes the
  logarithm of the softmax of each row. Each region's output array is one whole-array function of what the region
  finds in its input arrays, and each host stretch hands the next region arrays that are named functions of the
  launch memory, so the composition is a chain of equalities between whole arrays.
-/
import proofs.«116229_j74002286510429_2_alg».proof.Proof.Region0
import proofs.«116229_j74002286510429_2_alg».proof.Proof.Region1
import proofs.«116229_j74002286510429_2_alg».proof.Proof.Region2
import proofs.«116229_j74002286510429_2_alg».proof.Proof.KernelFold
import proofs.«116229_j74002286510429_2_alg».proof.Proof.KernelRun
import proofs.«116229_j74002286510429_2_alg».proof.Proof.Spec

noncomputable section

namespace Cert.KernelIdeal.KVal

open Idealize.ShloMosaic Idealize.ShloMosaic.TcCoe Idealize.SL.Sem
open Cert.KernelIdeal Cert.KernelIdeal.Gen

/-- The kernel program's result as ONE function of its six argument arrays: the logarithm of the row softmax of the
    second propagated layer, itself `max (· + b1) 0 · w2` of the first propagated layer `x · w1`. -/
def KOut (x : S100000x512.Idx → EReal) (ei : IVec S2x3200000 32) (w1 : S512x16.Idx → EReal) (b1 : S16.Idx → EReal)
    (w2 : S16x40.Idx → EReal) (b2 : S40.Idx → EReal) : S100000x40.Idx → EReal :=
  Spec.logsm (Ideal.ofBits .f32 0xFF800000#32)
    (kLayer40 (kSrc ei) (kDst ei) (kDinv (kDst ei))
      (Spec.reluProj (kLayer16 (kSrc ei) (kDst ei) (kDinv (kDst ei)) (Spec.proj x w1)) (kBias16 b1) w2))
    (kBias40 b2)

variable (m : (ℓ : Loc nD τ sig) → Buf (Elt Ideal) ℓ) (ρ : Dev nD → PrngReg) (c : Dev nD)

/-- The first region's product, as the second stretch of host operations finds it: `x · w1` of the launch arrays. -/
theorem value_v12 :
    Gen.V2 m ρ c main_v12 = Spec.proj (m ((c : Thread nD τ).loc main_arg0)) (m ((c : Thread nD τ).loc main_arg2)) :=
  (V2_v12 m ρ c).trans ((region0_out (Gen.V1 m ρ) c).trans (by rw [V1_arg0 m ρ c, V1_arg2 m ρ c]))

/-- The second region's product, as the third stretch of host operations finds it. -/
theorem value_v34 :
    Gen.V4 m ρ c main_v34
      = Spec.reluProj (kLayer16 (kSrc (m ((c : Thread nD τ).loc main_arg1))) (kDst (m ((c : Thread nD τ).loc main_arg1))) (kDinv (kDst (m ((c : Thread nD τ).loc main_arg1))))
            (Spec.proj (m ((c : Thread nD τ).loc main_arg0)) (m ((c : Thread nD τ).loc main_arg2))))
          (kBias16 (m ((c : Thread nD τ).loc main_arg3))) (m ((c : Thread nD τ).loc main_arg4)) :=
  (V4_v34 m ρ c).trans ((region1_out (Gen.V3 m ρ) c).trans (by
    rw [V3_v32 m ρ c, V3_v33 m ρ c, V3_arg4 m ρ c, value_v12 m ρ c]))

/-- The result array at the last boundary of the run is `KOut` of the six launch arrays. -/
theorem kernel_value :
    Gen.W6 m ρ c (Proc.devRef .tc main_v56)
      = KOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (V6_v56 m ρ c).trans ((region2_out (Gen.V5 m ρ) c).trans (by
    unfold KOut
    rw [V5_v54 m ρ c, V5_v55 m ρ c, value_v34 m ρ c]))

/-- At the compiled mesh, from any memory with zero counters, every weakly fair execution of the program on the
    TensorCores terminates, nothing faulting, and in every final state the result buffer holds `KOut` of the six
    argument arrays as launched, and each argument array holds what it held at launch. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v56)
        = KOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (kernel_value m ρ c), (h c).2⟩) (run_value m ρ)

end Cert.KernelIdeal.KVal

end
-- ==== Proof.RefRunDefs.lean ====
/-
  The reference program's run, cut into stretches.

  The program is a straight line of 132 operations, each writing one buffer from the contents of earlier ones. What
  every buffer holds after the whole line is the fold of the operations' results over the launch contents; the fold of a
  concatenation is the fold of the second part over the fold of the first. The line is cut into seven consecutive
  stretches (the literal lists below are the line's operations, in order, unchanged), and for each stretch the buffers it
  writes are listed: a buffer not in the list holds after the stretch what it held before it.
-/
import proofs.«116229_j74002286510429_2_alg».proof.Proof.RefReadP
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-- The contents after two lines run one after the other: the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- An operation that writes the one buffer of a reference in a list writes inside the list's buffers. -/
theorem writes_sub_of_mem {τ : Topo} {sig : RefSig} {Val : EltTy → Type} {L : List (Ref sig .tc)} {op : HloOp τ sig Val}
    (y : Ref sig .tc) (hw : op.writes = {Proc.devRef .tc y}) (hy : y ∈ L) :
    op.writes ⊆ (L.map (Proc.devRef (τ := τ) .tc)).toFinset := by
  rw [hw, Finset.singleton_subset_iff, List.mem_toFinset]
  exact List.mem_map_of_mem hy

/-! ## The seven stretches -/

/-- Stretch A: operations 1 to 20 of the line (`main_v0` … `main_v15`). -/
def opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (TRef.of (T := ⟨S100000, .i1⟩) main_v12) (TRef.of (T := ⟨S100000, .f32⟩) main_v13) (TRef.of (T := ⟨S100000, .f32⟩) main_v14) (TRef.of (T := ⟨S100000, .f32⟩) main_v15) select ]

/-- Stretch B: operations 21 to 39 of the line (`main_c` … `main_v30`). -/
def opsB : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v5 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v5 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v5 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- Stretch C: operations 40 to 62 of the line (`main_v31` … `main_v48`). -/
def opsC : List (HloOp τ sig (Elt F)) :=
  [ binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v5 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v5 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v5 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v31 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v39 (broadcastInDim S3300000x1 ![0] bcast_S3300000_S3300000x1_0 : (⟨S3300000, .f32⟩ : BufTy).Contents (Elt F) → (⟨S3300000x1, .f32⟩ : BufTy).Contents (Elt F)),
    unary main_v39 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v38 main_v40 main_v41 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v42 (broadcastInDim S100000x16 ![] bcast_S_S100000x16 : (⟨S_, .f32⟩ : BufTy).Contents (Elt F) → (⟨S100000x16, .f32⟩ : BufTy).Contents (Elt F)),
    unary main_v6 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf ]

/-- Stretch D: operations 63 to 78 of the line (`main_v49` … `main_v60`). -/
def opsD : List (HloOp τ sig (Elt F)) :=
  [ nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    unary main_cst_12 main_v59 (broadcastInDim S100000 ![] bcast_S_S100000 : (⟨S_, .f32⟩ : BufTy).Contents (Elt F) → (⟨S100000, .f32⟩ : BufTy).Contents (Elt F)),
    TRef.ternary (TRef.of (T := ⟨S100000, .i1⟩) main_v57) (TRef.of (T := ⟨S100000, .f32⟩) main_v58) (TRef.of (T := ⟨S100000, .f32⟩) main_v59) (TRef.of (T := ⟨S100000, .f32⟩) main_v60) select ]

/-- Stretch E: operations 79 to 97 of the line (`main_c_13` … `main_v75`). -/
def opsE : List (HloOp τ sig (Elt F)) :=
  [ nullary main_c_13 (constantI S_ 32 0#32),
    unary main_c_13 main_v61 (broadcastInDim S3300000 ![] bcast_S_S3300000 : (⟨S_, .i32⟩ : BufTy).Contents (Elt F) → (⟨S3300000, .i32⟩ : BufTy).Contents (Elt F)),
    binary main_v50 main_v61 main_v62 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v63 (broadcastInDim S3300000 ![] bcast_S_S3300000 : (⟨S_, .i32⟩ : BufTy).Contents (Elt F) → (⟨S3300000, .i32⟩ : BufTy).Contents (Elt F)),
    binary main_v50 main_v63 main_v64 (addi : (⟨S3300000, .i32⟩ : BufTy).Contents (Elt F) → (⟨S3300000, .i32⟩ : BufTy).Contents (Elt F) → (⟨S3300000, .i32⟩ : BufTy).Contents (Elt F)),
    ternary main_v62 main_v64 main_v50 main_v65 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v65 main_v66 (broadcastInDim S3300000x1 ![0] bcast_S3300000_S3300000x1_0 : (⟨S3300000, .i32⟩ : BufTy).Contents (Elt F) → (⟨S3300000x1, .i32⟩ : BufTy).Contents (Elt F)),
    binary main_v60 main_v66 main_v67 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v68 (broadcastInDim S3300000 ![] bcast_S_S3300000 : (⟨S_, .i32⟩ : BufTy).Contents (Elt F) → (⟨S3300000, .i32⟩ : BufTy).Contents (Elt F)),
    binary main_v51 main_v68 main_v69 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v70 (broadcastInDim S3300000 ![] bcast_S_S3300000 : (⟨S_, .i32⟩ : BufTy).Contents (Elt F) → (⟨S3300000, .i32⟩ : BufTy).Contents (Elt F)),
    binary main_v51 main_v70 main_v71 (addi : (⟨S3300000, .i32⟩ : BufTy).Contents (Elt F) → (⟨S3300000, .i32⟩ : BufTy).Contents (Elt F) → (⟨S3300000, .i32⟩ : BufTy).Contents (Elt F)),
    ternary main_v69 main_v71 main_v51 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v72 main_v73 (broadcastInDim S3300000x1 ![0] bcast_S3300000_S3300000x1_0 : (⟨S3300000, .i32⟩ : BufTy).Contents (Elt F) → (⟨S3300000x1, .i32⟩ : BufTy).Contents (Elt F)),
    binary main_v60 main_v73 main_v74 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v67 main_v74 main_v75 (mulf : (⟨S3300000, .f32⟩ : BufTy).Contents (Elt F) → (⟨S3300000, .f32⟩ : BufTy).Contents (Elt F) → (⟨S3300000, .f32⟩ : BufTy).Contents (Elt F)) ]

/-- Stretch F: operations 98 to 117 of the line (`main_v76` … `main_v92`). -/
def opsF : List (HloOp τ sig (Elt F)) :=
  [ binary main_v48 main_arg4 main_v76 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_17 (constantI S_ 32 0#32),
    unary main_c_17 main_v77 (broadcastInDim S3300000 ![] bcast_S_S3300000 : (⟨S_, .i32⟩ : BufTy).Contents (Elt F) → (⟨S3300000, .i32⟩ : BufTy).Contents (Elt F)),
    binary main_v50 main_v77 main_v78 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v79 (broadcastInDim S3300000 ![] bcast_S_S3300000 : (⟨S_, .i32⟩ : BufTy).Contents (Elt F) → (⟨S3300000, .i32⟩ : BufTy).Contents (Elt F)),
    binary main_v50 main_v79 main_v80 (addi : (⟨S3300000, .i32⟩ : BufTy).Contents (Elt F) → (⟨S3300000, .i32⟩ : BufTy).Contents (Elt F) → (⟨S3300000, .i32⟩ : BufTy).Contents (Elt F)),
    ternary main_v78 main_v80 main_v50 main_v81 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v81 main_v82 (broadcastInDim S3300000x1 ![0] bcast_S3300000_S3300000x1_0 : (⟨S3300000, .i32⟩ : BufTy).Contents (Elt F) → (⟨S3300000x1, .i32⟩ : BufTy).Contents (Elt F)),
    binary main_v76 main_v82 main_v83 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v75 main_v84 (broadcastInDim S3300000x1 ![0] bcast_S3300000_S3300000x1_0 : (⟨S3300000, .f32⟩ : BufTy).Contents (Elt F) → (⟨S3300000x1, .f32⟩ : BufTy).Contents (Elt F)),
    unary main_v84 main_v85 (broadcastInDim S3300000x40 ![0, 1] bcast_S3300000x1_S3300000x40_0_1 : (⟨S3300000x1, .f32⟩ : BufTy).Contents (Elt F) → (⟨S3300000x40, .f32⟩ : BufTy).Contents (Elt F)),
    binary main_v83 main_v85 main_v86 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v87 (broadcastInDim S100000x40 ![] bcast_S_S100000x40 : (⟨S_, .f32⟩ : BufTy).Contents (Elt F) → (⟨S100000x40, .f32⟩ : BufTy).Contents (Elt F)),
    unary main_v51 main_v88 (broadcastInDim S3300000x1 ![0] bcast_S3300000_S3300000x1_0 : (⟨S3300000, .i32⟩ : BufTy).Contents (Elt F) → (⟨S3300000x1, .i32⟩ : BufTy).Contents (Elt F)),
    ternary main_v87 main_v88 main_v86 main_v89 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v90 (broadcastInDim S1x40 ![1] bcast_S40_S1x40_1 : (⟨S40, .f32⟩ : BufTy).Contents (Elt F) → (⟨S1x40, .f32⟩ : BufTy).Contents (Elt F)),
    unary main_v90 main_v91 (broadcastInDim S100000x40 ![0, 1] bcast_S1x40_S100000x40_0_1 : (⟨S1x40, .f32⟩ : BufTy).Contents (Elt F) → (⟨S100000x40, .f32⟩ : BufTy).Contents (Elt F)),
    binary main_v89 main_v91 main_v92 (addf : (⟨S100000x40, .f32⟩ : BufTy).Contents (Elt F) → (⟨S100000x40, .f32⟩ : BufTy).Contents (Elt F) → (⟨S100000x40, .f32⟩ : BufTy).Contents (Elt F)) ]

/-- Stretch G: operations 118 to 132 of the line (`main_call3_cst` … `main_v93`). -/
def opsG : List (HloOp τ sig (Elt F)) :=
  [ TRef.nullary (TRef.of (T := ⟨S_, .f32⟩) main_call3_cst) (constant S_ .f32 0xFF800000#32),
    TRef.binary (TRef.of (T := ⟨S100000x40, .f32⟩) main_v92) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v92) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v93) subf ]

set_option maxRecDepth 8192 in
/-- The line is the seven stretches, in order. -/
theorem ops_eq : (ops : List (HloOp τ sig (Elt F))) = opsA ++ (opsB ++ (opsC ++ (opsD ++ (opsE ++ (opsF ++ opsG))))) := rfl

/-- The contents after the whole line, stretch by stretch. -/
theorem after_ops (V : Valuation τ sig (Elt F)) :
    after ops V = after opsG (after opsF (after opsE (after opsD (after opsC (after opsB (after opsA V)))))) := by
  rw [ops_eq, after_append, after_append, after_append, after_append, after_append, after_append]

/-! ## What each stretch writes -/

/-- The buffers stretch A writes. -/
def wrA : List (Ref sig .tc) := [main_v0, main_v1, main_v2, main_v3, main_v4, main_v5, main_v6, main_cst, main_v7, main_cst_0, main_v8, main_v9, main_v10, main_cst_1, main_v11, main_v12, main_v13, main_cst_2, main_v14, main_v15]

theorem writesA : (opsA : List (HloOp τ sig (Elt F))).Forall fun op => op.writes ⊆ ((wrA).map (Proc.devRef (τ := τ) .tc)).toFinset := by
  unfold opsA
  exact ⟨writes_sub_of_mem main_v0 rfl (by decide),
    writes_sub_of_mem main_v1 rfl (by decide),
    writes_sub_of_mem main_v2 rfl (by decide),
    writes_sub_of_mem main_v3 rfl (by decide),
    writes_sub_of_mem main_v4 rfl (by decide),
    writes_sub_of_mem main_v5 rfl (by decide),
    writes_sub_of_mem main_v6 rfl (by decide),
    writes_sub_of_mem main_cst rfl (by decide),
    writes_sub_of_mem main_v7 rfl (by decide),
    writes_sub_of_mem main_cst_0 rfl (by decide),
    writes_sub_of_mem main_v8 rfl (by decide),
    writes_sub_of_mem main_v9 rfl (by decide),
    writes_sub_of_mem main_v10 rfl (by decide),
    writes_sub_of_mem main_cst_1 rfl (by decide),
    writes_sub_of_mem main_v11 rfl (by decide),
    writes_sub_of_mem main_v12 rfl (by decide),
    writes_sub_of_mem main_v13 rfl (by decide),
    writes_sub_of_mem main_cst_2 rfl (by decide),
    writes_sub_of_mem main_v14 rfl (by decide),
    writes_sub_of_mem main_v15 rfl (by decide)⟩

/-- A buffer stretch A does not write holds after it what it held before. -/
theorem keepA (V : Valuation τ sig (Elt F)) {r : Ref sig .tc} (hr : r ∉ wrA) :
    after opsA V (Proc.devRef .tc r) = V (Proc.devRef .tc r) :=
  after_of_writes_sub opsA V writesA hr

/-- The buffers stretch B writes. -/
def wrB : List (Ref sig .tc) := [main_c, main_v16, main_v17, main_c_3, main_v18, main_v19, main_v20, main_v21, main_v22, main_c_4, main_v23, main_v24, main_c_5, main_v25, main_v26, main_v27, main_v28, main_v29, main_v30]

theorem writesB : (opsB : List (HloOp τ sig (Elt F))).Forall fun op => op.writes ⊆ ((wrB).map (Proc.devRef (τ := τ) .tc)).toFinset := by
  unfold opsB
  exact ⟨writes_sub_of_mem main_c rfl (by decide),
    writes_sub_of_mem main_v16 rfl (by decide),
    writes_sub_of_mem main_v17 rfl (by decide),
    writes_sub_of_mem main_c_3 rfl (by decide),
    writes_sub_of_mem main_v18 rfl (by decide),
    writes_sub_of_mem main_v19 rfl (by decide),
    writes_sub_of_mem main_v20 rfl (by decide),
    writes_sub_of_mem main_v21 rfl (by decide),
    writes_sub_of_mem main_v22 rfl (by decide),
    writes_sub_of_mem main_c_4 rfl (by decide),
    writes_sub_of_mem main_v23 rfl (by decide),
    writes_sub_of_mem main_v24 rfl (by decide),
    writes_sub_of_mem main_c_5 rfl (by decide),
    writes_sub_of_mem main_v25 rfl (by decide),
    writes_sub_of_mem main_v26 rfl (by decide),
    writes_sub_of_mem main_v27 rfl (by decide),
    writes_sub_of_mem main_v28 rfl (by decide),
    writes_sub_of_mem main_v29 rfl (by decide),
    writes_sub_of_mem main_v30 rfl (by decide)⟩

/-- A buffer stretch B does not write holds after it what it held before. -/
theorem keepB (V : Valuation τ sig (Elt F)) {r : Ref sig .tc} (hr : r ∉ wrB) :
    after opsB V (Proc.devRef .tc r) = V (Proc.devRef .tc r) :=
  after_of_writes_sub opsB V writesB hr

/-- The buffers stretch C writes. -/
def wrC : List (Ref sig .tc) := [main_v31, main_c_6, main_v32, main_v33, main_c_7, main_v34, main_v35, main_v36, main_v37, main_v38, main_v39, main_v40, main_v41, main_cst_8, main_v42, main_v43, main_v44, main_v45, main_v46, main_v47, main_call1_cst, main_call1_v0, main_v48]

theorem writesC : (opsC : List (HloOp τ sig (Elt F))).Forall fun op => op.writes ⊆ ((wrC).map (Proc.devRef (τ := τ) .tc)).toFinset := by
  unfold opsC
  exact ⟨writes_sub_of_mem main_v31 rfl (by decide),
    writes_sub_of_mem main_c_6 rfl (by decide),
    writes_sub_of_mem main_v32 rfl (by decide),
    writes_sub_of_mem main_v33 rfl (by decide),
    writes_sub_of_mem main_c_7 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_v39 rfl (by decide),
    writes_sub_of_mem main_v40 rfl (by decide),
    writes_sub_of_mem main_v41 rfl (by decide),
    writes_sub_of_mem main_cst_8 rfl (by decide),
    writes_sub_of_mem main_v42 rfl (by decide),
    writes_sub_of_mem main_v43 rfl (by decide),
    writes_sub_of_mem main_v44 rfl (by decide),
    writes_sub_of_mem main_v45 rfl (by decide),
    writes_sub_of_mem main_v46 rfl (by decide),
    writes_sub_of_mem main_v47 rfl (by decide),
    writes_sub_of_mem main_call1_cst rfl (by decide),
    writes_sub_of_mem main_call1_v0 rfl (by decide),
    writes_sub_of_mem main_v48 rfl (by decide)⟩

/-- A buffer stretch C does not write holds after it what it held before. -/
theorem keepC (V : Valuation τ sig (Elt F)) {r : Ref sig .tc} (hr : r ∉ wrC) :
    after opsC V (Proc.devRef .tc r) = V (Proc.devRef .tc r) :=
  after_of_writes_sub opsC V writesC hr

/-- The buffers stretch D writes. -/
def wrD : List (Ref sig .tc) := [main_v49, main_v50, main_v51, main_cst_9, main_v52, main_cst_10, main_v53, main_v54, main_v55, main_cst_11, main_v56, main_v57, main_v58, main_cst_12, main_v59, main_v60]

theorem writesD : (opsD : List (HloOp τ sig (Elt F))).Forall fun op => op.writes ⊆ ((wrD).map (Proc.devRef (τ := τ) .tc)).toFinset := by
  unfold opsD
  exact ⟨writes_sub_of_mem main_v49 rfl (by decide),
    writes_sub_of_mem main_v50 rfl (by decide),
    writes_sub_of_mem main_v51 rfl (by decide),
    writes_sub_of_mem main_cst_9 rfl (by decide),
    writes_sub_of_mem main_v52 rfl (by decide),
    writes_sub_of_mem main_cst_10 rfl (by decide),
    writes_sub_of_mem main_v53 rfl (by decide),
    writes_sub_of_mem main_v54 rfl (by decide),
    writes_sub_of_mem main_v55 rfl (by decide),
    writes_sub_of_mem main_cst_11 rfl (by decide),
    writes_sub_of_mem main_v56 rfl (by decide),
    writes_sub_of_mem main_v57 rfl (by decide),
    writes_sub_of_mem main_v58 rfl (by decide),
    writes_sub_of_mem main_cst_12 rfl (by decide),
    writes_sub_of_mem main_v59 rfl (by decide),
    writes_sub_of_mem main_v60 rfl (by decide)⟩

/-- A buffer stretch D does not write holds after it what it held before. -/
theorem keepD (V : Valuation τ sig (Elt F)) {r : Ref sig .tc} (hr : r ∉ wrD) :
    after opsD V (Proc.devRef .tc r) = V (Proc.devRef .tc r) :=
  after_of_writes_sub opsD V writesD hr

/-- The buffers stretch E writes. -/
def wrE : List (Ref sig .tc) := [main_c_13, main_v61, main_v62, main_c_14, main_v63, main_v64, main_v65, main_v66, main_v67, main_c_15, main_v68, main_v69, main_c_16, main_v70, main_v71, main_v72, main_v73, main_v74, main_v75]

theorem writesE : (opsE : List (HloOp τ sig (Elt F))).Forall fun op => op.writes ⊆ ((wrE).map (Proc.devRef (τ := τ) .tc)).toFinset := by
  unfold opsE
  exact ⟨writes_sub_of_mem main_c_13 rfl (by decide),
    writes_sub_of_mem main_v61 rfl (by decide),
    writes_sub_of_mem main_v62 rfl (by decide),
    writes_sub_of_mem main_c_14 rfl (by decide),
    writes_sub_of_mem main_v63 rfl (by decide),
    writes_sub_of_mem main_v64 rfl (by decide),
    writes_sub_of_mem main_v65 rfl (by decide),
    writes_sub_of_mem main_v66 rfl (by decide),
    writes_sub_of_mem main_v67 rfl (by decide),
    writes_sub_of_mem main_c_15 rfl (by decide),
    writes_sub_of_mem main_v68 rfl (by decide),
    writes_sub_of_mem main_v69 rfl (by decide),
    writes_sub_of_mem main_c_16 rfl (by decide),
    writes_sub_of_mem main_v70 rfl (by decide),
    writes_sub_of_mem main_v71 rfl (by decide),
    writes_sub_of_mem main_v72 rfl (by decide),
    writes_sub_of_mem main_v73 rfl (by decide),
    writes_sub_of_mem main_v74 rfl (by decide),
    writes_sub_of_mem main_v75 rfl (by decide)⟩

/-- A buffer stretch E does not write holds after it what it held before. -/
theorem keepE (V : Valuation τ sig (Elt F)) {r : Ref sig .tc} (hr : r ∉ wrE) :
    after opsE V (Proc.devRef .tc r) = V (Proc.devRef .tc r) :=
  after_of_writes_sub opsE V writesE hr

/-- The buffers stretch F writes. -/
def wrF : List (Ref sig .tc) := [main_v76, main_c_17, main_v77, main_v78, main_c_18, main_v79, main_v80, main_v81, main_v82, main_v83, main_v84, main_v85, main_v86, main_cst_19, main_v87, main_v88, main_v89, main_v90, main_v91, main_v92]

theorem writesF : (opsF : List (HloOp τ sig (Elt F))).Forall fun op => op.writes ⊆ ((wrF).map (Proc.devRef (τ := τ) .tc)).toFinset := by
  unfold opsF
  exact ⟨writes_sub_of_mem main_v76 rfl (by decide),
    writes_sub_of_mem main_c_17 rfl (by decide),
    writes_sub_of_mem main_v77 rfl (by decide),
    writes_sub_of_mem main_v78 rfl (by decide),
    writes_sub_of_mem main_c_18 rfl (by decide),
    writes_sub_of_mem main_v79 rfl (by decide),
    writes_sub_of_mem main_v80 rfl (by decide),
    writes_sub_of_mem main_v81 rfl (by decide),
    writes_sub_of_mem main_v82 rfl (by decide),
    writes_sub_of_mem main_v83 rfl (by decide),
    writes_sub_of_mem main_v84 rfl (by decide),
    writes_sub_of_mem main_v85 rfl (by decide),
    writes_sub_of_mem main_v86 rfl (by decide),
    writes_sub_of_mem main_cst_19 rfl (by decide),
    writes_sub_of_mem main_v87 rfl (by decide),
    writes_sub_of_mem main_v88 rfl (by decide),
    writes_sub_of_mem main_v89 rfl (by decide),
    writes_sub_of_mem main_v90 rfl (by decide),
    writes_sub_of_mem main_v91 rfl (by decide),
    writes_sub_of_mem main_v92 rfl (by decide)⟩

/-- A buffer stretch F does not write holds after it what it held before. -/
theorem keepF (V : Valuation τ sig (Elt F)) {r : Ref sig .tc} (hr : r ∉ wrF) :
    after opsF V (Proc.devRef .tc r) = V (Proc.devRef .tc r) :=
  after_of_writes_sub opsF V writesF hr

/-- The buffers stretch G writes. -/
def wrG : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v93]

theorem writesG : (opsG : List (HloOp τ sig (Elt F))).Forall fun op => op.writes ⊆ ((wrG).map (Proc.devRef (τ := τ) .tc)).toFinset := by
  unfold opsG
  exact ⟨writes_sub_of_mem main_call3_cst rfl (by decide),
    writes_sub_of_mem main_call3_v0 rfl (by decide),
    writes_sub_of_mem main_call3_cst_0 rfl (by decide),
    writes_sub_of_mem main_call3_v1 rfl (by decide),
    writes_sub_of_mem main_call3_v2 rfl (by decide),
    writes_sub_of_mem main_call3_v3 rfl (by decide),
    writes_sub_of_mem main_call3_v4 rfl (by decide),
    writes_sub_of_mem main_call3_v5 rfl (by decide),
    writes_sub_of_mem main_call3_v6 rfl (by decide),
    writes_sub_of_mem main_call3_cst_1 rfl (by decide),
    writes_sub_of_mem main_call3_v7 rfl (by decide),
    writes_sub_of_mem main_call3_v8 rfl (by decide),
    writes_sub_of_mem main_call3_v9 rfl (by decide),
    writes_sub_of_mem main_call3_v10 rfl (by decide),
    writes_sub_of_mem main_v93 rfl (by decide)⟩

/-- A buffer stretch G does not write holds after it what it held before. -/
theorem keepG (V : Valuation τ sig (Elt F)) {r : Ref sig .tc} (hr : r ∉ wrG) :
    after opsG V (Proc.devRef .tc r) = V (Proc.devRef .tc r) :=
  after_of_writes_sub opsG V writesG hr

end Cert.ReferenceIdeal.RunH

end
-- ==== Proof.RefRunA.lean ====
/-
  Stretch A of the reference run: from the edge list (argument 1) the two endpoint vectors, each joined with the
  self-loop endpoints, and the inverse square roots of the in-degrees (zero where the degree is not positive).
  Each delivered buffer is computed from the contents before the stretch by following, backwards from the buffer, the
  operations that write what it reads; the result is the buffer's value as a function of the arguments by definition.
-/
import proofs.«116229_j74002286510429_2_alg».proof.Proof.RefRunDefs

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-- After stretch A, `main_v1` holds its value as a function of the arguments. -/
theorem A_v1 (V : Valuation τ sig (Elt F)) (x1 : (⟨S2x3200000, .i32⟩ : BufTy).Contents (Elt F))
    (harg1 : V (Proc.devRef .tc main_arg1) = x1) :
    after opsA V (Proc.devRef .tc main_v1) = ReadP.val_main_v1 (F := F) x1 := by
  subst harg1
  unfold opsA
  after_results
  rfl

/-- After stretch A, `main_v3` holds its value as a function of the arguments. -/
theorem A_v3 (V : Valuation τ sig (Elt F)) (x1 : (⟨S2x3200000, .i32⟩ : BufTy).Contents (Elt F))
    (harg1 : V (Proc.devRef .tc main_arg1) = x1) :
    after opsA V (Proc.devRef .tc main_v3) = ReadP.val_main_v3 (F := F) x1 := by
  subst harg1
  unfold opsA
  after_results
  rfl

/-- After stretch A, `main_v5` holds its value as a function of the arguments. -/
theorem A_v5 (V : Valuation τ sig (Elt F)) (x1 : (⟨S2x3200000, .i32⟩ : BufTy).Contents (Elt F))
    (harg1 : V (Proc.devRef .tc main_arg1) = x1) :
    after opsA V (Proc.devRef .tc main_v5) = ReadP.val_main_v5 (F := F) x1 := by
  subst harg1
  unfold opsA
  after_results
  rfl

/-- After stretch A, `main_v6` holds its value as a function of the arguments. -/
theorem A_v6 (V : Valuation τ sig (Elt F)) (x1 : (⟨S2x3200000, .i32⟩ : BufTy).Contents (Elt F))
    (harg1 : V (Proc.devRef .tc main_arg1) = x1) :
    after opsA V (Proc.devRef .tc main_v6) = ReadP.val_main_v6 (F := F) x1 := by
  subst harg1
  unfold opsA
  after_results
  rfl

/-- After stretch A, `main_v15` holds its value as a function of the arguments. -/
theorem A_v15 (V : Valuation τ sig (Elt F)) (x1 : (⟨S2x3200000, .i32⟩ : BufTy).Contents (Elt F))
    (harg1 : V (Proc.devRef .tc main_arg1) = x1) :
    after opsA V (Proc.devRef .tc main_v15) = ReadP.val_main_v15 (F := F) x1 := by
  subst harg1
  unfold opsA
  after_results
  rfl

end Cert.ReferenceIdeal.RunH

end
-- ==== Proof.RefRunB.lean ====
/-
  Stretch B of the reference run: the per-edge normalisation weight, the product of the two endpoints' inverse square
  root degrees, from the endpoint vectors and the degree vector stretch A delivered.
-/
import proofs.«116229_j74002286510429_2_alg».proof.Proof.RefRunDefs

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

set_option maxHeartbeats 4000000 in
/-- After stretch B, `main_v30` holds its value as a function of the arguments. -/
theorem B_v30 (V : Valuation τ sig (Elt F)) (x1 : (⟨S2x3200000, .i32⟩ : BufTy).Contents (Elt F))
    (hv5 : V (Proc.devRef .tc main_v5) = ReadP.val_main_v5 (F := F) x1)
    (hv15 : V (Proc.devRef .tc main_v15) = ReadP.val_main_v15 (F := F) x1)
    (hv6 : V (Proc.devRef .tc main_v6) = ReadP.val_main_v6 (F := F) x1) :
    after opsB V (Proc.devRef .tc main_v30) = ReadP.val_main_v30 (F := F) x1 := by
  unfold opsB
  after_results
  try rw [hv5]
  try rw [hv15]
  try rw [hv6]
  rfl

end Cert.ReferenceIdeal.RunH

end
-- ==== Proof.RefRunC.lean ====
/-
  Stretch C of the reference run: the first layer — the features times the first weight matrix, gathered along the
  edges, scaled by the edge weights, summed into the target nodes, plus the bias, then the maximum with zero.
-/
import proofs.«116229_j74002286510429_2_alg».proof.Proof.RefRunDefs

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

set_option maxHeartbeats 4000000 in
/-- After stretch C, `main_v48` holds its value as a function of the arguments. -/
theorem C_v48 (V : Valuation τ sig (Elt F)) (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F))
    (harg0 : V (Proc.devRef .tc main_arg0) = x0)
    (harg2 : V (Proc.devRef .tc main_arg2) = x2)
    (hv5 : V (Proc.devRef .tc main_v5) = ReadP.val_main_v5 (F := F) x1)
    (hv30 : V (Proc.devRef .tc main_v30) = ReadP.val_main_v30 (F := F) x1)
    (hv6 : V (Proc.devRef .tc main_v6) = ReadP.val_main_v6 (F := F) x1)
    (harg3 : V (Proc.devRef .tc main_arg3) = x3) :
    after opsC V (Proc.devRef .tc main_v48) = ReadP.val_main_v48 (F := F) x0 x1 x2 x3 := by
  subst harg0; subst harg2; subst harg3
  unfold opsC
  after_results
  try rw [hv5]
  try rw [hv30]
  try rw [hv6]
  rfl

end Cert.ReferenceIdeal.RunH

end
-- ==== Proof.RefRunD.lean ====
/-
  Stretch D of the reference run: the endpoint vectors and inverse square root degrees recomputed for the second layer.
-/
import proofs.«116229_j74002286510429_2_alg».proof.Proof.RefRunDefs

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

set_option maxHeartbeats 4000000 in
/-- After stretch D, `main_v50` holds its value as a function of the arguments. -/
theorem D_v50 (V : Valuation τ sig (Elt F)) (x1 : (⟨S2x3200000, .i32⟩ : BufTy).Contents (Elt F))
    (hv1 : V (Proc.devRef .tc main_v1) = ReadP.val_main_v1 (F := F) x1)
    (hv3 : V (Proc.devRef .tc main_v3) = ReadP.val_main_v3 (F := F) x1) :
    after opsD V (Proc.devRef .tc main_v50) = ReadP.val_main_v50 (F := F) x1 := by
  unfold opsD
  after_results
  try rw [hv1]
  try rw [hv3]
  rfl

set_option maxHeartbeats 4000000 in
/-- After stretch D, `main_v51` holds its value as a function of the arguments. -/
theorem D_v51 (V : Valuation τ sig (Elt F)) (x1 : (⟨S2x3200000, .i32⟩ : BufTy).Contents (Elt F))
    (hv1 : V (Proc.devRef .tc main_v1) = ReadP.val_main_v1 (F := F) x1)
    (hv3 : V (Proc.devRef .tc main_v3) = ReadP.val_main_v3 (F := F) x1) :
    after opsD V (Proc.devRef .tc main_v51) = ReadP.val_main_v51 (F := F) x1 := by
  unfold opsD
  after_results
  try rw [hv1]
  try rw [hv3]
  rfl

set_option maxHeartbeats 4000000 in
/-- After stretch D, `main_v60` holds its value as a function of the arguments. -/
theorem D_v60 (V : Valuation τ sig (Elt F)) (x1 : (⟨S2x3200000, .i32⟩ : BufTy).Contents (Elt F))
    (hv1 : V (Proc.devRef .tc main_v1) = ReadP.val_main_v1 (F := F) x1)
    (hv3 : V (Proc.devRef .tc main_v3) = ReadP.val_main_v3 (F := F) x1) :
    after opsD V (Proc.devRef .tc main_v60) = ReadP.val_main_v60 (F := F) x1 := by
  unfold opsD
  after_results
  try rw [hv1]
  try rw [hv3]
  rfl

end Cert.ReferenceIdeal.RunH

end
-- ==== Proof.RefRunE.lean ====
/-
  Stretch E of the reference run: the per-edge normalisation weight of the second layer.
-/
import proofs.«116229_j74002286510429_2_alg».proof.Proof.RefRunDefs

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

set_option maxHeartbeats 4000000 in
/-- After stretch E, `main_v75` holds its value as a function of the arguments. -/
theorem E_v75 (V : Valuation τ sig (Elt F)) (x1 : (⟨S2x3200000, .i32⟩ : BufTy).Contents (Elt F))
    (hv50 : V (Proc.devRef .tc main_v50) = ReadP.val_main_v50 (F := F) x1)
    (hv60 : V (Proc.devRef .tc main_v60) = ReadP.val_main_v60 (F := F) x1)
    (hv51 : V (Proc.devRef .tc main_v51) = ReadP.val_main_v51 (F := F) x1) :
    after opsE V (Proc.devRef .tc main_v75) = ReadP.val_main_v75 (F := F) x1 := by
  unfold opsE
  after_results
  try rw [hv50]
  try rw [hv60]
  try rw [hv51]
  rfl

end Cert.ReferenceIdeal.RunH

end
-- ==== Proof.RefRunF.lean ====
/-
  Stretch F of the reference run: the second layer — the hidden features times the second weight matrix, gathered
  along the edges, scaled, summed into the target nodes, plus the bias.
-/
import proofs.«116229_j74002286510429_2_alg».proof.Proof.RefRunDefs

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

set_option maxHeartbeats 4000000 in
/-- After stretch F, `main_v92` holds its value as a function of the arguments. -/
theorem F_v92 (V : Valuation τ sig (Elt F)) (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (hv48 : V (Proc.devRef .tc main_v48) = ReadP.val_main_v48 (F := F) x0 x1 x2 x3)
    (harg4 : V (Proc.devRef .tc main_arg4) = x4)
    (hv50 : V (Proc.devRef .tc main_v50) = ReadP.val_main_v50 (F := F) x1)
    (hv75 : V (Proc.devRef .tc main_v75) = ReadP.val_main_v75 (F := F) x1)
    (hv51 : V (Proc.devRef .tc main_v51) = ReadP.val_main_v51 (F := F) x1)
    (harg5 : V (Proc.devRef .tc main_arg5) = x5) :
    after opsF V (Proc.devRef .tc main_v92) = ReadP.val_main_v92 (F := F) x0 x1 x2 x3 x4 x5 := by
  subst harg4; subst harg5
  unfold opsF
  after_results
  try rw [hv48]
  try rw [hv50]
  try rw [hv75]
  try rw [hv51]
  rfl

end Cert.ReferenceIdeal.RunH

end
-- ==== Proof.RefRunG.lean ====
/-
  Stretch G of the reference run: the row-wise log-softmax — each row less its maximum, less the logarithm of the sum
  of the exponentials of that difference.
-/
import proofs.«116229_j74002286510429_2_alg».proof.Proof.RefRunDefs

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-- Contents moved to a buffer's own type and back are the contents. -/
theorem ofBuf_toBuf {sig : RefSig} {Val : EltTy → Type} {T : BufTy} (x : TRef sig T) (v : T.Contents Val) :
    TRef.ofBuf x (TRef.toBuf x v) = v := by
  obtain ⟨r, h, _, _⟩ := x
  subst h
  rfl

set_option maxHeartbeats 4000000 in
set_option maxRecDepth 8192 in
/-- After stretch G, `main_v93` holds its value as a function of the arguments. -/
theorem G_v93 (V : Valuation τ sig (Elt F)) (x0 : (⟨S100000x512, .f32⟩ : BufTy).Contents (Elt F)) (x1 : (⟨S2x3200000, .i32⟩ : BufTy).Contents (Elt F)) (x2 : (⟨S512x16, .f32⟩ : BufTy).Contents (Elt F)) (x3 : (⟨S16, .f32⟩ : BufTy).Contents (Elt F)) (x4 : (⟨S16x40, .f32⟩ : BufTy).Contents (Elt F)) (x5 : (⟨S40, .f32⟩ : BufTy).Contents (Elt F))
    (hv92 : V (Proc.devRef .tc main_v92) = ReadP.val_main_v92 (F := F) x0 x1 x2 x3 x4 x5) :
    after opsG V (Proc.devRef .tc main_v93) = ReadP.val_main_v93 (F := F) x0 x1 x2 x3 x4 x5 := by
  -- the right-hand side opened down to the one buffer the stretch reads, which is then kept as a name
  delta ReadP.val_main_v93 ReadP.val_main_call3_v10 ReadP.val_main_call3_v9 ReadP.val_main_call3_v8 ReadP.val_main_call3_v7 ReadP.val_main_call3_cst_1 ReadP.val_main_call3_v6 ReadP.val_main_call3_v5 ReadP.val_main_call3_v4 ReadP.val_main_call3_v3 ReadP.val_main_call3_v2 ReadP.val_main_call3_v1 ReadP.val_main_call3_cst_0 ReadP.val_main_call3_v0 ReadP.val_main_call3_cst
  rw [← hv92]
  unfold opsG
  after_results
  generalize V (Proc.devRef .tc main_v92) = y
  -- each value written to a buffer and read back is itself
  repeat rw [ofBuf_toBuf]
  rfl

end Cert.ReferenceIdeal.RunH

end
-- ==== Proof.RefRun.lean ====
/-
  The reference program's run, assembled.

  The contents of every buffer after the whole line are the seventh stretch's fold over the sixth's over … over the
  first's over the launch contents. Following the buffers each stretch reads back to the stretch that wrote them (or to
  the launch contents, for an argument, which no operation writes), the result buffer ends holding its value as a
  function of the six arguments' launch contents, and the arguments end unchanged. The run statement is then the
  library's run of a straight line of operations, read at the result and at the arguments.
-/
import proofs.«116229_j74002286510429_2_alg».proof.Proof.RefRunA
import proofs.«116229_j74002286510429_2_alg».proof.Proof.RefRunB
import proofs.«116229_j74002286510429_2_alg».proof.Proof.RefRunC
import proofs.«116229_j74002286510429_2_alg».proof.Proof.RefRunD
import proofs.«116229_j74002286510429_2_alg».proof.Proof.RefRunE
import proofs.«116229_j74002286510429_2_alg».proof.Proof.RefRunF
import proofs.«116229_j74002286510429_2_alg».proof.Proof.RefRunG
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-- A buffer no stretch writes holds after the whole line what it held at launch. -/
theorem after_ops_keep (W : Valuation τ sig (Elt F)) {r : Ref sig .tc} (hA : r ∉ wrA) (hB : r ∉ wrB) (hC : r ∉ wrC)
    (hD : r ∉ wrD) (hE : r ∉ wrE) (hF : r ∉ wrF) (hG : r ∉ wrG) :
    after ops W (Proc.devRef .tc r) = W (Proc.devRef .tc r) := by
  rw [after_ops, keepG _ hG, keepF _ hF, keepE _ hE, keepD _ hD, keepC _ hC, keepB _ hB, keepA _ hA]

/-- THE RESULT AFTER THE WHOLE LINE: its value as a function of the six arguments' launch contents. -/
theorem after_ops_v93 (W : Valuation τ sig (Elt F)) :
    after ops W (Proc.devRef .tc main_v93)
      = ReadP.val_main_v93 (F := F) (W (Proc.devRef .tc main_arg0)) (W (Proc.devRef .tc main_arg1))
          (W (Proc.devRef .tc main_arg2)) (W (Proc.devRef .tc main_arg3)) (W (Proc.devRef .tc main_arg4))
          (W (Proc.devRef .tc main_arg5)) := by
  rw [after_ops]
  -- stretch A, from the launch contents
  have a1 := A_v1 W _ rfl
  have a3 := A_v3 W _ rfl
  have a5 := A_v5 W _ rfl
  have a6 := A_v6 W _ rfl
  have a15 := A_v15 W _ rfl
  have a_arg0 := keepA W (r := main_arg0) (by decide)
  have a_arg2 := keepA W (r := main_arg2) (by decide)
  have a_arg3 := keepA W (r := main_arg3) (by decide)
  have a_arg4 := keepA W (r := main_arg4) (by decide)
  have a_arg5 := keepA W (r := main_arg5) (by decide)
  generalize after opsA W = V1 at *
  -- stretch B
  have b30 := B_v30 V1 _ a5 a15 a6
  have b1 := (keepB V1 (r := main_v1) (by decide)).trans a1
  have b3 := (keepB V1 (r := main_v3) (by decide)).trans a3
  have b5 := (keepB V1 (r := main_v5) (by decide)).trans a5
  have b6 := (keepB V1 (r := main_v6) (by decide)).trans a6
  have b_arg0 := (keepB V1 (r := main_arg0) (by decide)).trans a_arg0
  have b_arg2 := (keepB V1 (r := main_arg2) (by decide)).trans a_arg2
  have b_arg3 := (keepB V1 (r := main_arg3) (by decide)).trans a_arg3
  have b_arg4 := (keepB V1 (r := main_arg4) (by decide)).trans a_arg4
  have b_arg5 := (keepB V1 (r := main_arg5) (by decide)).trans a_arg5
  clear a1 a3 a5 a6 a15 a_arg0 a_arg2 a_arg3 a_arg4 a_arg5
  generalize after opsB V1 = V2 at *
  -- stretch C
  have c48 := C_v48 V2 _ _ _ _ b_arg0 b_arg2 b5 b30 b6 b_arg3
  have c1 := (keepC V2 (r := main_v1) (by decide)).trans b1
  have c3 := (keepC V2 (r := main_v3) (by decide)).trans b3
  have c_arg4 := (keepC V2 (r := main_arg4) (by decide)).trans b_arg4
  have c_arg5 := (keepC V2 (r := main_arg5) (by decide)).trans b_arg5
  clear b30 b1 b3 b5 b6 b_arg0 b_arg2 b_arg3 b_arg4 b_arg5
  generalize after opsC V2 = V3 at *
  -- stretch D
  have d50 := D_v50 V3 _ c1 c3
  have d51 := D_v51 V3 _ c1 c3
  have d60 := D_v60 V3 _ c1 c3
  have d48 := (keepD V3 (r := main_v48) (by decide)).trans c48
  have d_arg4 := (keepD V3 (r := main_arg4) (by decide)).trans c_arg4
  have d_arg5 := (keepD V3 (r := main_arg5) (by decide)).trans c_arg5
  clear c48 c1 c3 c_arg4 c_arg5
  generalize after opsD V3 = V4 at *
  -- stretch E
  have e75 := E_v75 V4 _ d50 d60 d51
  have e48 := (keepE V4 (r := main_v48) (by decide)).trans d48
  have e50 := (keepE V4 (r := main_v50) (by decide)).trans d50
  have e51 := (keepE V4 (r := main_v51) (by decide)).trans d51
  have e_arg4 := (keepE V4 (r := main_arg4) (by decide)).trans d_arg4
  have e_arg5 := (keepE V4 (r := main_arg5) (by decide)).trans d_arg5
  clear d50 d51 d60 d48 d_arg4 d_arg5
  generalize after opsE V4 = V5 at *
  -- stretch F
  have f92 := F_v92 V5 _ _ _ _ _ _ e48 e_arg4 e50 e75 e51 e_arg5
  clear e75 e48 e50 e51 e_arg4 e_arg5
  generalize after opsF V5 = V6 at *
  -- stretch G
  exact G_v93 V6 _ _ _ _ _ _ f92

/-- THE RUN: on every device, from any memory with zero counters, every weakly fair execution of the reference
    program terminates with the result buffer at its value as a function of the arguments' launch contents, and the
    arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93)
        = ReadP.val_main_v93 (F := Ideal) (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (after_ops_v93 (launchContents m c)),
      (h c main_arg0).trans (after_ops_keep (launchContents m c) (by decide) (by decide) (by decide) (by decide) (by decide) (by decide) (by decide)),
      (h c main_arg1).trans (after_ops_keep (launchContents m c) (by decide) (by decide) (by decide) (by decide) (by decide) (by decide) (by decide)),
      (h c main_arg2).trans (after_ops_keep (launchContents m c) (by decide) (by decide) (by decide) (by decide) (by decide) (by decide) (by decide)),
      (h c main_arg3).trans (after_ops_keep (launchContents m c) (by decide) (by decide) (by decide) (by decide) (by decide) (by decide) (by decide)),
      (h c main_arg4).trans (after_ops_keep (launchContents m c) (by decide) (by decide) (by decide) (by decide) (by decide) (by decide) (by decide)),
      (h c main_arg5).trans (after_ops_keep (launchContents m c) (by decide) (by decide) (by decide) (by decide) (by decide) (by decide) (by decide))⟩)
    (run_seq scopedRefs_eq scopedSems_eq defs main (fun _ => ops) main_eq (fun _ => ops_sub) m ρ)

end Cert.ReferenceIdeal.RunH

end
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.LibWords.lean ====
/-
  Small natural numbers as 32-bit words.

  A natural number `n` below 2^31 written as a 32-bit word has its sign bit clear, so read unsigned or signed it is `n`
  itself. Everything a program computes on such words with signed comparisons and a signed remainder is then the
  arithmetic of the naturals: the word is not negative, it is at most any larger such word, and its remainder by a larger
  positive word is the word itself (a remainder by a divisor that is neither zero nor minus one is never at the
  division's corner, whatever unit computes it).
-/
import Idealize.ShloMosaic.PureOps

namespace Cert.Lib.Words

open Idealize.ShloMosaic

/-- Read unsigned, the word of `n < 2^31` is `n`. -/
theorem toNat_ofNat (n : Nat) (h : n < 2 ^ 31) : (BitVec.ofNat 32 n).toNat = n := by
  rw [BitVec.toNat_ofNat]; exact Nat.mod_eq_of_lt (by omega)

/-- Its sign bit is clear. -/
theorem msb_ofNat (n : Nat) (h : n < 2 ^ 31) : (BitVec.ofNat 32 n).msb = false := by
  rw [BitVec.msb_eq_false_iff_two_mul_lt, toNat_ofNat n h]; omega

/-- Read signed, it is `n` too. -/
theorem toInt_ofNat (n : Nat) (h : n < 2 ^ 31) : (BitVec.ofNat 32 n).toInt = (n : Int) := by
  rw [BitVec.toInt_eq_toNat_of_msb (msb_ofNat n h), toNat_ofNat n h]

/-- Two such words are equal only if the numbers are. -/
theorem ofNat_ne (n k : Nat) (hn : n < 2 ^ 31) (hk : k < 2 ^ 31) (hne : n ≠ k) : BitVec.ofNat 32 n ≠ BitVec.ofNat 32 k :=
  fun e => hne (by rw [← toNat_ofNat n hn, ← toNat_ofNat k hk, e])

/-- The signed remainder of `n` by a larger `d` is `n`: the truncated remainder of two numbers that are not negative is
    the remainder of the naturals. -/
theorem srem_ofNat (n d : Nat) (hn : n < d) (hd : d < 2 ^ 31) :
    (BitVec.ofNat 32 n).srem (BitVec.ofNat 32 d) = BitVec.ofNat 32 n := by
  apply BitVec.eq_of_toInt_eq
  rw [BitVec.toInt_srem, toInt_ofNat n (by omega), toInt_ofNat d hd]
  exact Int.tmod_eq_of_lt (by omega) (by omega)

/-- A positive `d < 2^31` is not a corner of the signed division: it is not the zero word, and it is not minus one (whose
    sign bit is set). -/
theorem not_corner (x : BitVec 32) (d : Nat) (h0 : 0 < d) (hd : d < 2 ^ 31) : ¬IntOp.SDivCorner x (BitVec.ofNat 32 d) := by
  rintro (h | ⟨-, h⟩)
  · exact ofNat_ne d 0 hd (by omega) (by omega) h
  · have hm := msb_ofNat d hd
    rw [h] at hm
    exact absurd hm (by decide)

/-- So on any unit the remainder of `n` by a larger `d` is `n`. -/
theorem remsi_ofNat (u : ArithUnit) (n d : Nat) (hn : n < d) (hd : d < 2 ^ 31) :
    IntOp.remsi u (BitVec.ofNat 32 n) (BitVec.ofNat 32 d) = BitVec.ofNat 32 n := by
  unfold IntOp.remsi
  rw [if_neg (not_corner _ d (by omega) hd)]
  exact srem_ofNat n d hn hd

/-- Such a word is not below zero (signed) … -/
theorem cmpi_slt_zero (n : Nat) (h : n < 2 ^ 31) : IntOp.cmpi .slt (BitVec.ofNat 32 n) 0#32 = 0#1 := by
  have e : (BitVec.ofNat 32 n).slt 0#32 = false := by
    rw [BitVec.slt_eq_decide, toInt_ofNat n h]
    exact decide_eq_false (by show ¬((n : Int) < (0#32 : BitVec 32).toInt); rw [show (0#32 : BitVec 32).toInt = 0 from rfl]; omega)
  show BitVec.ofBool ((BitVec.ofNat 32 n).slt 0#32) = 0#1
  rw [e]; rfl

/-- … it is at least zero … -/
theorem cmpi_sge_zero (n : Nat) (h : n < 2 ^ 31) : IntOp.cmpi .sge (BitVec.ofNat 32 n) 0#32 = 1#1 := by
  have e : (0#32 : BitVec 32).sle (BitVec.ofNat 32 n) = true := by
    rw [BitVec.sle_eq_decide, toInt_ofNat n h]
    exact decide_eq_true (by rw [show (0#32 : BitVec 32).toInt = 0 from rfl]; omega)
  show BitVec.ofBool ((0#32 : BitVec 32).sle (BitVec.ofNat 32 n)) = 1#1
  rw [e]; rfl

/-- … and at most any such word of a number at least `n`. -/
theorem cmpi_sle (n k : Nat) (hnk : n ≤ k) (hk : k < 2 ^ 31) :
    IntOp.cmpi .sle (BitVec.ofNat 32 n) (BitVec.ofNat 32 k) = 1#1 := by
  have e : (BitVec.ofNat 32 n).sle (BitVec.ofNat 32 k) = true := by
    rw [BitVec.sle_eq_decide, toInt_ofNat n (by omega), toInt_ofNat k hk]
    exact decide_eq_true (by omega)
  show BitVec.ofBool ((BitVec.ofNat 32 n).sle (BitVec.ofNat 32 k)) = 1#1
  rw [e]; rfl

/-- Read signed and cut off below at zero, it is `n`. -/
theorem toInt_toNat_ofNat (n : Nat) (h : n < 2 ^ 31) : (BitVec.ofNat 32 n).toInt.toNat = n := by
  rw [toInt_ofNat n h]; exact Int.toNat_natCast n

end Cert.Lib.Words
-- ==== Proof.EdgeWords.lean ====
/-
  Row numbers as 32-bit words.

  An edge names its two end nodes by 32-bit words. A scatter reads such a word as a signed integer and uses it as it
  is: the edge lands on node `r` exactly when the word reads `r`. A gather first counts a negative row number from
  the end (`nrm`: a word below zero has the number of nodes added) and then cuts the result into the range of rows
  (`row`). For a word that reads a node `r` the two agree: it is not negative, so `nrm` leaves it alone, and it is
  in range, so the cut leaves it alone too (`row_of_toInt`). The word written for node `j` by a count from zero reads
  `j` (`toInt_iota`).
-/
import Idealize.ShloMosaic.PureOps
import Idealize.ShloMosaic.Lib.ValueIdx
import proofs.«116229_j74002286510429_2_alg».proof.Proof.LibWords

namespace Cert.EdgeWords

open Idealize.ShloMosaic

/-- A negative row number counts from the end: the number of nodes is added to it. -/
def nrm (w : BitVec 32) : BitVec 32 := Scalar.select (IntOp.cmpi .slt w 0#32) (IntOp.addi w 100000#32) w

/-- The row a gather reads for the row number `w`: `nrm w` read signed and cut into `[0, 99999]`. -/
def row (w : BitVec 32) : Fin 100000 := ⟨min (nrm w).toInt.toNat (100000 - 1), by omega⟩

/-- A word that does not read below zero is left alone. -/
theorem nrm_of_nonneg (w : BitVec 32) (h : 0 ≤ w.toInt) : nrm w = w := by
  have e : w.slt 0#32 = false := by
    rw [BitVec.slt_eq_decide]
    exact decide_eq_false (by rw [show (0#32 : BitVec 32).toInt = 0 from rfl]; omega)
  unfold nrm
  rw [show IntOp.cmpi .slt w 0#32 = BitVec.ofBool (w.slt 0#32) from rfl, e]
  exact ValueIdx.select_zero _ _

/-- A word that reads the node `r` makes the gather read row `r`. -/
theorem row_of_toInt (w : BitVec 32) (r : Fin 100000) (h : w.toInt = (r.val : Int)) : row w = r := by
  have hr := r.isLt
  refine Fin.ext ?_
  show min (nrm w).toInt.toNat (100000 - 1) = r.val
  rw [nrm_of_nonneg w (by omega), h, Int.toNat_natCast]
  omega

/-- The word a count from zero writes for node `j` reads `j`. -/
theorem toInt_iota (j : Fin 100000) : (BitVec.ofNat 32 j.val).toInt = (j.val : Int) :=
  Cert.Lib.Words.toInt_ofNat j.val (by have := j.isLt; omega)

/-- It reads the node `r` exactly when `j` is `r`. -/
theorem toInt_iota_eq_iff (j r : Fin 100000) : (BitVec.ofNat 32 j.val).toInt = (r.val : Int) ↔ j = r := by
  rw [toInt_iota]
  constructor
  · intro h; exact Fin.ext (by omega)
  · intro h; rw [h]

/-- A gather at that word reads row `j`. -/
theorem row_iota (j : Fin 100000) : row (BitVec.ofNat 32 j.val) = j := row_of_toInt _ j (toInt_iota j)

end Cert.EdgeWords
-- ==== Proof.LayerLaw.lean ====
/-
  The algebra of one graph-convolution layer over the extended reals.

  A node `r` of the graph receives, from every edge `e` that ends at `r`, the feature of the edge's source scaled by
  the normalisation of both ends. With `d` the normalisation of `r` itself, `u e` the source's feature and `v e` the
  source's normalisation, one program scales the source features first, sums them, and multiplies the sum by `d`,
  adding the node's own feature times `d · d`:        `d · ∑ (u e · v e) + (d · d) · h`;
  the other multiplies the two normalisations per edge, scales each source feature by the product, and sums over the
  edges and the node's own loop:                        `∑ u e · (v e · d) + h · (d · d)`.
  On the extended reals a product distributes over a sum only under a condition (an infinite factor times `⊤ + ⊥` is
  not the sum of the products); it does when the factor is a real number that is not negative, whatever the summands
  are (`mul_sum_of_nonneg`). The normalisation is such a number: it is the inverse square root of a count plus one
  (`rsqrt_count_succ`), so the two forms agree with no condition on the features (`layer_law`).
-/
import Idealize.ShloMosaic.PureOps.Ideal

noncomputable section

namespace Cert.LayerLaw

open Idealize.ShloMosaic

/-- The single-precision word `0x3F800000` denotes the number one. -/
theorem one_word : Ideal.ofBits .f32 0x3F800000#32 = 1 := by
  simp [Ideal.ofBits, Ideal.ieee, -EReal.coe_mul]; norm_num

/-- A real factor that is not negative distributes over a finite sum of extended reals. -/
theorem mul_sum_of_nonneg {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- The coercion of a finite sum of reals is the sum of the coercions. -/
theorem coe_sum {ι : Type} (s : Finset ι) (f : ι → ℝ) : ((∑ e ∈ s, f e : ℝ) : EReal) = ∑ e ∈ s, (f e : EReal) := by
  classical
  induction s using Finset.induction_on with
  | empty => simp
  | insert a s ha ih => rw [Finset.sum_insert ha, Finset.sum_insert ha, EReal.coe_add, ih]

/-- A count of the indices with a property, taken as a sum of ones over the extended reals, plus one, is a real number
    that is at least one. -/
theorem count_succ {ι : Type} [Fintype ι] (P : ι → Prop) [DecidablePred P] :
    ∃ x : ℝ, 1 ≤ x ∧ (∑ e : ι, if P e then (1 : EReal) else 0) + 1 = (x : EReal) := by
  refine ⟨(∑ e : ι, if P e then (1 : ℝ) else 0) + 1, ?_, ?_⟩
  · have : 0 ≤ ∑ e : ι, if P e then (1 : ℝ) else 0 := Finset.sum_nonneg fun e _ => by split <;> norm_num
    linarith
  · rw [EReal.coe_add, coe_sum, EReal.coe_one]
    congr 1
    refine Finset.sum_congr rfl fun e _ => ?_
    split <;> simp

/-- The inverse square root of such a count plus one is a real number that is not negative; and the count plus one is
    positive. -/
theorem rsqrt_count_succ {ι : Type} [Fintype ι] (P : ι → Prop) [DecidablePred P] :
    0 ≤ Ideal.rsqrt ((∑ e : ι, if P e then (1 : EReal) else 0) + 1)
      ∧ Ideal.rsqrt ((∑ e : ι, if P e then (1 : EReal) else 0) + 1) ≠ ⊤
      ∧ (0 : EReal) < (∑ e : ι, if P e then (1 : EReal) else 0) + 1 := by
  obtain ⟨x, hx, e⟩ := count_succ P
  rw [e, Ideal.rsqrt_coe, if_neg (by linarith), if_neg (by linarith)]
  exact ⟨EReal.coe_nonneg.mpr (inv_nonneg.mpr (Real.sqrt_nonneg x)), EReal.coe_ne_top _,
    EReal.coe_pos.mpr (by linarith)⟩

/-- THE LAYER LAW: scaling the summed, pre-scaled source features by the node's normalisation `d` is summing the
    source features scaled by the product of both normalisations; the node's own term commutes. -/
theorem layer_law {ι : Type} [Fintype ι] (P : ι → Prop) [DecidablePred P] (d : EReal) (h0 : 0 ≤ d) (ht : d ≠ ⊤)
    (u v : ι → EReal) (h : EReal) :
    d * (0 + ∑ e : ι, if P e then u e * v e else 0) + (d * d) * h
      = 0 + ((∑ e : ι, if P e then u e * (v e * d) else 0) + h * (d * d)) := by
  rw [zero_add, zero_add, mul_sum_of_nonneg _ d h0 ht, mul_comm (d * d) h]
  congr 1
  refine Finset.sum_congr rfl fun e _ => ?_
  split
  · rw [mul_comm d, mul_assoc]
  · rw [mul_zero]

end Cert.LayerLaw

end
-- ==== Proof.KernelLayer.lean ====
import proofs.«116229_j74002286510429_2_alg».proof.Proof.KernelFold
import proofs.«116229_j74002286510429_2_alg».proof.Proof.LibScatterRows
import proofs.«116229_j74002286510429_2_alg».proof.Proof.LibGatherRows
import proofs.«116229_j74002286510429_2_alg».proof.Proof.EdgeWords
import proofs.«116229_j74002286510429_2_alg».proof.Proof.LayerLaw
import Idealize.ShloMosaic.PureOps.Ideal.Laws
import Idealize.ShloMosaic.Lib.Pipeline.Value
import Idealize.ShloMosaic.Lib.ValueIdx

/-! # The host stretches' values read at an entry

Each value the host stretches compute (the module that defines them composes the stretch's operations in program order)
is read here at one index, over the extended reals:

* the normaliser of node `j` is `rsqrt (1 + #{e : dst e = j})`, the count taken as a sum of ones over all edges;
* one propagation step at node `r`, feature `c`, is
  `d r · Σ_{e : dst e = r} h[row (src e), c] · d (row (src e)) + (d r · d r) · h[r, c]`,
  where a scatter-add keeps exactly the edges whose target word reads `r` as a signed integer (a word out of range lands
  nowhere) and a gather reads the row `row w`: a negative word counted from the end, the result cut into the range of
  rows;
* a bias read as a one-row matrix has entry `(0, k)` equal to entry `k`.

A sum over no edges is written `0 + Σ …`: the scatter-add starts from an array of zeros. -/

set_option maxRecDepth 16384

noncomputable section

namespace Cert.KernelIdeal.KVal

open Idealize.ShloMosaic Idealize.ShloMosaic.ValueIdx Cert.EdgeWords
open Cert.KernelIdeal.Facts₀
open scoped BigOperators

/-! ## The pointwise operations over the extended reals, read at an index -/

theorem hostRsqrt_apply {s : Shape} (v : FVec Ideal s .f32) (i : s.Idx) :
    Host.rsqrt (F := Ideal) (φ := .f32) v i = Ideal.rsqrt (v i) := rfl

theorem hostScatterAdd_eq {s si u : Shape} {w : Nat} (d : ScatterDims s si u) (x : FVec Ideal s .f32) (idx : IVec si w)
    (upd : FVec Ideal u .f32) :
    Host.scatterAdd (F := Ideal) (φ := .f32) d x idx upd = Ideal.hostScatterAdd d x idx upd := rfl

/-! ## Broadcasts read at an index -/

/-- A vector of length `R` written as a column `[R, 1]`: entry `(e, ·)` is entry `e`. -/
theorem col_apply {α : Type} (x : S3200000.Idx → α) (y : S3200000x1.Idx) :
    broadcastInDim S3200000x1 ![0] bcast_S3200000_S3200000x1_0 x y = x (ix1 (⟨(y 0).val, idx2_lt0 y⟩ : Fin 3200000)) :=
  broadcastInDim_apply _ bcast_S3200000_S3200000x1_0 x y _ (fun a => match a with
    | ⟨0, _⟩ => by show (y 0).val = if (3200000 : Nat) = 1 then 0 else (y 0).val; rw [if_neg (by decide)])

theorem zeros100000_apply (i : S100000.Idx) :
    broadcastInDim S100000 ![] bcast_S_S100000 (constant (F := Ideal) S_ .f32 0x00000000#32) i = 0 :=
  (rfl : _ = Ideal.ofBits .f32 0x00000000#32).trans Ideal.ofBits_zero_f32
theorem ones100000_apply (i : S100000.Idx) :
    broadcastInDim S100000 ![] bcast_S_S100000 (constant (F := Ideal) S_ .f32 0x3F800000#32) i = 1 :=
  (rfl : _ = Ideal.ofBits .f32 0x3F800000#32).trans Cert.LayerLaw.one_word
theorem ones3200000_apply (i : S3200000.Idx) :
    broadcastInDim S3200000 ![] bcast_S_S3200000 (constant (F := Ideal) S_ .f32 0x3F800000#32) i = 1 :=
  (rfl : _ = Ideal.ofBits .f32 0x3F800000#32).trans Cert.LayerLaw.one_word

/-- The in-degree normaliser of node `j`: the inverse square root of one plus the number of edges that end at `j`
    (an edge ends at `j` when its target word reads `j` as a signed integer). -/
theorem kDinv_apply (dst : IVec S3200000 32) (j : Fin 100000) :
    kDinv dst (ix1 j)
      = Ideal.rsqrt ((0 + ∑ e : Fin 3200000, if (dst (ix1 e)).toInt = (j.val : Int) then (1 : EReal) else 0) + 1) := by
  unfold kDinv
  rw [hostRsqrt_apply, addf_apply, hostScatterAdd_eq, ones100000_apply]
  refine congrArg (fun t => Ideal.rsqrt (t + 1)) ?_
  refine (Cert.Lib.ScatterRows.scatterAdd_vec_apply (N := 100000) (R := 3200000)
    scatter_S100000_S3200000x1_S3200000_n_0_0_1_wf _ _ _ j).trans ?_
  rw [zeros100000_apply]
  refine congrArg (fun t => (0 : EReal) + t) ?_
  exact Finset.sum_congr rfl fun e _ => by rw [col_apply dst, ones3200000_apply]

/-! ## Width 16 -/

/-- The normalisers spread along the rows of a `[100000, 16]` matrix: entry `(r, c)` is `d r`. -/
theorem rowScale16_apply (d : S100000.Idx → EReal) (r : Fin 100000) (c : Fin 16) :
    broadcastInDim S100000x16 ![0, 1] bcast_S100000x1_S100000x16_0_1
      (broadcastInDim S100000x1 ![0] bcast_S100000_S100000x1_0 d) (ix2 r c) = d (ix1 r) :=
  (broadcastInDim_apply _ bcast_S100000x1_S100000x16_0_1 _ (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])).trans
  (broadcastInDim_apply _ bcast_S100000_S100000x1_0 d (ix2 r (0 : Fin 1)) (ix1 r) (fun a => match a with
    | ⟨0, _⟩ => by show r.val = if (100000 : Nat) = 1 then 0 else r.val; rw [if_neg (by decide)]))

theorem zeros100000x16_apply (i : S100000x16.Idx) :
    broadcastInDim S100000x16 ![] bcast_S_S100000x16 (constant (F := Ideal) S_ .f32 0x00000000#32) i = 0 :=
  (rfl : _ = Ideal.ofBits .f32 0x00000000#32).trans Ideal.ofBits_zero_f32

/-- Rows gathered at a column of row numbers: row `e` of the result is the operand's row at the number `idx e`, read
    signed and cut into the range of rows. -/
theorem gatherRows16_apply {α : Type} (x : S100000x16.Idx → α) (idx : IVec S3200000 32) (e : Fin 3200000) (c : Fin 16) :
    Host.gather gather_S100000x16_S3200000x1_S3200000x16_1_0_n_n_0_1_116 x
        (broadcastInDim S3200000x1 ![0] bcast_S3200000_S3200000x1_0 idx) (ix2 e c)
      = x (ix2 (⟨min (idx (ix1 e)).toInt.toNat (100000 - 1), by omega⟩ : Fin 100000) c) := by
  refine (Cert.Lib.GatherRows.gather_rows_apply (N := 100000) (R := 3200000) (D := 16) (by decide)
    gather_S100000x16_S3200000x1_S3200000x16_1_0_n_n_0_1_116_wf _ _ (ix2 e c)).trans ?_
  refine congrArg x ?_
  have hi : broadcastInDim S3200000x1 ![0] bcast_S3200000_S3200000x1_0 idx (Cert.Lib.GatherRows.rowsIdx (ix2 e c))
      = idx (ix1 e) := col_apply idx _
  refine congrArg (fun t : Fin 100000 => ix2 t c) (Fin.ext ?_)
  show min (broadcastInDim S3200000x1 ![0] bcast_S3200000_S3200000x1_0 idx
      (Cert.Lib.GatherRows.rowsIdx (ix2 e c))).toInt.toNat (100000 - 1) = min (idx (ix1 e)).toInt.toNat (100000 - 1)
  rw [hi]

/-- One propagation step read at node `r`, feature `c`: the node's normaliser times the sum, over the edges that end
    at `r`, of the source's feature times the source's normaliser, plus the node's own feature times its normaliser
    squared. -/
theorem kLayer16_apply (src dst : IVec S3200000 32) (dinv : S100000.Idx → EReal) (h : S100000x16.Idx → EReal)
    (r : Fin 100000) (c : Fin 16) :
    kLayer16 src dst dinv h (ix2 r c)
      = dinv (ix1 r) * (0 + ∑ e : Fin 3200000, if (dst (ix1 e)).toInt = (r.val : Int)
            then h (ix2 (row (src (ix1 e))) c) * dinv (ix1 (row (src (ix1 e)))) else 0)
        + (dinv (ix1 r) * dinv (ix1 r)) * h (ix2 r c) := by
  unfold kLayer16
  rw [addf_apply, mulf_apply, mulf_apply, rowScale16_apply, rowScale16_apply, mulf_apply, hostScatterAdd_eq]
  refine congrArg (fun t => dinv (ix1 r) * t + (dinv (ix1 r) * dinv (ix1 r)) * h (ix2 r c)) ?_
  refine (Cert.Lib.ScatterRows.scatterAdd_rows_apply (N := 100000) (R := 3200000) (D := 16)
    scatter_S100000x16_S3200000x1_S3200000x16_1_0_0_1_wf _ _ _ r c).trans ?_
  rw [zeros100000x16_apply]
  refine congrArg (fun t => (0 : EReal) + t) ?_
  refine Finset.sum_congr rfl fun e _ => ?_
  rw [col_apply dst]
  refine if_congr Iff.rfl ?_ rfl
  exact (gatherRows16_apply _ _ e c).trans ((mulf_apply h _ (ix2 (row (src (ix1 e))) c)).trans
    (congrArg (fun t => h (ix2 (row (src (ix1 e))) c) * t) (rowScale16_apply dinv (row (src (ix1 e))) c)))

/-! ## Width 40 -/

/-- The normalisers spread along the rows of a `[100000, 40]` matrix: entry `(r, c)` is `d r`. -/
theorem rowScale40_apply (d : S100000.Idx → EReal) (r : Fin 100000) (c : Fin 40) :
    broadcastInDim S100000x40 ![0, 1] bcast_S100000x1_S100000x40_0_1
      (broadcastInDim S100000x1 ![0] bcast_S100000_S100000x1_0 d) (ix2 r c) = d (ix1 r) :=
  (broadcastInDim_apply _ bcast_S100000x1_S100000x40_0_1 _ (ix2 r c) (ix2 r (0 : Fin 1)) (fun a => match a with
    | ⟨0, _⟩ => by show r.val = if (100000 : Nat) = 1 then 0 else r.val; rw [if_neg (by decide)]
    | ⟨1, _⟩ => by show 0 = if (1 : Nat) = 1 then 0 else c.val; rw [if_pos rfl])).trans
  (broadcastInDim_apply _ bcast_S100000_S100000x1_0 d (ix2 r (0 : Fin 1)) (ix1 r) (fun a => match a with
    | ⟨0, _⟩ => by show r.val = if (100000 : Nat) = 1 then 0 else r.val; rw [if_neg (by decide)]))

theorem zeros100000x40_apply (i : S100000x40.Idx) :
    broadcastInDim S100000x40 ![] bcast_S_S100000x40 (constant (F := Ideal) S_ .f32 0x00000000#32) i = 0 :=
  (rfl : _ = Ideal.ofBits .f32 0x00000000#32).trans Ideal.ofBits_zero_f32

/-- Rows gathered at a column of row numbers: row `e` of the result is the operand's row at the number `idx e`, read
    signed and cut into the range of rows. -/
theorem gatherRows40_apply {α : Type} (x : S100000x40.Idx → α) (idx : IVec S3200000 32) (e : Fin 3200000) (c : Fin 40) :
    Host.gather gather_S100000x40_S3200000x1_S3200000x40_1_0_n_n_0_1_140 x
        (broadcastInDim S3200000x1 ![0] bcast_S3200000_S3200000x1_0 idx) (ix2 e c)
      = x (ix2 (⟨min (idx (ix1 e)).toInt.toNat (100000 - 1), by omega⟩ : Fin 100000) c) := by
  refine (Cert.Lib.GatherRows.gather_rows_apply (N := 100000) (R := 3200000) (D := 40) (by decide)
    gather_S100000x40_S3200000x1_S3200000x40_1_0_n_n_0_1_140_wf _ _ (ix2 e c)).trans ?_
  refine congrArg x ?_
  have hi : broadcastInDim S3200000x1 ![0] bcast_S3200000_S3200000x1_0 idx (Cert.Lib.GatherRows.rowsIdx (ix2 e c))
      = idx (ix1 e) := col_apply idx _
  refine congrArg (fun t : Fin 100000 => ix2 t c) (Fin.ext ?_)
  show min (broadcastInDim S3200000x1 ![0] bcast_S3200000_S3200000x1_0 idx
      (Cert.Lib.GatherRows.rowsIdx (ix2 e c))).toInt.toNat (100000 - 1) = min (idx (ix1 e)).toInt.toNat (100000 - 1)
  rw [hi]

/-- One propagation step read at node `r`, feature `c`: the node's normaliser times the sum, over the edges that end
    at `r`, of the source's feature times the source's normaliser, plus the node's own feature times its normaliser
    squared. -/
theorem kLayer40_apply (src dst : IVec S3200000 32) (dinv : S100000.Idx → EReal) (h : S100000x40.Idx → EReal)
    (r : Fin 100000) (c : Fin 40) :
    kLayer40 src dst dinv h (ix2 r c)
      = dinv (ix1 r) * (0 + ∑ e : Fin 3200000, if (dst (ix1 e)).toInt = (r.val : Int)
            then h (ix2 (row (src (ix1 e))) c) * dinv (ix1 (row (src (ix1 e)))) else 0)
        + (dinv (ix1 r) * dinv (ix1 r)) * h (ix2 r c) := by
  unfold kLayer40
  rw [addf_apply, mulf_apply, mulf_apply, rowScale40_apply, rowScale40_apply, mulf_apply, hostScatterAdd_eq]
  refine congrArg (fun t => dinv (ix1 r) * t + (dinv (ix1 r) * dinv (ix1 r)) * h (ix2 r c)) ?_
  refine (Cert.Lib.ScatterRows.scatterAdd_rows_apply (N := 100000) (R := 3200000) (D := 40)
    scatter_S100000x40_S3200000x1_S3200000x40_1_0_0_1_wf _ _ _ r c).trans ?_
  rw [zeros100000x40_apply]
  refine congrArg (fun t => (0 : EReal) + t) ?_
  refine Finset.sum_congr rfl fun e _ => ?_
  rw [col_apply dst]
  refine if_congr Iff.rfl ?_ rfl
  exact (gatherRows40_apply _ _ e c).trans ((mulf_apply h _ (ix2 (row (src (ix1 e))) c)).trans
    (congrArg (fun t => h (ix2 (row (src (ix1 e))) c) * t) (rowScale40_apply dinv (row (src (ix1 e))) c)))

/-! ## The biases -/

/-- The width-16 bias as a one-row matrix: entry `(0, k)` is entry `k`. -/
theorem kBias16_apply (b : S16.Idx → EReal) (k : Fin 16) : kBias16 b (ix2 (0 : Fin 1) k) = b (ix1 k) := by
  unfold kBias16
  exact shapeCast_apply b shapeCasts_S16_S1x16 (ix2 (0 : Fin 1) k) (ix1 k)
    (by rewrite [Shape.rowMajor_val_one, Shape.rowMajor_val_two]; show k.val = 0 * 16 + k.val; omega)

/-- The width-40 bias as a one-row matrix: entry `(0, k)` is entry `k`. -/
theorem kBias40_apply (b : S40.Idx → EReal) (k : Fin 40) : kBias40 b (ix2 (0 : Fin 1) k) = b (ix1 k) := by
  unfold kBias40
  exact shapeCast_apply b shapeCasts_S40_S1x40 (ix2 (0 : Fin 1) k) (ix1 k)
    (by rewrite [Shape.rowMajor_val_one, Shape.rowMajor_val_two]; show k.val = 0 * 40 + k.val; omega)

end Cert.KernelIdeal.KVal

end
-- ==== Proof.RefDense.lean ====
/-
  The reference program's three dense stages, read at an entry, over the extended reals.

  • The first projection is the matrix product of the features and the first weights: entry `(r, c)` is the sum over
    the 512 shared coordinates of the products of the entries.
  • The second projection adds the bias vector to every row of the mixed first-layer values, cuts the sums off below
    at zero and multiplies by the second weights: entry `(r, c)` is `∑ k, max (h (r, k) + b k) 0 · w (k, c)`.
  • The last stage adds the bias vector to every row of the mixed second-layer values and takes the logarithm of the
    softmax of each row in the shifted form. With `y j` the biased entries of row `r` and `M` the fold of `max` over
    them from the value `lo` the reduction starts at, entry `c` is `(y c − M) − log (∑ j, exp (y j − M))`. The program
    also takes the maximum of `lo` and `M` before subtracting; a fold of `max` that starts at `lo` is never below
    `lo`, so this changes nothing. The sum of the exponentials starts from the zero constant, which adds nothing.
  The two mixing steps (the values called `h` and `z` above) are left as they are.
-/
import proofs.«116229_j74002286510429_2_alg».proof.Proof.RefReadP
import proofs.«116229_j74002286510429_2_alg».proof.Proof.Spec
import proofs.«116229_j74002286510429_2_alg».proof.Proof.LibColumns
import Idealize.ShloMosaic.PureOps.Ideal.Laws
import Idealize.ShloMosaic.Lib.ValueIdx

noncomputable section

namespace Cert.ReferenceIdeal.RefDense

open Cert.ReferenceIdeal Cert.ReferenceIdeal.Gen Cert.ReferenceIdeal.ReadP Idealize.ShloMosaic Idealize.ShloMosaic.ValueIdx

/-! ## The first projection -/

/-- Entry `(r, c)` of the first projection: the sum over the 512 shared coordinates of the features' entry times the
    weights' entry. -/
theorem ref_proj (x0 : (⟨S100000x512, .f32⟩ : BufTy).Contents (Elt Ideal)) (x2 : (⟨S512x16, .f32⟩ : BufTy).Contents (Elt Ideal)) (r : Fin 100000) (c : Fin 16) :
    val_main_v31 (F := Ideal) x0 x2 (ix2 r c) = ∑ k : Fin 512, x0 (ix2 r k) * x2 (ix2 k c) := by
  refine (val_main_v31_apply x0 x2 (ix2 r c)).trans ?_
  refine Finset.sum_congr rfl fun k _ => ?_
  have el : lidx_main_v31 (ix2 r c) k = ix2 r k := funext fun a => by match a with | ⟨0, _⟩ => rfl | ⟨1, _⟩ => rfl
  have er : ridx_main_v31 (ix2 r c) k = ix2 k c := funext fun a => by match a with | ⟨0, _⟩ => rfl | ⟨1, _⟩ => rfl
  rw [el, er]

/-! ## The second projection -/

/-- The left factor at `(r, k)`: the bias vector's entry `k` added to the mixed value, the sum cut off below at zero. -/
theorem ref_relu (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (r : Fin 100000) (k : Fin 16) :
    val_main_v48 (F := Ideal) x0 x1 x2 x3 (ix2 r k)
      = max (val_main_v44 (F := Ideal) x0 x1 x2 (ix2 r k) + x3 (ix1 k)) 0 := by
  rw [val_main_v48_apply, val_main_v47_apply, val_main_call1_v0_apply, val_main_call1_cst_apply, val_main_v46_apply,
    val_main_v45_apply]
  have hi : idx_main_v45 (idx_main_v46 (ix2 r k)) = ix1 k := funext fun a => by match a with | ⟨0, _⟩ => rfl
  rw [hi]
  show max (val_main_v44 (F := Ideal) x0 x1 x2 (ix2 r k) + x3 (ix1 k)) (Ideal.ofBits .f32 0x00000000#32) = _
  rw [Ideal.ofBits_zero_f32]

/-- Entry `(r, c)` of the second projection: the sum over the 16 shared coordinates of the cut-off sums times the
    weights' entries. -/
theorem ref_reluProj (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (r : Fin 100000) (c : Fin 40) :
    val_main_v76 (F := Ideal) x0 x1 x2 x3 x4 (ix2 r c)
      = ∑ k : Fin 16, max (val_main_v44 (F := Ideal) x0 x1 x2 (ix2 r k) + x3 (ix1 k)) 0 * x4 (ix2 k c) := by
  refine (val_main_v76_apply x0 x1 x2 x3 x4 (ix2 r c)).trans ?_
  refine Finset.sum_congr rfl fun k _ => ?_
  have el : lidx_main_v76 (ix2 r c) k = ix2 r k := funext fun a => by match a with | ⟨0, _⟩ => rfl | ⟨1, _⟩ => rfl
  have er : ridx_main_v76 (ix2 r c) k = ix2 k c := funext fun a => by match a with | ⟨0, _⟩ => rfl | ⟨1, _⟩ => rfl
  rw [el, er]
  exact congrArg (· * x4 (ix2 k c)) (ref_relu x0 x1 x2 x3 r k)

/-! ## The logarithm of the row softmax -/

/-- The biased entry at `(r, j)`: the bias vector's entry `j` added to the mixed value. -/
theorem ref_bias (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (j : Fin 40) :
    val_main_v92 (F := Ideal) x0 x1 x2 x3 x4 x5 (ix2 r j)
      = val_main_v89 (F := Ideal) x0 x1 x2 x3 x4 (ix2 r j) + x5 (ix1 j) := by
  rw [val_main_v92_apply, val_main_v91_apply, val_main_v90_apply]
  have hi : idx_main_v90 (idx_main_v91 (ix2 r j)) = ix1 j := funext fun a => by match a with | ⟨0, _⟩ => rfl
  rw [hi]
  rfl

/-- The row maximum repeated along the row, at `(r, q)`: the fold of `max` over the biased entries of row `r`. Taking
    the maximum with the fold's starting value once more changes nothing. -/
theorem ref_rowmax (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (q : Fin 40) :
    val_main_call3_v4 (F := Ideal) x0 x1 x2 x3 x4 x5 (ix2 r q)
      = (Finset.univ : Finset (Fin 40)).fold max (Ideal.ofBits .f32 0xFF800000#32) (fun j => val_main_v92 (F := Ideal) x0 x1 x2 x3 x4 x5 (ix2 r j)) := by
  rw [val_main_call3_v4_apply, val_main_call3_v3_apply, val_main_call3_v2_apply, val_main_call3_v1_apply,
    val_main_call3_cst_0_apply]
  have hi : idx_main_call3_v3 (idx_main_call3_v4 (ix2 r q)) = ix1 r := funext fun a => by match a with | ⟨0, _⟩ => rfl
  rw [hi]
  have h0 : val_main_call3_v0 (F := Ideal) x0 x1 x2 x3 x4 x5 (ix1 r)
      = (Finset.univ : Finset (Fin 40)).fold max (Ideal.ofBits .f32 0xFF800000#32) (fun j => val_main_v92 (F := Ideal) x0 x1 x2 x3 x4 x5 (ix2 r j)) := by
    unfold val_main_call3_v0 val_main_call3_cst
    exact Cert.Columns.hostReduce_maximumf_row (val_main_v92 (F := Ideal) x0 x1 x2 x3 x4 x5) 0xFF800000#32
      reducesTo_S100000x40_S100000_d1 (by decide) h_S_ r
  rw [h0]
  show max (Ideal.ofBits .f32 0xFF800000#32) _ = _
  exact max_eq_right ((Finset.le_fold_max _).mpr (Or.inl le_rfl))

/-- The shifted entry at `(r, q)`: the biased entry minus the row's maximum. -/
theorem ref_shift (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (q : Fin 40) :
    val_main_call3_v5 (F := Ideal) x0 x1 x2 x3 x4 x5 (ix2 r q)
      = val_main_v92 (F := Ideal) x0 x1 x2 x3 x4 x5 (ix2 r q)
        - (Finset.univ : Finset (Fin 40)).fold max (Ideal.ofBits .f32 0xFF800000#32) (fun j => val_main_v92 (F := Ideal) x0 x1 x2 x3 x4 x5 (ix2 r j)) := by
  rw [val_main_call3_v5_apply, ref_rowmax]
  rfl

/-- The logarithm of the row's sum of exponentials repeated along the row, at `(r, q)`. -/
theorem ref_lse (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (q : Fin 40) :
    val_main_call3_v10 (F := Ideal) x0 x1 x2 x3 x4 x5 (ix2 r q)
      = Ideal.log (∑ j : Fin 40, Ideal.exp (val_main_call3_v5 (F := Ideal) x0 x1 x2 x3 x4 x5 (ix2 r j))) := by
  rw [val_main_call3_v10_apply, val_main_call3_v9_apply, val_main_call3_v8_apply]
  have hi : idx_main_call3_v8 (idx_main_call3_v10 (ix2 r q)) = ix1 r := funext fun a => by match a with | ⟨0, _⟩ => rfl
  rw [hi, Ideal.hostUnary_log_def]
  refine congrArg Ideal.log ?_
  refine (val_main_call3_v7_apply x0 x1 x2 x3 x4 x5 (ix1 r)).trans ?_
  have hzero : val_main_call3_cst_1 (F := Ideal) (Shape.Idx.first h_S_) = 0 := Ideal.ofBits_zero_f32
  rw [hzero, zero_add]
  refine Finset.sum_congr rfl fun k _ => ?_
  have hk : idx_main_call3_v7 (ix1 r) k = ix2 r k := funext fun a => by match a with | ⟨0, _⟩ => rfl | ⟨1, _⟩ => rfl
  rw [hk, val_main_call3_v6_apply, Ideal.hostUnary_exp_def]

/-- Entry `(r, c)` of the last stage: the biased entry minus the row's maximum, minus the logarithm of the row's sum of
    the exponentials of the biased entries minus the maximum. -/
theorem ref_logsm (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x40, .f32⟩ : BufTy).Contents (Elt Ideal)) (x5 : (⟨S40, .f32⟩ : BufTy).Contents (Elt Ideal)) (r : Fin 100000) (c : Fin 40) :
    val_main_v93 (F := Ideal) x0 x1 x2 x3 x4 x5 (ix2 r c)
      = (val_main_v89 (F := Ideal) x0 x1 x2 x3 x4 (ix2 r c) + x5 (ix1 c)
          - (Finset.univ : Finset (Fin 40)).fold max (Ideal.ofBits .f32 0xFF800000#32) (fun j => val_main_v89 (F := Ideal) x0 x1 x2 x3 x4 (ix2 r j) + x5 (ix1 j)))
        - Ideal.log (∑ j : Fin 40, Ideal.exp (val_main_v89 (F := Ideal) x0 x1 x2 x3 x4 (ix2 r j) + x5 (ix1 j)
            - (Finset.univ : Finset (Fin 40)).fold max (Ideal.ofBits .f32 0xFF800000#32) (fun j' => val_main_v89 (F := Ideal) x0 x1 x2 x3 x4 (ix2 r j') + x5 (ix1 j')))) := by
  have hfun : (fun j : Fin 40 => val_main_v92 (F := Ideal) x0 x1 x2 x3 x4 x5 (ix2 r j))
      = fun j => val_main_v89 (F := Ideal) x0 x1 x2 x3 x4 (ix2 r j) + x5 (ix1 j) :=
    funext fun j => ref_bias x0 x1 x2 x3 x4 x5 r j
  have hs : ∀ j : Fin 40, val_main_call3_v5 (F := Ideal) x0 x1 x2 x3 x4 x5 (ix2 r j)
      = val_main_v89 (F := Ideal) x0 x1 x2 x3 x4 (ix2 r j) + x5 (ix1 j)
        - (Finset.univ : Finset (Fin 40)).fold max (Ideal.ofBits .f32 0xFF800000#32) (fun j' => val_main_v89 (F := Ideal) x0 x1 x2 x3 x4 (ix2 r j') + x5 (ix1 j')) := fun j => by
    rw [ref_shift, ref_bias, hfun]
  rw [val_main_v93_apply, ref_lse, hs c]
  show _ - Ideal.log _ = _
  exact congrArg (fun x => (val_main_v89 (F := Ideal) x0 x1 x2 x3 x4 (ix2 r c) + x5 (ix1 c)
      - (Finset.univ : Finset (Fin 40)).fold max (Ideal.ofBits .f32 0xFF800000#32) (fun j' => val_main_v89 (F := Ideal) x0 x1 x2 x3 x4 (ix2 r j') + x5 (ix1 j'))) - Ideal.log x)
    (Finset.sum_congr rfl fun j _ => by rw [hs j])

end Cert.ReferenceIdeal.RefDense

end
-- ==== Proof.LibGatherVec.lean ====
/-
  A gather of single elements of a vector, read at an index.

  Taking elements of a vector `x : [N]` at an integer column of positions `idx : [R, 1]` is a gather that collapses the
  operand's one axis (slices of one element), has no offset axis, and reads each start index off `idx`'s second axis.
  Its element `e` is `x` at the position `idx[e, 0]` — read as a signed integer and clamped into `[0, N − 1]`, as every
  start index of a gather is.
-/
import Idealize.ShloMosaic.PureOps
import Idealize.ShloMosaic.Lib.ValueIdx

namespace Cert.Lib.GatherVec

open Idealize.ShloMosaic Idealize.ShloMosaic.ValueIdx

variable {α : Type}

/-- The dimension numbers of that gather for an operand `[N]`, start indices `[R, 1]` and a result `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `e`: the operand at the position `idx[e, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.GatherVec
-- ==== Proof.LibConcatVec.lean ====
/-
  Two vectors joined end to end, read at an index.

  The concatenation of `a : [A]` and `b : [B]` along their one axis is the vector of length `A + B` whose first `A`
  elements are `a`'s and whose last `B` elements are `b`'s: position `i < A` reads `a[i]`, position `A + j` reads `b[j]`.
  Both are stated twice: with the result's length written `A + B`, and with it a third number `T` known to be `A + B`
  (for a result length written as one literal).
-/
import Idealize.ShloMosaic.Lib.Pipeline.Value
import Idealize.ShloMosaic.Lib.ValueIdx

namespace Cert.Lib.ConcatVec

open Idealize.ShloMosaic Idealize.ShloMosaic.ValueIdx

variable {α : Type}

/-- Position `i < A` of the joined vector of length `T = A + B` reads `a[i]`. -/
theorem concat_vec_left_of_eq {A B T : Nat} (hT : T = A + B) (a : (⟨1, ![A]⟩ : Shape).Idx → α)
    (b : (⟨1, ![B]⟩ : Shape).Idx → α) (h : Shape.Concatenates [(⟨1, ![A]⟩ : Shape), ⟨1, ![B]⟩] ⟨1, ![T]⟩ 0) (i : Fin A) :
    concatenate ⟨1, ![T]⟩ 0 [⟨⟨1, ![A]⟩, a⟩, ⟨⟨1, ![B]⟩, b⟩] h (ix1 (⟨i.val, by omega⟩ : Fin T)) = a (ix1 i) :=
  concatenate_pair_apply_left (0 : Fin 1) a b h (ix1 (⟨i.val, by omega⟩ : Fin T)) rfl (ix1 i) fun c => by
    obtain rfl : c = 0 := Subsingleton.elim _ _
    rfl

/-- Position `A + j` (`j < B`) of the joined vector of length `T = A + B` reads `b[j]`. -/
theorem concat_vec_right_of_eq {A B T : Nat} (hT : T = A + B) (a : (⟨1, ![A]⟩ : Shape).Idx → α)
    (b : (⟨1, ![B]⟩ : Shape).Idx → α) (h : Shape.Concatenates [(⟨1, ![A]⟩ : Shape), ⟨1, ![B]⟩] ⟨1, ![T]⟩ 0) (j : Fin B) :
    concatenate ⟨1, ![T]⟩ 0 [⟨⟨1, ![A]⟩, a⟩, ⟨⟨1, ![B]⟩, b⟩] h (ix1 (⟨A + j.val, by omega⟩ : Fin T)) = b (ix1 j) :=
  concatenate_pair_apply_right (0 : Fin 1) a b h (ix1 (⟨A + j.val, by omega⟩ : Fin T)) rfl rfl (ix1 j)
    (fun c hc => absurd (Subsingleton.elim _ _) hc)
    (by show j.val + A = A + j.val; omega)

/-- Position `i < A` of the joined vector reads `a[i]`. -/
theorem concat_vec_left {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (i : Fin A) :
    concatenate ⟨1, ![A + B]⟩ 0 [⟨⟨1, ![A]⟩, a⟩, ⟨⟨1, ![B]⟩, b⟩] h (ix1 (Fin.castAdd B i)) = a (ix1 i) :=
  concat_vec_left_of_eq rfl a b h i

/-- Position `A + j` (`j < B`) of the joined vector reads `b[j]`. -/
theorem concat_vec_right {A B : Nat} (a : (⟨1, ![A]⟩ : Shape).Idx → α) (b : (⟨1, ![B]⟩ : Shape).Idx → α)
    (h : Shape.Concatenates [(⟨1, ![A]⟩ : Shape), ⟨1, ![B]⟩] ⟨1, ![A + B]⟩ 0) (j : Fin B) :
    concatenate ⟨1, ![A + B]⟩ 0 [⟨⟨1, ![A]⟩, a⟩, ⟨⟨1, ![B]⟩, b⟩] h (ix1 (Fin.natAdd A j)) = b (ix1 j) :=
  concat_vec_right_of_eq rfl a b h j

end Cert.Lib.ConcatVec
-- ==== Proof.Join.lean ====
/-
  One graph-convolution layer, computed two ways, is one function.

  The graph has 100000 nodes and 3200000 edges; an edge `e` goes from the node its source word names to the node its
  target word names. One program works on the edges alone and treats every node's loop to itself in closed form; the
  other appends one loop per node to the edge list (3200000 + 100000 entries, entry `3200000 + j` being the loop at
  `j`, written with the word of `j` at both ends) and treats loops like edges.

  • THE DEGREE. Counting, with weight one, the entries of the long list that end at `j` gives the count over the
    edges plus one for the loop at `j` (`deg_long`): the two programs have the same degree, it is a count plus one, so
    its inverse square root — the node's normalisation — is a real number that is not negative (`norm_nonneg`), and the
    guard "where the degree is positive" of the second program always takes the inverse square root (`guard_pos`).
  • THE LAYER. Summing over the long list the source's feature times the product of both ends' normalisations splits
    into the edges and the loops; the loops that end at `r` are the one loop at `r`, whose source is `r`; an edge that
    ends at `r` has the normalisation of `r` at its target end. What is left is the layer law (`long_layer`).
-/
import proofs.«116229_j74002286510429_2_alg».proof.Proof.LayerLaw
import proofs.«116229_j74002286510429_2_alg».proof.Proof.EdgeWords

noncomputable section

namespace Cert.Join

open Idealize.ShloMosaic Cert.EdgeWords

/-- Among the loops, written with the words of their nodes, the ones that end at `r` are the one loop at `r`. -/
theorem sum_loops (r : Fin 100000) (g : Fin 100000 → EReal) :
    (∑ j : Fin 100000, if (BitVec.ofNat 32 j.val).toInt = (r.val : Int) then g j else 0) = g r := by
  have e : ∀ j : Fin 100000, (if (BitVec.ofNat 32 j.val).toInt = (r.val : Int) then g j else 0) = if j = r then g j else 0 :=
    fun j => if_congr (toInt_iota_eq_iff j r) rfl rfl
  rw [Finset.sum_congr rfl fun j _ => e j, Finset.sum_ite_eq' Finset.univ r g, if_pos (Finset.mem_univ r)]

/-- A sum over `T = A + B` places is the sum over the first `A` plus the sum over the last `B`. -/
theorem sum_split {M : Type} [AddCommMonoid M] {A B T : Nat} (hT : T = A + B) (g : Fin T → M) :
    (∑ e : Fin T, g e) = (∑ e : Fin A, g ⟨e.val, by omega⟩) + ∑ j : Fin B, g ⟨A + j.val, by omega⟩ := by
  subst hT
  exact Fin.sum_univ_add g

section Long

/- The long list has `T = E + 100000` places: its first `E` entries are the edges, entry `E + j` is the loop at `j`. -/
variable {E T : Nat} (hT : T = E + 100000)
  (src dst : Fin E → BitVec 32) (S' D' : Fin T → BitVec 32)
  (hS : ∀ e : Fin E, S' ⟨e.val, by omega⟩ = src e) (hSl : ∀ j : Fin 100000, S' ⟨E + j.val, by omega⟩ = BitVec.ofNat 32 j.val)
  (hD : ∀ e : Fin E, D' ⟨e.val, by omega⟩ = dst e) (hDl : ∀ j : Fin 100000, D' ⟨E + j.val, by omega⟩ = BitVec.ofNat 32 j.val)

include hD hDl in
/-- The weighted count over the long list of the entries that end at `j` is the count over the edges plus the loop's
    weight. -/
theorem deg_long (one : EReal) (j : Fin 100000) :
    (∑ e' : Fin T, if (D' e').toInt = (j.val : Int) then one else 0)
      = (∑ e : Fin E, if (dst e).toInt = (j.val : Int) then one else 0) + one := by
  have h1 : (∑ e : Fin E, if (D' ⟨e.val, by omega⟩).toInt = (j.val : Int) then one else 0)
      = ∑ e : Fin E, if (dst e).toInt = (j.val : Int) then one else 0 :=
    Finset.sum_congr rfl fun e _ => by rw [hD]
  have hl : ∀ i : Fin 100000, (if (D' ⟨E + i.val, by omega⟩).toInt = (j.val : Int) then one else 0)
      = if (BitVec.ofNat 32 i.val).toInt = (j.val : Int) then one else 0 := fun i => by rw [hDl]
  have h2 : (∑ i : Fin 100000, if (D' ⟨E + i.val, by omega⟩).toInt = (j.val : Int) then one else 0) = one :=
    (Finset.sum_congr rfl fun i _ => hl i).trans (sum_loops j fun _ => one)
  exact (sum_split hT _).trans (by rw [h1, h2])

/-- A node's normalisation — the inverse square root of the count of the edges that end at it, plus one — is a real
    number that is not negative. -/
theorem norm_nonneg (j : Fin 100000) :
    0 ≤ Ideal.rsqrt ((0 + ∑ e : Fin E, if (dst e).toInt = (j.val : Int) then (1 : EReal) else 0) + 1)
      ∧ Ideal.rsqrt ((0 + ∑ e : Fin E, if (dst e).toInt = (j.val : Int) then (1 : EReal) else 0) + 1) ≠ ⊤ := by
  rw [zero_add]
  exact ⟨(LayerLaw.rsqrt_count_succ fun e => (dst e).toInt = (j.val : Int)).1,
    (LayerLaw.rsqrt_count_succ fun e => (dst e).toInt = (j.val : Int)).2.1⟩

/-- The count plus one is positive, so a choice "the inverse square root where the degree is above zero, else zero"
    takes the inverse square root. -/
theorem guard_pos (j : Fin 100000) :
    Scalar.select (Ideal.cmp .ogt ((0 + ∑ e : Fin E, if (dst e).toInt = (j.val : Int) then (1 : EReal) else 0) + 1) 0)
        (Ideal.rsqrt ((0 + ∑ e : Fin E, if (dst e).toInt = (j.val : Int) then (1 : EReal) else 0) + 1)) (0 : EReal)
      = Ideal.rsqrt ((0 + ∑ e : Fin E, if (dst e).toInt = (j.val : Int) then (1 : EReal) else 0) + 1) := by
  have hp : (0 : EReal) < (0 + ∑ e : Fin E, if (dst e).toInt = (j.val : Int) then (1 : EReal) else 0) + 1 := by
    rw [zero_add]; exact (LayerLaw.rsqrt_count_succ fun e => (dst e).toInt = (j.val : Int)).2.2
  have : Ideal.cmp .ogt ((0 + ∑ e : Fin E, if (dst e).toInt = (j.val : Int) then (1 : EReal) else 0) + 1) 0 = 1#1 := by
    show BitVec.ofBool (decide ((0 : EReal) < _)) = 1#1
    rw [decide_eq_true hp]; rfl
  rw [this]
  exact ValueIdx.select_one _ _

include hT hS hSl hD hDl in
/-- THE LAYER over the long list is the layer over the edges with the loops in closed form: `d` is the
    normalisation (a real number that is not negative at every node), `f` the features' column. -/
theorem long_layer (d : Fin 100000 → EReal) (hd : ∀ j, 0 ≤ d j ∧ d j ≠ ⊤) (f : Fin 100000 → EReal) (r : Fin 100000) :
    (0 + ∑ e' : Fin T, if (D' e').toInt = (r.val : Int) then f (row (S' e')) * (d (row (S' e')) * d (row (D' e'))) else 0)
      = d r * (0 + ∑ e : Fin E, if (dst e).toInt = (r.val : Int) then f (row (src e)) * d (row (src e)) else 0)
        + (d r * d r) * f r := by
  refine Eq.trans ?_ (LayerLaw.layer_law (fun e => (dst e).toInt = (r.val : Int)) (d r) (hd r).1 (hd r).2
    (fun e => f (row (src e))) (fun e => d (row (src e))) (f r)).symm
  refine congrArg (HAdd.hAdd (0 : EReal)) ?_
  have h1 : (∑ e : Fin E, if (D' ⟨e.val, by omega⟩).toInt = (r.val : Int)
        then f (row (S' ⟨e.val, by omega⟩)) * (d (row (S' ⟨e.val, by omega⟩)) * d (row (D' ⟨e.val, by omega⟩))) else 0)
      = ∑ e : Fin E, if (dst e).toInt = (r.val : Int) then f (row (src e)) * (d (row (src e)) * d r) else 0 :=
    Finset.sum_congr rfl fun e _ => by
      rw [hS, hD]
      by_cases h : (dst e).toInt = (r.val : Int)
      · rw [if_pos h, if_pos h, row_of_toInt (dst e) r h]
      · rw [if_neg h, if_neg h]
  have hl : ∀ i : Fin 100000,
      (if (D' ⟨E + i.val, by omega⟩).toInt = (r.val : Int)
          then f (row (S' ⟨E + i.val, by omega⟩)) * (d (row (S' ⟨E + i.val, by omega⟩)) * d (row (D' ⟨E + i.val, by omega⟩))) else 0)
        = if (BitVec.ofNat 32 i.val).toInt = (r.val : Int) then f i * (d i * d i) else 0 := fun i => by
    rw [hSl, hDl, row_iota]
  have h2 : (∑ i : Fin 100000, if (D' ⟨E + i.val, by omega⟩).toInt = (r.val : Int)
        then f (row (S' ⟨E + i.val, by omega⟩)) * (d (row (S' ⟨E + i.val, by omega⟩)) * d (row (D' ⟨E + i.val, by omega⟩))) else 0)
      = f r * (d r * d r) :=
    (Finset.sum_congr rfl fun i _ => hl i).trans (sum_loops r fun j => f j * (d j * d j))
  exact (sum_split hT _).trans (by rw [h1, h2])

end Long

end Cert.Join

end
-- ==== Proof.RefLayer1.lean ====
/-
  The reference's first graph-convolution layer, read entry by entry.

  The reference appends one loop per node to the edge list: its long list of source words `S1` and of target words
  `D1` has the 3200000 edges first and then, `j` places after the last edge, the word of node `j` at both ends
  (`S1_edge`, `S1_loop`, `D1_edge`, `D1_loop`). Every operation of the layer is then read at an index:
  • the degree of node `j` is the number of entries of the long list that end at `j` (`deg_at`), so the
    normalisation is the inverse square root of the edges' count plus one (`norm_at`, the number `dK`);
  • an entry's weight is the product of the normalisations of the rows a gather reads for its two ends (`weight_at`),
    the row for a word being the word counted from the end when negative and cut into range (`EdgeWords.row`);
  • the layer's entry `(r, c)` sums, over the entries that end at `r`, the feature `(row of the source, c)` times
    the weight (`layer1_at`); splitting the long list into the edges and the loops gives the layer over the edges
    with every node's loop in closed form (`layer1_join`).
-/
import proofs.«116229_j74002286510429_2_alg».proof.Proof.RefReadP
import proofs.«116229_j74002286510429_2_alg».proof.Proof.LibScatterRows
import proofs.«116229_j74002286510429_2_alg».proof.Proof.LibGatherVec
import proofs.«116229_j74002286510429_2_alg».proof.Proof.LibGatherRows
import proofs.«116229_j74002286510429_2_alg».proof.Proof.LibConcatVec
import proofs.«116229_j74002286510429_2_alg».proof.Proof.Join
import Idealize.ShloMosaic.PureOps.Ideal.Laws

noncomputable section

namespace Cert.ReferenceIdeal.RefLayer

open Cert.ReferenceIdeal Cert.ReferenceIdeal.Gen Cert.ReferenceIdeal.ReadP Idealize.ShloMosaic Idealize.ShloMosaic.ValueIdx
open Cert.EdgeWords
open scoped BigOperators

/-- The edge list as the program receives it: two rows of 3200000 words. -/
abbrev EI := (⟨S2x3200000, .i32⟩ : BufTy).Contents (Elt Ideal)

theorem long_eq : 3300000 = 3200000 + 100000 := by norm_num

/-! ## The operations of the layer over variable operands, read at an index -/

/-- At the extended reals the host's accumulating scatter is the exact sum. -/
theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- At the extended reals a comparison of floats is the comparison of the numbers. -/
theorem cmpf_ideal (p : CmpFPredicate) (x y : Ideal .f32) : FloatOps.cmpf (F := Ideal) p x y = Ideal.cmp p x y := rfl

/-- The dimension numbers of the degree's scatter: a vector of updates added into a vector at a column of places. -/
theorem deg_dims : scatter_S100000_S3300000x1_S3300000_n_0_0_1
    = Cert.Lib.ScatterRows.vecDims 100000 3300000 scatter_S100000_S3300000x1_S3300000_n_0_0_1_wf := rfl

/-- A vector scatter-added into a vector at a column of places, read at `j`. -/
theorem scatterVec_apply (a : FVec Ideal S100000 .f32) (i : IVec S3300000x1 32) (u : FVec Ideal S3300000 .f32)
    (j : Fin 100000) :
    Host.scatterAdd (F := Ideal) scatter_S100000_S3300000x1_S3300000_n_0_0_1 a i u (ix1 j)
      = a (ix1 j) + ∑ e : Fin 3300000, if (i (ix2 e (0 : Fin 1))).toInt = (j.val : Int) then u (ix1 e) else 0 := by
  rw [scatterAdd_ideal, deg_dims]
  exact Cert.Lib.ScatterRows.scatterAdd_vec_apply scatter_S100000_S3300000x1_S3300000_n_0_0_1_wf a i u j

/-- A vector of length `T` written as a column `[T, 1]`: entry `(e, ·)` is entry `e`. -/
theorem colT_apply {α : Type} (x : S3300000.Idx → α) (y : S3300000x1.Idx) :
    broadcastInDim S3300000x1 ![0] bcast_S3300000_S3300000x1_0 x y = x (ix1 (⟨(y 0).val, idx2_lt0 y⟩ : Fin 3300000)) :=
  broadcastInDim_apply _ bcast_S3300000_S3300000x1_0 x y _ (fun a => match a with
    | ⟨0, _⟩ => by show (y 0).val = if (3300000 : Nat) = 1 then 0 else (y 0).val; rw [if_neg (by decide)])

/-- Elements of a vector gathered at a column of positions: element `e` is the operand at the position `idx e`,
    read signed and cut into range. -/
theorem gatherVec_apply {α : Type} (x : S100000.Idx → α) (idx : IVec S3300000 32) (e : Fin 3300000) :
    Host.gather gather_S100000_S3300000x1_S3300000_n_0_n_n_0_1_1 x
        (broadcastInDim S3300000x1 ![0] bcast_S3300000_S3300000x1_0 idx) (ix1 e)
      = x (ix1 (⟨min (idx (ix1 e)).toInt.toNat (100000 - 1), by omega⟩ : Fin 100000)) := by
  refine (Cert.Lib.GatherVec.gather_vec_apply (N := 100000) (R := 3300000) (by decide)
    gather_S100000_S3300000x1_S3300000_n_0_n_n_0_1_1_wf x _ e).trans ?_
  have hi : broadcastInDim S3300000x1 ![0] bcast_S3300000_S3300000x1_0 idx (ix2 e (0 : Fin 1)) = idx (ix1 e) :=
    colT_apply idx _
  refine congrArg (fun t : Fin 100000 => x (ix1 t)) (Fin.ext ?_)
  show min (broadcastInDim S3300000x1 ![0] bcast_S3300000_S3300000x1_0 idx (ix2 e (0 : Fin 1))).toInt.toNat (100000 - 1)
    = min (idx (ix1 e)).toInt.toNat (100000 - 1)
  rw [hi]

/-- Rows of a `[100000, 16]` matrix gathered at a column of row numbers: row `e` is the operand's row at the number
    `idx e`, read signed and cut into the range of rows. -/
theorem gatherRows16_apply {α : Type} (x : S100000x16.Idx → α) (idx : IVec S3300000 32) (e : Fin 3300000) (c : Fin 16) :
    Host.gather gather_S100000x16_S3300000x1_S3300000x16_1_0_n_n_0_1_116 x
        (broadcastInDim S3300000x1 ![0] bcast_S3300000_S3300000x1_0 idx) (ix2 e c)
      = x (ix2 (⟨min (idx (ix1 e)).toInt.toNat (100000 - 1), by omega⟩ : Fin 100000) c) := by
  refine (Cert.Lib.GatherRows.gather_rows_apply (N := 100000) (R := 3300000) (D := 16) (by decide)
    gather_S100000x16_S3300000x1_S3300000x16_1_0_n_n_0_1_116_wf x _ (ix2 e c)).trans ?_
  refine congrArg x ?_
  have hi : broadcastInDim S3300000x1 ![0] bcast_S3300000_S3300000x1_0 idx (Cert.Lib.GatherRows.rowsIdx (ix2 e c))
      = idx (ix1 e) := colT_apply idx _
  refine congrArg (fun t : Fin 100000 => ix2 t c) (Fin.ext ?_)
  show min (broadcastInDim S3300000x1 ![0] bcast_S3300000_S3300000x1_0 idx
      (Cert.Lib.GatherRows.rowsIdx (ix2 e c))).toInt.toNat (100000 - 1) = min (idx (ix1 e)).toInt.toNat (100000 - 1)
  rw [hi]

/-- Rows scatter-added into a `[100000, 16]` matrix at a column of row numbers, read at `(r, c)`. -/
theorem scatterRows16_apply (a : FVec Ideal S100000x16 .f32) (i : IVec S3300000x1 32) (u : FVec Ideal S3300000x16 .f32)
    (r : Fin 100000) (c : Fin 16) :
    Host.scatterAdd (F := Ideal) scatter_S100000x16_S3300000x1_S3300000x16_1_0_0_1 a i u (ix2 r c)
      = a (ix2 r c) + ∑ e : Fin 3300000, if (i (ix2 e (0 : Fin 1))).toInt = (r.val : Int) then u (ix2 e c) else 0 := by
  rw [scatterAdd_ideal]
  exact Cert.Lib.ScatterRows.scatterAdd_rows_apply (N := 100000) (R := 3300000) (D := 16)
    scatter_S100000x16_S3300000x1_S3300000x16_1_0_0_1_wf a i u r c

/-- A vector of length `T` spread along the rows of a `[T, 16]` matrix: entry `(e, c)` is entry `e`. -/
theorem spread16_apply {α : Type} (w : S3300000.Idx → α) (e : Fin 3300000) (c : Fin 16) :
    broadcastInDim S3300000x16 ![0, 1] bcast_S3300000x1_S3300000x16_0_1
      (broadcastInDim S3300000x1 ![0] bcast_S3300000_S3300000x1_0 w) (ix2 e c) = w (ix1 e) :=
  (broadcastInDim_apply _ bcast_S3300000x1_S3300000x16_0_1 _ (ix2 e c) (ix2 e (0 : Fin 1)) (fun a => match a with
    | ⟨0, _⟩ => by show e.val = if (3300000 : Nat) = 1 then 0 else e.val; rw [if_neg (by decide)]
    | ⟨1, _⟩ => by show 0 = if (1 : Nat) = 1 then 0 else c.val; rw [if_pos rfl])).trans
  (broadcastInDim_apply _ bcast_S3300000_S3300000x1_0 w (ix2 e (0 : Fin 1)) (ix1 e) (fun a => match a with
    | ⟨0, _⟩ => by show e.val = if (3300000 : Nat) = 1 then 0 else e.val; rw [if_neg (by decide)]))

/-! ## The edges and the long list -/

variable (x0 : (⟨S100000x512, .f32⟩ : BufTy).Contents (Elt Ideal)) (x1 : EI) (x2 : (⟨S512x16, .f32⟩ : BufTy).Contents (Elt Ideal))

/-- Edge `e`'s source word and target word. -/
def src (e : Fin 3200000) : BitVec 32 := val_main_v1 (F := Ideal) x1 (ix1 e)
def dst (e : Fin 3200000) : BitVec 32 := val_main_v3 (F := Ideal) x1 (ix1 e)

/-- The normalisation of node `j`: the inverse square root of one plus the number of edges that end at `j`. -/
def dK (j : Fin 100000) : EReal :=
  Ideal.rsqrt ((0 + ∑ e : Fin 3200000, if (dst x1 e).toInt = (j.val : Int) then (1 : EReal) else 0) + 1)

/-- The long list of layer 1 (edges, then one loop per node): its source words and target words. -/
def S1 (e' : Fin 3300000) : BitVec 32 := val_main_v5 (F := Ideal) x1 (ix1 e')
def D1 (e' : Fin 3300000) : BitVec 32 := val_main_v6 (F := Ideal) x1 (ix1 e')

theorem S1_edge (e : Fin 3200000) : S1 x1 ⟨e.val, by omega⟩ = src x1 e := by
  unfold S1 src val_main_v5
  exact Cert.Lib.ConcatVec.concat_vec_left_of_eq (A := 3200000) (B := 100000) (T := 3300000) long_eq
    (val_main_v1 (F := Ideal) x1) (val_main_v4 (F := Ideal)) concatenates_S3200000_S100000_S3300000_d0 e

theorem S1_loop (j : Fin 100000) : S1 x1 ⟨3200000 + j.val, by omega⟩ = BitVec.ofNat 32 j.val := by
  unfold S1 val_main_v5
  exact Cert.Lib.ConcatVec.concat_vec_right_of_eq (A := 3200000) (B := 100000) (T := 3300000) long_eq
    (val_main_v1 (F := Ideal) x1) (val_main_v4 (F := Ideal)) concatenates_S3200000_S100000_S3300000_d0 j

theorem D1_edge (e : Fin 3200000) : D1 x1 ⟨e.val, by omega⟩ = dst x1 e := by
  unfold D1 dst val_main_v6
  exact Cert.Lib.ConcatVec.concat_vec_left_of_eq (A := 3200000) (B := 100000) (T := 3300000) long_eq
    (val_main_v3 (F := Ideal) x1) (val_main_v4 (F := Ideal)) concatenates_S3200000_S100000_S3300000_d0 e

theorem D1_loop (j : Fin 100000) : D1 x1 ⟨3200000 + j.val, by omega⟩ = BitVec.ofNat 32 j.val := by
  unfold D1 val_main_v6
  exact Cert.Lib.ConcatVec.concat_vec_right_of_eq (A := 3200000) (B := 100000) (T := 3300000) long_eq
    (val_main_v3 (F := Ideal) x1) (val_main_v4 (F := Ideal)) concatenates_S3200000_S100000_S3300000_d0 j

/-! ## Layer 1: the degree and the normalisation -/

/-- The column of target words read at `(e', ·)`: entry `e'` of the long list. -/
theorem v9_at (e' : Fin 3300000) (u : Fin 1) : val_main_v9 (F := Ideal) x1 (ix2 e' u) = D1 x1 e' := by
  unfold val_main_v9
  exact colT_apply (val_main_v6 (F := Ideal) x1) (ix2 e' u)

/-- The degree of node `j`: the number of entries of the long list that end at `j`. -/
theorem deg_at (j : Fin 100000) :
    val_main_v10 (F := Ideal) x1 (ix1 j)
      = 0 + ∑ e' : Fin 3300000, if (D1 x1 e').toInt = (j.val : Int) then (1 : EReal) else 0 := by
  unfold val_main_v10
  refine (scatterVec_apply _ _ _ j).trans ?_
  have h0 : val_main_v8 (F := Ideal) (ix1 j) = 0 := by
    rw [val_main_v8_apply, val_main_cst_0_apply, Ideal.ofBits_def, Ideal.ofBits_zero_f32]
  have hs : ∀ e' : Fin 3300000,
      (if (val_main_v9 (F := Ideal) x1 (ix2 e' (0 : Fin 1))).toInt = (j.val : Int) then val_main_v7 (F := Ideal) (ix1 e') else 0)
        = if (D1 x1 e').toInt = (j.val : Int) then (1 : EReal) else 0 := fun e' => by
    rw [v9_at, val_main_v7_apply, val_main_cst_apply, Ideal.ofBits_def, LayerLaw.one_word]
  rw [h0, Finset.sum_congr rfl fun e' _ => hs e']

/-- The normalisation of node `j` is the inverse square root of one plus the number of edges that end at `j`: the
    long list counts the node's own loop, and the guard "where the degree is positive" always holds. -/
theorem norm_at (j : Fin 100000) : val_main_v15 (F := Ideal) x1 (ix1 j) = dK x1 j := by
  unfold dK
  rw [val_main_v15_apply, val_main_v12_apply, val_main_v13_apply, val_main_v14_apply, val_main_v11_apply,
    val_main_cst_2_apply, val_main_cst_1_apply, Ideal.ofBits_def, Ideal.ofBits_zero_f32, deg_at,
    Join.deg_long long_eq (dst x1) (D1 x1) (D1_edge x1) (D1_loop x1) 1 j, ← add_assoc,
    cmpf_ideal, Ideal.hostUnary_rsqrt_def]
  exact Join.guard_pos (dst x1) j

/-! ## Layer 1: the entries' weights -/

/-- The source words with a negative word counted from the end (for the weights). -/
theorem v20_at (e' : Fin 3300000) : val_main_v20 (F := Ideal) x1 (ix1 e') = nrm (S1 x1 e') := by
  rw [val_main_v20_apply, val_main_v17_apply, val_main_v19_apply, val_main_v16_apply, val_main_v18_apply,
    val_main_c_apply, val_main_c_3_apply]
  rfl
/-- The target words with a negative word counted from the end. -/
theorem v27_at (e' : Fin 3300000) : val_main_v27 (F := Ideal) x1 (ix1 e') = nrm (D1 x1 e') := by
  rw [val_main_v27_apply, val_main_v24_apply, val_main_v26_apply, val_main_v23_apply, val_main_v25_apply,
    val_main_c_4_apply, val_main_c_5_apply]
  rfl
/-- The source words with a negative word counted from the end (for the features' rows). -/
theorem v36_at (e' : Fin 3300000) : val_main_v36 (F := Ideal) x1 (ix1 e') = nrm (S1 x1 e') := by
  rw [val_main_v36_apply, val_main_v33_apply, val_main_v35_apply, val_main_v32_apply, val_main_v34_apply,
    val_main_c_6_apply, val_main_c_7_apply]
  rfl

/-- The normalisation gathered at an entry's source: that of the row the gather reads for the source word. -/
theorem v22_at (e' : Fin 3300000) : val_main_v22 (F := Ideal) x1 (ix1 e') = dK x1 (row (S1 x1 e')) := by
  unfold val_main_v22 val_main_v21
  refine (gatherVec_apply _ _ e').trans ?_
  refine Eq.trans (congrArg (fun t : Fin 100000 => val_main_v15 (F := Ideal) x1 (ix1 t)) (Fin.ext ?_)) (norm_at x1 (row (S1 x1 e')))
  show min (val_main_v20 (F := Ideal) x1 (ix1 e')).toInt.toNat (100000 - 1) = min (nrm (S1 x1 e')).toInt.toNat (100000 - 1)
  rw [v20_at]
/-- The normalisation gathered at an entry's target. -/
theorem v29_at (e' : Fin 3300000) : val_main_v29 (F := Ideal) x1 (ix1 e') = dK x1 (row (D1 x1 e')) := by
  unfold val_main_v29 val_main_v28
  refine (gatherVec_apply _ _ e').trans ?_
  refine Eq.trans (congrArg (fun t : Fin 100000 => val_main_v15 (F := Ideal) x1 (ix1 t)) (Fin.ext ?_)) (norm_at x1 (row (D1 x1 e')))
  show min (val_main_v27 (F := Ideal) x1 (ix1 e')).toInt.toNat (100000 - 1) = min (nrm (D1 x1 e')).toInt.toNat (100000 - 1)
  rw [v27_at]

/-- An entry's weight: the product of the normalisations of its two ends. -/
theorem weight1_at (e' : Fin 3300000) :
    val_main_v30 (F := Ideal) x1 (ix1 e') = dK x1 (row (S1 x1 e')) * dK x1 (row (D1 x1 e')) := by
  rw [val_main_v30_apply, v22_at, v29_at]
  rfl

/-! ## Layer 1: the sum over the long list -/

/-- The features gathered at an entry's source: the features' row the gather reads for the source word. -/
theorem v38_at (e' : Fin 3300000) (c : Fin 16) :
    val_main_v38 (F := Ideal) x0 x1 x2 (ix2 e' c) = val_main_v31 (F := Ideal) x0 x2 (ix2 (row (S1 x1 e')) c) := by
  unfold val_main_v38 val_main_v37
  refine (gatherRows16_apply _ _ e' c).trans ?_
  refine congrArg (fun t : Fin 100000 => val_main_v31 (F := Ideal) x0 x2 (ix2 t c)) (Fin.ext ?_)
  show min (val_main_v36 (F := Ideal) x1 (ix1 e')).toInt.toNat (100000 - 1) = min (nrm (S1 x1 e')).toInt.toNat (100000 - 1)
  rw [v36_at]

/-- The weights spread along the features' columns. -/
theorem v40_at (e' : Fin 3300000) (c : Fin 16) :
    val_main_v40 (F := Ideal) x1 (ix2 e' c) = val_main_v30 (F := Ideal) x1 (ix1 e') := by
  unfold val_main_v40 val_main_v39
  exact spread16_apply _ e' c

/-- An entry's contribution: its source's feature times its weight. -/
theorem v41_at (e' : Fin 3300000) (c : Fin 16) :
    val_main_v41 (F := Ideal) x0 x1 x2 (ix2 e' c)
      = val_main_v31 (F := Ideal) x0 x2 (ix2 (row (S1 x1 e')) c) * (dK x1 (row (S1 x1 e')) * dK x1 (row (D1 x1 e'))) := by
  rw [val_main_v41_apply, v38_at, v40_at, weight1_at]
  rfl

/-- The column of target words the layer's scatter reads, at `(e', ·)`: entry `e'` of the long list. -/
theorem v43_at (e' : Fin 3300000) (u : Fin 1) : val_main_v43 (F := Ideal) x1 (ix2 e' u) = D1 x1 e' := by
  unfold val_main_v43
  exact colT_apply (val_main_v6 (F := Ideal) x1) (ix2 e' u)

/-- THE LAYER OVER THE LONG LIST: entry `(r, c)` is the sum, over the entries that end at `r`, of the source's feature
    times the product of both ends' normalisations. -/
theorem layer1_at (r : Fin 100000) (c : Fin 16) :
    val_main_v44 (F := Ideal) x0 x1 x2 (ix2 r c)
      = 0 + ∑ e' : Fin 3300000, if (D1 x1 e').toInt = (r.val : Int)
          then val_main_v31 (F := Ideal) x0 x2 (ix2 (row (S1 x1 e')) c) * (dK x1 (row (S1 x1 e')) * dK x1 (row (D1 x1 e'))) else 0 := by
  unfold val_main_v44
  refine (scatterRows16_apply _ _ _ r c).trans ?_
  have h0 : val_main_v42 (F := Ideal) (ix2 r c) = 0 := by
    rw [val_main_v42_apply, val_main_cst_8_apply, Ideal.ofBits_def, Ideal.ofBits_zero_f32]
  have hs : ∀ e' : Fin 3300000,
      (if (val_main_v43 (F := Ideal) x1 (ix2 e' (0 : Fin 1))).toInt = (r.val : Int)
          then val_main_v41 (F := Ideal) x0 x1 x2 (ix2 e' c) else 0)
        = if (D1 x1 e').toInt = (r.val : Int)
          then val_main_v31 (F := Ideal) x0 x2 (ix2 (row (S1 x1 e')) c) * (dK x1 (row (S1 x1 e')) * dK x1 (row (D1 x1 e'))) else 0 := fun e' => by
    rw [v43_at, v41_at]
  rw [h0, Finset.sum_congr rfl fun e' _ => hs e']

/-- THE LAYER: the node's normalisation times the sum, over the edges that end at `r`, of the source's feature times
    the source's normalisation, plus the node's own feature times its normalisation squared — the long list split into
    the edges and the loops, the loop at `r` being the only loop that ends at `r`. -/
theorem layer1_join (r : Fin 100000) (c : Fin 16) :
    val_main_v44 (F := Ideal) x0 x1 x2 (ix2 r c)
      = dK x1 r * (0 + ∑ e : Fin 3200000, if (dst x1 e).toInt = (r.val : Int)
            then val_main_v31 (F := Ideal) x0 x2 (ix2 (row (src x1 e)) c) * dK x1 (row (src x1 e)) else 0)
        + (dK x1 r * dK x1 r) * val_main_v31 (F := Ideal) x0 x2 (ix2 r c) :=
  (layer1_at x0 x1 x2 r c).trans
    (Join.long_layer long_eq (src x1) (dst x1) (S1 x1) (D1 x1) (S1_edge x1) (S1_loop x1) (D1_edge x1) (D1_loop x1)
      (dK x1) (fun j => Join.norm_nonneg (dst x1) j) (fun j => val_main_v31 (F := Ideal) x0 x2 (ix2 j c)) r)

end Cert.ReferenceIdeal.RefLayer

end
-- ==== Proof.RefLayer2.lean ====
/-
  The reference's second graph-convolution layer, read entry by entry.

  The second layer repeats the first on features of width 40: the same edges, the same long list (the edges, then one
  loop per node, built again from the same edge words: `S2`, `D2`), hence the same degree and the same normalisation
  `dK` (`norm2_at`); its entry `(r, c)` sums, over the entries of the long list that end at `r`, the feature
  `(row of the source, c)` times the product of both ends' normalisations (`layer2_at`), which is the layer over the
  edges with every node's loop in closed form (`layer2_join`).
-/
import proofs.«116229_j74002286510429_2_alg».proof.Proof.RefLayer1

noncomputable section

namespace Cert.ReferenceIdeal.RefLayer

open Cert.ReferenceIdeal Cert.ReferenceIdeal.Gen Cert.ReferenceIdeal.ReadP Idealize.ShloMosaic Idealize.ShloMosaic.ValueIdx
open Cert.EdgeWords
open scoped BigOperators

/-! ## The operations of width 40 over variable operands, read at an index -/

/-- Rows of a `[100000, 40]` matrix gathered at a column of row numbers: row `e` is the operand's row at the number
    `idx e`, read signed and cut into the range of rows. -/
theorem gatherRows40_apply {α : Type} (x : S100000x40.Idx → α) (idx : IVec S3300000 32) (e : Fin 3300000) (c : Fin 40) :
    Host.gather gather_S100000x40_S3300000x1_S3300000x40_1_0_n_n_0_1_140 x
        (broadcastInDim S3300000x1 ![0] bcast_S3300000_S3300000x1_0 idx) (ix2 e c)
      = x (ix2 (⟨min (idx (ix1 e)).toInt.toNat (100000 - 1), by omega⟩ : Fin 100000) c) := by
  refine (Cert.Lib.GatherRows.gather_rows_apply (N := 100000) (R := 3300000) (D := 40) (by decide)
    gather_S100000x40_S3300000x1_S3300000x40_1_0_n_n_0_1_140_wf x _ (ix2 e c)).trans ?_
  refine congrArg x ?_
  have hi : broadcastInDim S3300000x1 ![0] bcast_S3300000_S3300000x1_0 idx (Cert.Lib.GatherRows.rowsIdx (ix2 e c))
      = idx (ix1 e) := colT_apply idx _
  refine congrArg (fun t : Fin 100000 => ix2 t c) (Fin.ext ?_)
  show min (broadcastInDim S3300000x1 ![0] bcast_S3300000_S3300000x1_0 idx
      (Cert.Lib.GatherRows.rowsIdx (ix2 e c))).toInt.toNat (100000 - 1) = min (idx (ix1 e)).toInt.toNat (100000 - 1)
  rw [hi]

/-- Rows scatter-added into a `[100000, 40]` matrix at a column of row numbers, read at `(r, c)`. -/
theorem scatterRows40_apply (a : FVec Ideal S100000x40 .f32) (i : IVec S3300000x1 32) (u : FVec Ideal S3300000x40 .f32)
    (r : Fin 100000) (c : Fin 40) :
    Host.scatterAdd (F := Ideal) scatter_S100000x40_S3300000x1_S3300000x40_1_0_0_1 a i u (ix2 r c)
      = a (ix2 r c) + ∑ e : Fin 3300000, if (i (ix2 e (0 : Fin 1))).toInt = (r.val : Int) then u (ix2 e c) else 0 := by
  rw [scatterAdd_ideal]
  exact Cert.Lib.ScatterRows.scatterAdd_rows_apply (N := 100000) (R := 3300000) (D := 40)
    scatter_S100000x40_S3300000x1_S3300000x40_1_0_0_1_wf a i u r c

/-- A vector of length `T` spread along the rows of a `[T, 40]` matrix: entry `(e, c)` is entry `e`. -/
theorem spread40_apply {α : Type} (w : S3300000.Idx → α) (e : Fin 3300000) (c : Fin 40) :
    broadcastInDim S3300000x40 ![0, 1] bcast_S3300000x1_S3300000x40_0_1
      (broadcastInDim S3300000x1 ![0] bcast_S3300000_S3300000x1_0 w) (ix2 e c) = w (ix1 e) :=
  (broadcastInDim_apply _ bcast_S3300000x1_S3300000x40_0_1 _ (ix2 e c) (ix2 e (0 : Fin 1)) (fun a => match a with
    | ⟨0, _⟩ => by show e.val = if (3300000 : Nat) = 1 then 0 else e.val; rw [if_neg (by decide)]
    | ⟨1, _⟩ => by show 0 = if (1 : Nat) = 1 then 0 else c.val; rw [if_pos rfl])).trans
  (broadcastInDim_apply _ bcast_S3300000_S3300000x1_0 w (ix2 e (0 : Fin 1)) (ix1 e) (fun a => match a with
    | ⟨0, _⟩ => by show e.val = if (3300000 : Nat) = 1 then 0 else e.val; rw [if_neg (by decide)]))

/-! ## The long list of the second layer -/

variable (x0 : (⟨S100000x512, .f32⟩ : BufTy).Contents (Elt Ideal)) (x1 : EI) (x2 : (⟨S512x16, .f32⟩ : BufTy).Contents (Elt Ideal))
  (x3 : (⟨S16, .f32⟩ : BufTy).Contents (Elt Ideal)) (x4 : (⟨S16x40, .f32⟩ : BufTy).Contents (Elt Ideal))

/-- The long list of layer 2 (edges, then one loop per node): its source words and target words. -/
def S2 (e' : Fin 3300000) : BitVec 32 := val_main_v50 (F := Ideal) x1 (ix1 e')
def D2 (e' : Fin 3300000) : BitVec 32 := val_main_v51 (F := Ideal) x1 (ix1 e')

theorem S2_edge (e : Fin 3200000) : S2 x1 ⟨e.val, by omega⟩ = src x1 e := by
  unfold S2 src val_main_v50
  exact Cert.Lib.ConcatVec.concat_vec_left_of_eq (A := 3200000) (B := 100000) (T := 3300000) long_eq
    (val_main_v1 (F := Ideal) x1) (val_main_v49 (F := Ideal)) concatenates_S3200000_S100000_S3300000_d0 e

theorem S2_loop (j : Fin 100000) : S2 x1 ⟨3200000 + j.val, by omega⟩ = BitVec.ofNat 32 j.val := by
  unfold S2 val_main_v50
  exact Cert.Lib.ConcatVec.concat_vec_right_of_eq (A := 3200000) (B := 100000) (T := 3300000) long_eq
    (val_main_v1 (F := Ideal) x1) (val_main_v49 (F := Ideal)) concatenates_S3200000_S100000_S3300000_d0 j

theorem D2_edge (e : Fin 3200000) : D2 x1 ⟨e.val, by omega⟩ = dst x1 e := by
  unfold D2 dst val_main_v51
  exact Cert.Lib.ConcatVec.concat_vec_left_of_eq (A := 3200000) (B := 100000) (T := 3300000) long_eq
    (val_main_v3 (F := Ideal) x1) (val_main_v49 (F := Ideal)) concatenates_S3200000_S100000_S3300000_d0 e

theorem D2_loop (j : Fin 100000) : D2 x1 ⟨3200000 + j.val, by omega⟩ = BitVec.ofNat 32 j.val := by
  unfold D2 val_main_v51
  exact Cert.Lib.ConcatVec.concat_vec_right_of_eq (A := 3200000) (B := 100000) (T := 3300000) long_eq
    (val_main_v3 (F := Ideal) x1) (val_main_v49 (F := Ideal)) concatenates_S3200000_S100000_S3300000_d0 j

/-! ## Layer 2: the degree and the normalisation -/

/-- The column of target words read at `(e', ·)`: entry `e'` of the long list. -/
theorem v54_at (e' : Fin 3300000) (u : Fin 1) : val_main_v54 (F := Ideal) x1 (ix2 e' u) = D2 x1 e' := by
  unfold val_main_v54
  exact colT_apply (val_main_v51 (F := Ideal) x1) (ix2 e' u)

/-- The degree of node `j`: the number of entries of the long list that end at `j`. -/
theorem deg2_at (j : Fin 100000) :
    val_main_v55 (F := Ideal) x1 (ix1 j)
      = 0 + ∑ e' : Fin 3300000, if (D2 x1 e').toInt = (j.val : Int) then (1 : EReal) else 0 := by
  unfold val_main_v55
  refine (scatterVec_apply _ _ _ j).trans ?_
  have h0 : val_main_v53 (F := Ideal) (ix1 j) = 0 := by
    rw [val_main_v53_apply, val_main_cst_10_apply, Ideal.ofBits_def, Ideal.ofBits_zero_f32]
  have hs : ∀ e' : Fin 3300000,
      (if (val_main_v54 (F := Ideal) x1 (ix2 e' (0 : Fin 1))).toInt = (j.val : Int) then val_main_v52 (F := Ideal) (ix1 e') else 0)
        = if (D2 x1 e').toInt = (j.val : Int) then (1 : EReal) else 0 := fun e' => by
    rw [v54_at, val_main_v52_apply, val_main_cst_9_apply, Ideal.ofBits_def, LayerLaw.one_word]
  rw [h0, Finset.sum_congr rfl fun e' _ => hs e']

/-- The normalisation of node `j` is the inverse square root of one plus the number of edges that end at `j`: the
    long list counts the node's own loop, and the guard "where the degree is positive" always holds. -/
theorem norm2_at (j : Fin 100000) : val_main_v60 (F := Ideal) x1 (ix1 j) = dK x1 j := by
  unfold dK
  rw [val_main_v60_apply, val_main_v57_apply, val_main_v58_apply, val_main_v59_apply, val_main_v56_apply,
    val_main_cst_12_apply, val_main_cst_11_apply, Ideal.ofBits_def, Ideal.ofBits_zero_f32, deg2_at,
    Join.deg_long long_eq (dst x1) (D2 x1) (D2_edge x1) (D2_loop x1) 1 j, ← add_assoc,
    cmpf_ideal, Ideal.hostUnary_rsqrt_def]
  exact Join.guard_pos (dst x1) j

/-! ## Layer 2: the entries' weights -/

/-- The source words with a negative word counted from the end (for the weights). -/
theorem v65_at (e' : Fin 3300000) : val_main_v65 (F := Ideal) x1 (ix1 e') = nrm (S2 x1 e') := by
  rw [val_main_v65_apply, val_main_v62_apply, val_main_v64_apply, val_main_v61_apply, val_main_v63_apply,
    val_main_c_13_apply, val_main_c_14_apply]
  rfl
/-- The target words with a negative word counted from the end. -/
theorem v72_at (e' : Fin 3300000) : val_main_v72 (F := Ideal) x1 (ix1 e') = nrm (D2 x1 e') := by
  rw [val_main_v72_apply, val_main_v69_apply, val_main_v71_apply, val_main_v68_apply, val_main_v70_apply,
    val_main_c_15_apply, val_main_c_16_apply]
  rfl
/-- The source words with a negative word counted from the end (for the features' rows). -/
theorem v81_at (e' : Fin 3300000) : val_main_v81 (F := Ideal) x1 (ix1 e') = nrm (S2 x1 e') := by
  rw [val_main_v81_apply, val_main_v78_apply, val_main_v80_apply, val_main_v77_apply, val_main_v79_apply,
    val_main_c_17_apply, val_main_c_18_apply]
  rfl

/-- The normalisation gathered at an entry's source: that of the row the gather reads for the source word. -/
theorem v67_at (e' : Fin 3300000) : val_main_v67 (F := Ideal) x1 (ix1 e') = dK x1 (row (S2 x1 e')) := by
  unfold val_main_v67 val_main_v66
  refine (gatherVec_apply _ _ e').trans ?_
  refine Eq.trans (congrArg (fun t : Fin 100000 => val_main_v60 (F := Ideal) x1 (ix1 t)) (Fin.ext ?_)) (norm2_at x1 (row (S2 x1 e')))
  show min (val_main_v65 (F := Ideal) x1 (ix1 e')).toInt.toNat (100000 - 1) = min (nrm (S2 x1 e')).toInt.toNat (100000 - 1)
  rw [v65_at]
/-- The normalisation gathered at an entry's target. -/
theorem v74_at (e' : Fin 3300000) : val_main_v74 (F := Ideal) x1 (ix1 e') = dK x1 (row (D2 x1 e')) := by
  unfold val_main_v74 val_main_v73
  refine (gatherVec_apply _ _ e').trans ?_
  refine Eq.trans (congrArg (fun t : Fin 100000 => val_main_v60 (F := Ideal) x1 (ix1 t)) (Fin.ext ?_)) (norm2_at x1 (row (D2 x1 e')))
  show min (val_main_v72 (F := Ideal) x1 (ix1 e')).toInt.toNat (100000 - 1) = min (nrm (D2 x1 e')).toInt.toNat (100000 - 1)
  rw [v72_at]

/-- An entry's weight: the product of the normalisations of its two ends. -/
theorem weight2_at (e' : Fin 3300000) :
    val_main_v75 (F := Ideal) x1 (ix1 e') = dK x1 (row (S2 x1 e')) * dK x1 (row (D2 x1 e')) := by
  rw [val_main_v75_apply, v67_at, v74_at]
  rfl

/-! ## Layer 2: the sum over the long list -/

/-- The features gathered at an entry's source: the features' row the gather reads for the source word. -/
theorem v83_at (e' : Fin 3300000) (c : Fin 40) :
    val_main_v83 (F := Ideal) x0 x1 x2 x3 x4 (ix2 e' c) = val_main_v76 (F := Ideal) x0 x1 x2 x3 x4 (ix2 (row (S2 x1 e')) c) := by
  unfold val_main_v83 val_main_v82
  refine (gatherRows40_apply _ _ e' c).trans ?_
  refine congrArg (fun t : Fin 100000 => val_main_v76 (F := Ideal) x0 x1 x2 x3 x4 (ix2 t c)) (Fin.ext ?_)
  show min (val_main_v81 (F := Ideal) x1 (ix1 e')).toInt.toNat (100000 - 1) = min (nrm (S2 x1 e')).toInt.toNat (100000 - 1)
  rw [v81_at]

/-- The weights spread along the features' columns. -/
theorem v85_at (e' : Fin 3300000) (c : Fin 40) :
    val_main_v85 (F := Ideal) x1 (ix2 e' c) = val_main_v75 (F := Ideal) x1 (ix1 e') := by
  unfold val_main_v85 val_main_v84
  exact spread40_apply _ e' c

/-- An entry's contribution: its source's feature times its weight. -/
theorem v86_at (e' : Fin 3300000) (c : Fin 40) :
    val_main_v86 (F := Ideal) x0 x1 x2 x3 x4 (ix2 e' c)
      = val_main_v76 (F := Ideal) x0 x1 x2 x3 x4 (ix2 (row (S2 x1 e')) c) * (dK x1 (row (S2 x1 e')) * dK x1 (row (D2 x1 e'))) := by
  rw [val_main_v86_apply, v83_at, v85_at, weight2_at]
  rfl

/-- The column of target words the layer's scatter reads, at `(e', ·)`: entry `e'` of the long list. -/
theorem v88_at (e' : Fin 3300000) (u : Fin 1) : val_main_v88 (F := Ideal) x1 (ix2 e' u) = D2 x1 e' := by
  unfold val_main_v88
  exact colT_apply (val_main_v51 (F := Ideal) x1) (ix2 e' u)

/-- THE LAYER OVER THE LONG LIST: entry `(r, c)` is the sum, over the entries that end at `r`, of the source's feature
    times the product of both ends' normalisations. -/
theorem layer2_at (r : Fin 100000) (c : Fin 40) :
    val_main_v89 (F := Ideal) x0 x1 x2 x3 x4 (ix2 r c)
      = 0 + ∑ e' : Fin 3300000, if (D2 x1 e').toInt = (r.val : Int)
          then val_main_v76 (F := Ideal) x0 x1 x2 x3 x4 (ix2 (row (S2 x1 e')) c) * (dK x1 (row (S2 x1 e')) * dK x1 (row (D2 x1 e'))) else 0 := by
  unfold val_main_v89
  refine (scatterRows40_apply _ _ _ r c).trans ?_
  have h0 : val_main_v87 (F := Ideal) (ix2 r c) = 0 := by
    rw [val_main_v87_apply, val_main_cst_19_apply, Ideal.ofBits_def, Ideal.ofBits_zero_f32]
  have hs : ∀ e' : Fin 3300000,
      (if (val_main_v88 (F := Ideal) x1 (ix2 e' (0 : Fin 1))).toInt = (r.val : Int)
          then val_main_v86 (F := Ideal) x0 x1 x2 x3 x4 (ix2 e' c) else 0)
        = if (D2 x1 e').toInt = (r.val : Int)
          then val_main_v76 (F := Ideal) x0 x1 x2 x3 x4 (ix2 (row (S2 x1 e')) c) * (dK x1 (row (S2 x1 e')) * dK x1 (row (D2 x1 e'))) else 0 := fun e' => by
    rw [v88_at, v86_at]
  rw [h0, Finset.sum_congr rfl fun e' _ => hs e']

/-- THE LAYER: the node's normalisation times the sum, over the edges that end at `r`, of the source's feature times
    the source's normalisation, plus the node's own feature times its normalisation squared — the long list split into
    the edges and the loops, the loop at `r` being the only loop that ends at `r`. -/
theorem layer2_join (r : Fin 100000) (c : Fin 40) :
    val_main_v89 (F := Ideal) x0 x1 x2 x3 x4 (ix2 r c)
      = dK x1 r * (0 + ∑ e : Fin 3200000, if (dst x1 e).toInt = (r.val : Int)
            then val_main_v76 (F := Ideal) x0 x1 x2 x3 x4 (ix2 (row (src x1 e)) c) * dK x1 (row (src x1 e)) else 0)
        + (dK x1 r * dK x1 r) * val_main_v76 (F := Ideal) x0 x1 x2 x3 x4 (ix2 r c) :=
  (layer2_at x0 x1 x2 x3 x4 r c).trans
    (Join.long_layer long_eq (src x1) (dst x1) (S2 x1) (D2 x1) (S2_edge x1) (S2_loop x1) (D2_edge x1) (D2_loop x1)
      (dK x1) (fun j => Join.norm_nonneg (dst x1) j) (fun j => val_main_v76 (F := Ideal) x0 x1 x2 x3 x4 (ix2 j c)) r)

end Cert.ReferenceIdeal.RefLayer

end
-- ==== Proof.Bridge.lean ====
/-
  The kernel program's result and the reference's are one function of the six argument arrays.

  Both programs are the same pipeline: project the node features (a matrix product), mix the rows along the edges of
  the graph (a layer), add the bias and cut off below at zero, project again, mix again, add the second bias and take
  the logarithm of each row's softmax. The dense stages are the same sums on both sides. The layers are computed two
  ways — one program works on the edges and treats each node's loop to itself in closed form, the other appends the
  loops to the edge list — and agree by the layer law: a node's normalisation is a real number that is not negative,
  so it may be moved across the sum over the edges, whatever the features are. Entry by entry, from the inside out:
  the two programs read the same edge words (`src_eq`, `dst_eq`), have the same normalisation (`norm_eq`), the same
  first projection (`proj_eq`), hence the same first layer (`layer1_eq`), the same second projection (`reluProj_eq`),
  the same second layer (`layer2_eq`) and the same result (`out_eq`).
-/
import proofs.«116229_j74002286510429_2_alg».proof.Proof.KernelValue
import proofs.«116229_j74002286510429_2_alg».proof.Proof.KernelLayer
import proofs.«116229_j74002286510429_2_alg».proof.Proof.RefDense
import proofs.«116229_j74002286510429_2_alg».proof.Proof.RefLayer2
import proofs.«116229_j74002286510429_2_alg».proof.Proof.Spec

noncomputable section

namespace Cert.Bridge

open Idealize.ShloMosaic Idealize.ShloMosaic.ValueIdx Cert.EdgeWords
open Cert.KernelIdeal.KVal Cert.ReferenceIdeal.ReadP Cert.ReferenceIdeal.RefDense Cert.ReferenceIdeal.RefLayer

variable (x : (⟨Cert.ReferenceIdeal.S100000x512, .f32⟩ : BufTy).Contents (Elt Ideal))
  (ei : (⟨Cert.ReferenceIdeal.S2x3200000, .i32⟩ : BufTy).Contents (Elt Ideal))
  (w1 : (⟨Cert.ReferenceIdeal.S512x16, .f32⟩ : BufTy).Contents (Elt Ideal))
  (b1 : (⟨Cert.ReferenceIdeal.S16, .f32⟩ : BufTy).Contents (Elt Ideal))
  (w2 : (⟨Cert.ReferenceIdeal.S16x40, .f32⟩ : BufTy).Contents (Elt Ideal))
  (b2 : (⟨Cert.ReferenceIdeal.S40, .f32⟩ : BufTy).Contents (Elt Ideal))

/-- Both programs cut the same two rows of words out of the edge list. -/
theorem src_eq (e : Fin 3200000) : kSrc ei (ix1 e) = src ei e := rfl
theorem dst_eq (e : Fin 3200000) : kDst ei (ix1 e) = dst ei e := rfl

/-- The normalisation of node `j` is the same number in both. -/
theorem norm_eq (j : Fin 100000) : kDinv (kDst ei) (ix1 j) = dK ei j := by
  rw [kDinv_apply]
  simp only [dst_eq]
  rfl

/-- The first projection is the same sum in both. -/
theorem proj_eq (r : Fin 100000) (k : Fin 16) :
    Spec.proj x w1 (ix2 r k) = val_main_v31 (F := Ideal) x w1 (ix2 r k) := by
  rw [Spec.proj_apply, ref_proj]

/-- The first layer, entry by entry. -/
theorem layer1_eq (r : Fin 100000) (k : Fin 16) :
    kLayer16 (kSrc ei) (kDst ei) (kDinv (kDst ei)) (Spec.proj x w1) (ix2 r k) = val_main_v44 (F := Ideal) x ei w1 (ix2 r k) := by
  rw [kLayer16_apply, layer1_join]
  simp only [src_eq, dst_eq, norm_eq, proj_eq]

/-- The bias added, the cut at zero and the second projection, entry by entry. -/
theorem reluProj_eq (r : Fin 100000) (c : Fin 40) :
    Spec.reluProj (kLayer16 (kSrc ei) (kDst ei) (kDinv (kDst ei)) (Spec.proj x w1)) (kBias16 b1) w2 (ix2 r c)
      = val_main_v76 (F := Ideal) x ei w1 b1 w2 (ix2 r c) := by
  rw [Spec.reluProj_apply, ref_reluProj]
  simp only [layer1_eq, kBias16_apply]

/-- The second layer, entry by entry. -/
theorem layer2_eq (r : Fin 100000) (c : Fin 40) :
    kLayer40 (kSrc ei) (kDst ei) (kDinv (kDst ei))
        (Spec.reluProj (kLayer16 (kSrc ei) (kDst ei) (kDinv (kDst ei)) (Spec.proj x w1)) (kBias16 b1) w2) (ix2 r c)
      = val_main_v89 (F := Ideal) x ei w1 b1 w2 (ix2 r c) := by
  rw [kLayer40_apply, layer2_join]
  simp only [src_eq, dst_eq, norm_eq, reluProj_eq]

/-- THE TWO RESULTS ARE ONE FUNCTION of the argument arrays. -/
theorem out_eq : KOut x ei w1 b1 w2 b2 = val_main_v93 (F := Ideal) x ei w1 b1 w2 b2 := by
  funext i
  obtain ⟨r, c, rfl⟩ : ∃ (r : Fin 100000) (c : Fin 40), i = ix2 r c := ⟨i 0, i 1, eq_ix2 i⟩
  unfold KOut
  rw [Spec.logsm_apply, ref_logsm]
  simp only [layer2_eq, kBias40_apply]

end Cert.Bridge

end
-- ==== Proof.lean ====
/-
  A two-layer graph convolution with a log-softmax head, as three tiled kernels among host operations, against its
  plain array-language reference: the two idealized programs compute the same function of their six argument arrays
  over the extended reals, and every program runs to the end without a fault, leaving its arguments as they were.

  THE MATHEMATICS. Write `h = x · W1`, `c j` for the number of edges that end at node `j` and
  `d j = (c j + 1)^(−1/2)`, a real number in `(0, 1]`. One layer of the kernel program is
      `out r = d r · ∑_{e → r} (h (s e) · d (s e))  +  (d r · d r) · h r`,
  the sum over the edges that end at `r`, `s e` the row a gather reads for the edge's source word; the reference
  appends a loop at every node to the edge list and computes
      `out r = ∑_{e → r, loops included} h (s e) · (d (s e) · d (t e))`,
  where the degree is counted over the long list (so it is `c j + 1` too, and the reference's guard "where the degree
  is positive" always holds) and `t e` is the row a gather reads for the target word — which is `r` itself for an
  entry that a scatter lands on `r`. The two agree because `d r` is a real number that is not negative: such a factor
  distributes over a sum of extended reals whatever the summands are, so no finiteness of the features is used and
  the precondition is never opened. Around the layers both programs apply the same dense stages — a matrix product, a
  bias and a cut at zero before the second product, a bias and the shifted log-softmax of each row at the end — which
  are the same sums at the extended reals (a matrix product into a zero accumulator is the host's contraction, a
  vector reduction is the host's reduce; the row maximum is a fold from the same starting word on both sides).
  Words that name no node behave alike in both: a scatter drops them, a gather cuts them into range, and both
  programs apply the same two operations to the same words.

  THE PIECES. `KVal.kernel_run` is the kernel program's run with its result array named as the function `KVal.KOut`
  of the arguments (the three regions' outputs as whole-array functions, the host stretches between them as their
  operations' terms); `RunH.ref_run` is the reference's run with its result at `ReadP.val_main_v93` of the arguments;
  `Bridge.out_eq` is that these are one function. The frames of the two kernel programs are the generated ones; the
  reference's is its run with the result dropped. The idealization rewrote nothing, so `preserves` is `True`.
-/
import proofs.«116229_j74002286510429_2_alg».proof.Proof.Gen.Kernel
import proofs.«116229_j74002286510429_2_alg».proof.Proof.Gen.Kernel.Skeleton
import proofs.«116229_j74002286510429_2_alg».proof.Proof.Gen.Kernel.Launch
import proofs.«116229_j74002286510429_2_alg».proof.Proof.Gen.Kernel.Points
import proofs.«116229_j74002286510429_2_alg».proof.Proof.Gen.Kernel.Frame
import proofs.«116229_j74002286510429_2_alg».proof.Proof.Gen.KernelIdeal
import proofs.«116229_j74002286510429_2_alg».proof.Proof.Gen.KernelIdeal.Skeleton
import proofs.«116229_j74002286510429_2_alg».proof.Proof.Gen.KernelIdeal.Launch
import proofs.«116229_j74002286510429_2_alg».proof.Proof.Gen.KernelIdeal.Points
import proofs.«116229_j74002286510429_2_alg».proof.Proof.Gen.KernelIdeal.Frame
import proofs.«116229_j74002286510429_2_alg».proof.Proof.Gen.ReferenceIdeal
import proofs.«116229_j74002286510429_2_alg».proof.Proof.Gen.Pre_finite_inputs
import proofs.«116229_j74002286510429_2_alg».proof.Proof.KernelValue
import proofs.«116229_j74002286510429_2_alg».proof.Proof.RefRun
import proofs.«116229_j74002286510429_2_alg».proof.Proof.Bridge
import proofs.«116229_j74002286510429_2_alg».proof.Defs
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.RunH.ref_run m ρ)

/-- The idealization rewrote no operation. -/
theorem preserves : Cert.preserves_Kernel_KernelIdeal := trivial

/-- From memories that agree on the arguments the two idealized programs end with the same result array: the kernel
    program's is `KOut` of its arguments, the reference's `val_main_v93` of its own, and these are one function. -/
theorem algebraic : Cert.algebraic_KernelIdeal_ReferenceIdeal := by
  intro m ρ m' ρ' _ hagree
  refine ⟨_, Cert.KernelIdeal.KVal.kernel_run m ρ, ?_⟩
  refine (θ_run Cert.ReferenceIdeal.defs _ _).mono (fun _ h c => ⟨(h c).1.trans ?_, (h c).2⟩)
    (Cert.ReferenceIdeal.RunH.ref_run m' ρ')
  rw [(hagree c).1, (hagree c).2.1, (hagree c).2.2.1, (hagree c).2.2.2.1, (hagree c).2.2.2.2.1, (hagree c).2.2.2.2.2]
  exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
